-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S6400x128 : Shape := ⟨2, ![6400, 128]⟩
abbrev S1x128 : Shape := ⟨2, ![1, 128]⟩
abbrev S5000x128 : Shape := ⟨2, ![5000, 128]⟩

abbrev nBuf : Space → Nat
  | .hbm => 30
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S1x128, .f32⟩
  | .hbm, ⟨29, _⟩ => ⟨S100000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S1x128, .f32⟩
  | .local _ .vmem, ⟨27, _⟩ => ⟨S1x128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem10_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_22 : BitVec 32 := 0#32
  let v42 : BitVec 1 := Scalar.cmpi .ne v41 c0_i32_22
  v42

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .f32 = 32 ∨ (Rect.block (s := S100000x128) S5000x128.size (cc2_transform_10 i) (hinb2_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15_0) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15_1) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg8) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v16) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_cst_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_cst_1 : Ref sig .tc := ⟨.hbm, 61, rfl⟩
abbrev main_call2_v8 : Ref sig .tc := ⟨.hbm, 62, rfl⟩
abbrev main_call2_cst_2 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_cst_3 : Ref sig .tc := ⟨.hbm, 67, rfl⟩
abbrev main_call2_v12 : Ref sig .tc := ⟨.hbm, 68, rfl⟩
abbrev main_call2_cst_4 : Ref sig .tc := ⟨.hbm, 69, rfl⟩
abbrev main_call2_call0_v0 : Ref sig .tc := ⟨.hbm, 70, rfl⟩
abbrev main_call2_call0_v1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_5 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_call3_cst : Ref sig .tc := ⟨.hbm, 89, rfl⟩
abbrev main_call3_v0 : Ref sig .tc := ⟨.hbm, 90, rfl⟩
abbrev main_v47 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRegion0.lean ====
/-
  The first staged region: the per-edge message.  At every grid point the body reads one block of the
  gathered source rows and one block of the edge attributes, both of 6400 rows, and leaves in the output
  block the rectified sum  max (xs + ea) 0, entry by entry.  Stated at any buffer contents `V` the region
  may be entered with, and at any float instance.
-/
import proofs.«142418_j19868518711757_1_alg».proof.Proof.Gen.KernelIdeal.Launch
import proofs.«142418_j19868518711757_1_alg».proof.Proof.Gen.KernelIdeal.Skeleton
import proofs.«142418_j19868518711757_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter, fixed by whoever strings the regions together
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered rows' staging buffer holds the point's block of them, for any proof data over `V` whose
    body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the edge attributes' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle: the whole 6400 x 128 block -/

abbrev r0_0 : Rect S6400x128 := Rect.unit (s := S6400x128) ![0, 0] S6400x128.size inb_S6400x128_S6400x128_0_0

/-! ## What the body leaves in the output block -/

/-- The output block after the body, from the two input blocks: one store over the whole block, of the
    rectified sum of what the two loads read. -/
def out0_2 (x0 : Vec F S6400x128 .f32) (x1 : Vec F S6400x128 .f32) : Vec F S6400x128 .f32 :=
  View.canon [⟨r0_0, k0_pay1 (View.ld x0 r0_0) (View.ld x1 r0_0)⟩]

/-- The one store covers the block. -/
theorem cover0_2 (p0 : Vec F S6400x128 .f32) (y : S6400x128.Idx) :
    ∃ pc ∈ ([⟨r0_0, p0⟩] : List (View.Piece (Elt F) S6400x128 .f32)), y ∈ pc.1.set :=
  View.cover_of_tiled [⟨r0_0, p0⟩] S6400x128.size (by rfl) y

/-! ## The body's triple -/

set_option maxHeartbeats 1000000 in
/-- The body on whole staging memrefs, the two inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S6400x128 .f32) (harg1 : arg1.IsWhole) (arg2 : Memref sig .tc .vmem S6400x128 .f32) (harg2 : arg2.IsWhole) (arg3 : Memref sig .tc .vmem S6400x128 .f32) (harg3 : arg3.IsWhole)
    (x0 : Vec F S6400x128 .f32) (x1 : Vec F S6400x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__msg_kernel i arg1 harg1 arg2 harg2 arg3 harg3) K := by
  simp only [cc0__msg_kernel_eq_skeleton]; unfold cc0__msg_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays at the entry contents `V`; after the body at point `t`
    each input's buffer at its block and the output's at `out0_2` of the two input blocks; the invariant that
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KRegion2.lean ====
/-
  The third staged region: the normalisation.  At every grid point the body reads one block of 5000 rows of
  the node features and of the aggregated messages, the two weight matrices and biases, the column means and
  variances the statistics region left, and the scale and shift vectors; it recomputes the block's rows of
  the second affine map and leaves in the output block
    max ((lin − mean) · rsqrt (var + ε) · γ + β) 0,
  entry by entry.  Stated at any buffer contents `V` the region may be entered with, and at any float instance.
-/
import proofs.«142418_j19868518711757_1_alg».proof.Proof.Gen.KernelIdeal.Launch
import proofs.«142418_j19868518711757_1_alg».proof.Proof.Gen.KernelIdeal.Skeleton
import proofs.«142418_j19868518711757_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter, fixed by whoever strings the regions together
variable (V : (c : Dev nD) → (b : Ref sig .tc) → Buf (Elt F) ((c : Thread nD τ).loc b))

/-! ## The windows' blocks -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's staging buffer holds the point's block of its array, for any proof data over `V` whose body
    leaves that block in place — whether the block was fetched at the point or, its index not having moved
    (the whole-array operands), stayed from the point before. -/

/-- The node features' block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The aggregated messages' block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first weight matrix. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first bias. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second weight matrix. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The second bias. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The column means. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The column variances. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The scale vector. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The shift vector. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles: each buffer whole -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0
abbrev r2_3 : Rect S1x128 := Rect.unit (s := S1x128) ![0, 0] S1x128.size inb_S1x128_S1x128_0_0

/-! ## What the body leaves in the output block -/

/-- The output block after the body, from the ten input blocks: one store over the whole block, of the
    normalised, scaled, shifted and rectified rows (the variance is read before the mean). -/
def out2_10 (x0 : Vec F S5000x128 .f32) (x1 : Vec F S5000x128 .f32) (x2 : Vec F S128x128 .f32) (x3 : Vec F S128 .f32) (x4 : Vec F S128x128 .f32) (x5 : Vec F S128 .f32)
    (x6 : Vec F S1x128 .f32) (x7 : Vec F S1x128 .f32) (x8 : Vec F S128 .f32) (x9 : Vec F S128 .f32) : Vec F S5000x128 .f32 :=
  View.canon [⟨r2_0, k2_pay1 (k2_pay2 (View.ld x0 r2_0) (View.ld x1 r2_0) (View.ld x2 r2_1) (View.ld x3 r2_2) (View.ld x4 r2_1) (View.ld x5 r2_2)
      (View.ld x7 r2_3) (View.ld x6 r2_3) (View.ld x8 r2_2)) (k2_pay3 (View.ld x9 r2_2))⟩]

/-- The one store covers the block. -/
theorem cover2_10 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- The body on whole staging memrefs, the ten inputs' at read contents `x0 … x9` and the output's at anything,
    runs to the continuation holding the inputs' as they were and the output's at `out2_10` of them. -/
theorem sound_kernel2 (c : Dev nD) (E : Set ℕ) (i : grid2.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S5000x128 .f32) (harg11 : arg11.IsWhole)
    (x0 : Vec F S5000x128 .f32) (x1 : Vec F S5000x128 .f32) (x2 : Vec F S128x128 .f32) (x3 : Vec F S128 .f32) (x4 : Vec F S128x128 .f32) (x5 : Vec F S128 .f32) (x6 : Vec F S1x128 .f32) (x7 : Vec F S1x128 .f32) (x8 : Vec F S128 .f32) (x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__norm_kernel i arg1 harg1 arg2 harg2 arg3 harg3 arg4 harg4 arg5 harg5 arg6 harg6 arg7 harg7 arg8 harg8 arg9 harg9 arg10 harg10 arg11 harg11) K := by
  simp only [cc2__norm_kernel_eq_skeleton]; unfold cc2__norm_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

/-! ## The region's proof data -/

/-- The proof data of the region on core `c`: the arrays at the entry contents `V`; after the body at point `t`
    each input's buffer at its block and the output's at `out2_10` of the ten input blocks; the invariant that
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KStatsBase.lean ====
/-
  The statistics kernel (the second of the three kernels), first part: what its run is stated over.
  The kernel visits 20 blocks of 5000 rows.  At each block it forms the block's rows after the two affine maps
  and adds the block's column sums, and the column sums of the squares, into two 1×128 accumulators that live
  across the visits; the first visit clears the accumulators before adding, the last visit divides them by the
  number of rows and stores the column means and the column variances.  So a visit is in one of three cases
  (first / middle / last), told apart by two conditions on the block's position.
-/
import proofs.«142418_j19868518711757_1_alg».proof.Proof.Gen.KernelIdeal.Launch
import proofs.«142418_j19868518711757_1_alg».proof.Proof.Gen.KernelIdeal.Skeleton
import proofs.«142418_j19868518711757_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at visit `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every visit, whether or not it is fetched again there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every visit, whether or not it is fetched again there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every visit, whether or not it is fetched again there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every visit, whether or not it is fetched again there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every visit, whether or not it is fetched again there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every visit, whether or not it is fetched again there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions that tell the cases apart -/

/-- "This is the first block": the accumulators are cleared. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

/-- "This is the last block": the means and variances are stored. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Before the last block the kernel stores nothing into output 6, and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last block output 6 is live. -/
theorem liveAt1_6_C : ∀ t : Fin cfg1.N, cond1_1 (grid1.coords t) → cfg1.idle 6 (grid1.coords t) = false := by decide +kernel
/-- Before the last block the kernel stores nothing into output 7, and its block is not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last block output 7 is live. -/
theorem liveAt1_7_C : ∀ t : Fin cfg1.N, cond1_1 (grid1.coords t) → cfg1.idle 7 (grid1.coords t) = false := by decide +kernel

/-! ## The memrefs the kernel is called with -/

/-- One staging buffer of each output, through which its contents are stated. -/
abbrev VO1_6 : View sig .tc .vmem S1x128 .f32 := (Memref.whole cc1_stg6_0 : Memref sig .tc .vmem S1x128 .f32).view
abbrev VO1_7 : View sig .tc .vmem S1x128 .f32 := (Memref.whole cc1_stg7_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
/-- The two accumulators: whole buffers of the kernel's own, kept across the visits. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

end Cert.KernelIdeal.Hand

end
-- ==== Proof.KStatsRunA.lean ====
/-
  The statistics kernel at its FIRST block: the body on whole staging buffers clears the two accumulators, adds the
  block's column sums and the column sums of the squares, and touches neither output.  What each accumulator ends
  with is recorded as the list of stores the run finds.
-/
import proofs.«142418_j19868518711757_1_alg».proof.Proof.KStatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block: inputs at their blocks, both outputs at contents handed back untouched, the two
    accumulators at anything; it ends with the inputs and outputs as they were and each accumulator with its stores
    written. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) :
    Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) K } := by
  refine ⟨?_, ?_, fun xi6 xi7 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexists _; iexact HS1

end Cert.KernelIdeal.Hand

end
-- ==== Proof.KStatsRunB.lean ====
/-
  The statistics kernel at a MIDDLE block: the body adds the block's column sums and the column sums of the squares
  into the two accumulators, which it finds at what the block before left, and touches neither output.
-/
import proofs.«142418_j19868518711757_1_alg».proof.Proof.KStatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle block: inputs at their blocks, both outputs handed back untouched, the accumulators at the
    contents `xs0`, `xs1` the block before left; each accumulator ends with its stores written. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) K } := by
  refine ⟨?_, ?_, fun xi6 xi7 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexists _; iexact HS1

end Cert.KernelIdeal.Hand

end
-- ==== Proof.KStatsRunC.lean ====
/-
  The statistics kernel at its LAST block: the body adds the block's column sums and the column sums of the squares
  into the two accumulators, then divides them by the number of rows and stores the column means into the first
  output and the mean of squares minus the squared mean into the second.
-/
import proofs.«142418_j19868518711757_1_alg».proof.Proof.KStatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last block: inputs at their blocks, the outputs at anything, the accumulators at the contents
    `xs0`, `xs1` the block before left; the outputs and the accumulators end with their stores written. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    Σ' (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [HS0]
    · iexists _; iexact HS0
    iexists _; iexact HS1

end Cert.KernelIdeal.Hand

end
-- ==== Proof.KStats.lean ====
/-
  The statistics kernel, second part: what its two accumulators and its two outputs hold after each block, the
  invariant that carries the accumulators from one block to the next, and the obligation the pipeline asks of the
  kernel's body at every block.

  After block n the first accumulator holds the column sums of the rows of blocks 0..n after the two affine maps,
  the second the column sums of their squares; the means and variances are stored at the last block only, and until
  then the two output buffers are left as they were found.
-/
import proofs.«142418_j19868518711757_1_alg».proof.Proof.KStatsRunA
import proofs.«142418_j19868518711757_1_alg».proof.Proof.KStatsRunB
import proofs.«142418_j19868518711757_1_alg».proof.Proof.KStatsRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An output buffer the kernel has not stored into yet: contents nobody reads. -/
def idleOut1 : Vec F S1x128 .f32 := VO1_6.read (Elt F) VO1_6.junk

/-- The stores of case A recorded for `sout1_A_0` tile the 1×128 buffer, so they cover it. -/
theorem cover_sout1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (y : S1x128.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).1 S1x128.size (by sl_kernel_rfl) y

/-- What case A leaves there: its stores read back. -/
def sout1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 hc0 hc1 x0 x1 x2 x3 x4 x5).1)

/-- The stores of case A recorded for `sout1_A_1` tile the 1×128 buffer, so they cover it. -/
theorem cover_sout1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (y : S1x128.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).2.1 S1x128.size (by sl_kernel_rfl) y

/-- What case A leaves there: its stores read back. -/
def sout1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 hc0 hc1 x0 x1 x2 x3 x4 x5).2.1)

/-- The stores of case B recorded for `sout1_B_0` tile the 1×128 buffer, so they cover it. -/
theorem cover_sout1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).1 S1x128.size (by sl_kernel_rfl) y

/-- What case B leaves there: its stores read back. -/
def sout1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).1)

/-- The stores of case B recorded for `sout1_B_1` tile the 1×128 buffer, so they cover it. -/
theorem cover_sout1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).2.1 S1x128.size (by sl_kernel_rfl) y

/-- What case B leaves there: its stores read back. -/
def sout1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- The stores of case C recorded for `out1_C_6` tile the 1×128 buffer, so they cover it. -/
theorem cover_out1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).1 S1x128.size (by sl_kernel_rfl) y

/-- What case C leaves there: its stores read back. -/
def out1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).1)

/-- The stores of case C recorded for `out1_C_7` tile the 1×128 buffer, so they cover it. -/
theorem cover_out1_C_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.1 S1x128.size (by sl_kernel_rfl) y

/-- What case C leaves there: its stores read back. -/
def out1_C_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- The stores of case C recorded for `sout1_C_0` tile the 1×128 buffer, so they cover it. -/
theorem cover_sout1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S1x128.size (by sl_kernel_rfl) y

/-- What case C leaves there: its stores read back. -/
def sout1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- The stores of case C recorded for `sout1_C_1` tile the 1×128 buffer, so they cover it. -/
theorem cover_sout1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S1x128.size (by sl_kernel_rfl) y

/-- What case C leaves there: its stores read back. -/
def sout1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-! ## What the buffers hold after each block -/

/-- After block `n`: the two outputs' buffers, then the two accumulators.  The first block is case A, the last case C,
    the others case B; from the second block on the accumulators are found at what the block before left. -/
def outsAt1 (c : Dev nD) : (n : ℕ) → n < cfg1.N → Vec F S1x128 .f32 × Vec F S1x128 .f32 × Vec F S1x128 .f32 × Vec F S1x128 .f32
  | 0, hn => (idleOut1, idleOut1,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 20 = 19 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)
    else
      (idleOut1, idleOut1,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)

/-- At the first block. -/
theorem outsAt1_A (c : Dev nD) (t : Fin cfg1.N) (hc0 : cond1_0 (grid1.coords t)) (hc1 : ¬cond1_1 (grid1.coords t)) (h0 : t.val = 0) :
    outsAt1 V c t.val t.isLt = (idleOut1, idleOut1,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

/-- At a middle block. -/
theorem outsAt1_B (c : Dev nD) (t : Fin cfg1.N) (hc0 : ¬cond1_0 (grid1.coords t)) (hc1 : ¬cond1_1 (grid1.coords t)) (h0 : t.val ≠ 0) (h1 : ¬t.val % 20 = 19) :
    outsAt1 V c t.val t.isLt = (idleOut1, idleOut1,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- At the last block. -/
theorem outsAt1_C (c : Dev nD) (t : Fin cfg1.N) (hc0 : ¬cond1_0 (grid1.coords t)) (hc1 : cond1_1 (grid1.coords t)) (h0 : t.val ≠ 0) (h1 : t.val % 20 = 19) :
    outsAt1 V c t.val t.isLt =
      (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant between blocks -/

/-- Before the first block: every buffer of the kernel's own at anything.  Afterwards: the two accumulators at what the
    block before left, the other buffers at anything. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The class's invariant with the two accumulators split out of the kernel's own buffers. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [Pipeline.scopedRest_split_of_list spec1 c [cc1_scratch0, cc1_scratch1] (by decide) (by decide)]
  simp only [scM1_0, scM1_1, owns_whole]; try rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end Cert.KernelIdeal.Hand

end
-- ==== Proof.KStatsBody.lean ====
/-
  The statistics kernel, third part: the obligation the pipeline asks of the kernel's body at every block.  The block's
  position decides the case; the inputs' buffers hold their blocks; the invariant hands the body the two accumulators
  (at anything before the first block, at what the block before left afterwards) and takes them back at this block's
  contents; before the last block the two outputs' buffers go back as they came.
-/
import proofs.«142418_j19868518711757_1_alg».proof.Proof.KStats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at block `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val = 0
  · -- the first block
    have hc0 : cond1_0 (grid1.coords t) := (hcond1_0 t).mpr (by omega)
    have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t hc1) (noFlush1_6 t hc1)]
    rw [Dat.leavesExact_idle (dat1 V c) 7 t (idleAt1_7 t hc1) (noFlush1_7 t hc1)]
    rw [outsAt1_A V c t hc0 hc1 h0]
    unfold sout1_A_0 sout1_A_1; (try dsimp only)
    rw [PhiS1_castSucc V c t, PhiS1_zero V c _ _ h0, PhiA1_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hbut Hg]
    · isplitl [HS0 HS1 Hbut]
      · isplitl [HS0 HS1]
        · isplitl [HS0]
          · unfold owns; iexists _; isplitr
            swap; · iexact HS0
            ipureintro; exact View.read_writes_of_cover _ _ _ _ _ (cover_sout1_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (cover_sout1_A_1 c _ _ _ _ _ _ _ _ _ _ _ _ _ _ _ _ _ _ _ _ _ _ _ _ _ _ _ _ _)
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond1_0 (grid1.coords t) := fun h => by have := (hcond1_0 t).mp h; omega
    by_cases h1 : t.val % 20 = 19
    · -- the last block
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t hc1], after1_6]
      rw [show (dat1 V c).leavesExact 7 t = owns (c : Thread nD τ) (ms1_7 t) fullShare ((dat1 V c).after 7 t) from by
        unfold Dat.leavesExact; rw [liveAt1_7_C t hc1], after1_7]
      rw [outsAt1_C V c t hc0 hc1 h0 h1]
      unfold out1_C_6 out1_C_7 sout1_C_0 sout1_C_1; (try dsimp only)
      rw [PhiS1_castSucc V c t, PhiS1_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hbut Hg]
      · isplitl [HS0 HS1 Hbut]
        · isplitl [HS0 HS1]
          · isplitl [HS0]
            · unfold owns; iexists _; isplitr
              swap; · iexact HS0
              ipureintro; exact View.read_writes_of_cover _ _ _ _ _ (cover_sout1_C_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_sout1_C_1 c _ _ _ _ _ _ _ _ _ _ _ _ _ _ _ _ _ _ _ _ _ _ _ _ _ _ _ _ _ _ _)
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover_out1_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover_out1_C_7 c _ _ _ _ _ _ _ _ _ _ _ _ _ _ _ _ _ _ _ _ _ _ _ _ _ _ _ _ _ _ _)
    · -- a middle block
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t hc1) (noFlush1_6 t hc1)]
      rw [Dat.leavesExact_idle (dat1 V c) 7 t (idleAt1_7 t hc1) (noFlush1_7 t hc1)]
      rw [outsAt1_B V c t hc0 hc1 h0 h1]
      unfold sout1_B_0 sout1_B_1; (try dsimp only)
      rw [PhiS1_castSucc V c t, PhiS1_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hbut Hg]
      · isplitl [HS0 HS1 Hbut]
        · isplitl [HS0 HS1]
          · isplitl [HS0]
            · unfold owns; iexists _; isplitr
              swap; · iexact HS0
              ipureintro; exact View.read_writes_of_cover _ _ _ _ _ (cover_sout1_B_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_sout1_B_1 c _ _ _ _ _ _ _ _ _ _ _ _ _ _ _ _ _ _ _ _ _ _ _ _ _ _ _ _ _ _ _)
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The pipeline's body obligation, at every block. -/
theorem body_obligation1 (c : Dev nD) : BodyObligation (dat1 (F := F) V c) (defs₀ (F := F)) Variants.none () Set.univ := fun t => by
  rw [bigSep_W1, bigSep_W1]
  exact sound_body1 V c t

/-- What the pipeline hands the kernel before the first block is the invariant there. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last block the invariant gives the class's back: what the accumulators hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨⟨HS0, HS1⟩, Hbut⟩, Hg⟩
  isplitl [HS0 HS1 Hbut]
  · isplitl [HS0 HS1]
    · isplitl [HS0]
      · iexists _; iexact HS0
      iexists _; iexact HS1
    iexact Hbut
  iexact Hg

end Cert.KernelIdeal.Hand

end
-- ==== Proof.KRun.lean ====
/-
  The whole program as five segments — host operations, the message kernel, host operations (the scatter-add), the
  statistics kernel, the normalising kernel — from the launch to the return: what every buffer holds at each
  segment boundary, each kernel's segment record, and the run: every weakly fair execution ends, nothing faulting,
  with every buffer that is not a kernel's own at the last boundary's contents.  From that the arguments are read
  back unchanged, and the result is what the last kernel's write-backs leave.
-/
import proofs.«142418_j19868518711757_1_alg».proof.Proof.KRegion0
import proofs.«142418_j19868518711757_1_alg».proof.Proof.KRegion2
import proofs.«142418_j19868518711757_1_alg».proof.Proof.KStatsBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At kernel 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At kernel 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At kernel 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 2).trans (((dat2 (V4 m ρ) c).arrAt_in 2 rfl _).trans (A_eq2 (V4 m ρ) c 2))
    _ = W3 m ρ c (Proc.devRef .tc main_arg3) := (W4_arr m ρ c 2).trans (((dat1 (V3 m ρ) c).arrAt_in 2 rfl _).trans (A_eq1 (V3 m ρ) c 2))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 3).trans (((dat2 (V4 m ρ) c).arrAt_in 3 rfl _).trans (A_eq2 (V4 m ρ) c 3))
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := (W5_arr m ρ c 4).trans (((dat2 (V4 m ρ) c).arrAt_in 4 rfl _).trans (A_eq2 (V4 m ρ) c 4))
    _ = W3 m ρ c (Proc.devRef .tc main_arg5) := (W4_arr m ρ c 4).trans (((dat1 (V3 m ρ) c).arrAt_in 4 rfl _).trans (A_eq1 (V3 m ρ) c 4))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (W5_arr m ρ c 5).trans (((dat2 (V4 m ρ) c).arrAt_in 5 rfl _).trans (A_eq2 (V4 m ρ) c 5))
    _ = W3 m ρ c (Proc.devRef .tc main_arg6) := (W4_arr m ρ c 5).trans (((dat1 (V3 m ρ) c).arrAt_in 5 rfl _).trans (A_eq1 (V3 m ρ) c 5))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (W5_arr m ρ c 8).trans (((dat2 (V4 m ρ) c).arrAt_in 8 rfl _).trans (A_eq2 (V4 m ρ) c 8))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := (W5_arr m ρ c 9).trans (((dat2 (V4 m ρ) c).arrAt_in 9 rfl _).trans (A_eq2 (V4 m ρ) c 9))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- Kernel 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program ends, nothing faulting, and
    every final state has every buffer that is no kernel's own at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.BRegion0.lean ====
/-
  The first staged region: the per-edge message.  At every grid point the body reads one block of the
  gathered source rows and one block of the edge attributes, both of 6400 rows, and leaves in the output
  block the rectified sum  max (xs + ea) 0, entry by entry.  Stated at any buffer contents `V` the region
  may be entered with, and at any float instance.
-/
import proofs.«142418_j19868518711757_1_alg».proof.Proof.Gen.Kernel.Launch
import proofs.«142418_j19868518711757_1_alg».proof.Proof.Gen.Kernel.Skeleton
import proofs.«142418_j19868518711757_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter, fixed by whoever strings the regions together
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered rows' staging buffer holds the point's block of them, for any proof data over `V` whose
    body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the edge attributes' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle: the whole 6400 x 128 block -/

abbrev r0_0 : Rect S6400x128 := Rect.unit (s := S6400x128) ![0, 0] S6400x128.size inb_S6400x128_S6400x128_0_0

/-! ## What the body leaves in the output block -/

/-- The output block after the body, from the two input blocks: one store over the whole block, of the
    rectified sum of what the two loads read. -/
def out0_2 (x0 : Vec F S6400x128 .f32) (x1 : Vec F S6400x128 .f32) : Vec F S6400x128 .f32 :=
  View.canon [⟨r0_0, k0_pay1 (View.ld x0 r0_0) (View.ld x1 r0_0)⟩]

/-- The one store covers the block. -/
theorem cover0_2 (p0 : Vec F S6400x128 .f32) (y : S6400x128.Idx) :
    ∃ pc ∈ ([⟨r0_0, p0⟩] : List (View.Piece (Elt F) S6400x128 .f32)), y ∈ pc.1.set :=
  View.cover_of_tiled [⟨r0_0, p0⟩] S6400x128.size (by rfl) y

/-! ## The body's triple -/

set_option maxHeartbeats 1000000 in
/-- The body on whole staging memrefs, the two inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S6400x128 .f32) (harg1 : arg1.IsWhole) (arg2 : Memref sig .tc .vmem S6400x128 .f32) (harg2 : arg2.IsWhole) (arg3 : Memref sig .tc .vmem S6400x128 .f32) (harg3 : arg3.IsWhole)
    (x0 : Vec F S6400x128 .f32) (x1 : Vec F S6400x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__msg_kernel i arg1 harg1 arg2 harg2 arg3 harg3) K := by
  simp only [cc0__msg_kernel_eq_skeleton]; unfold cc0__msg_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays at the entry contents `V`; after the body at point `t`
    each input's buffer at its block and the output's at `out0_2` of the two input blocks; the invariant that
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion2.lean ====
/-
  The third staged region: the normalisation.  At every grid point the body reads one block of 5000 rows of
  the node features and of the aggregated messages, the two weight matrices and biases, the column means and
  variances the statistics region left, and the scale and shift vectors; it recomputes the block's rows of
  the second affine map and leaves in the output block
    max ((lin − mean) · rsqrt (var + ε) · γ + β) 0,
  entry by entry.  Stated at any buffer contents `V` the region may be entered with, and at any float instance.
-/
import proofs.«142418_j19868518711757_1_alg».proof.Proof.Gen.Kernel.Launch
import proofs.«142418_j19868518711757_1_alg».proof.Proof.Gen.Kernel.Skeleton
import proofs.«142418_j19868518711757_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter, fixed by whoever strings the regions together
variable (V : (c : Dev nD) → (b : Ref sig .tc) → Buf (Elt F) ((c : Thread nD τ).loc b))

/-! ## The windows' blocks -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's staging buffer holds the point's block of its array, for any proof data over `V` whose body
    leaves that block in place — whether the block was fetched at the point or, its index not having moved
    (the whole-array operands), stayed from the point before. -/

/-- The node features' block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The aggregated messages' block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first weight matrix. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first bias. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second weight matrix. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The second bias. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The column means. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The column variances. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The scale vector. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The shift vector. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles: each buffer whole -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0
abbrev r2_3 : Rect S1x128 := Rect.unit (s := S1x128) ![0, 0] S1x128.size inb_S1x128_S1x128_0_0

/-! ## What the body leaves in the output block -/

/-- The output block after the body, from the ten input blocks: one store over the whole block, of the
    normalised, scaled, shifted and rectified rows (the variance is read before the mean). -/
def out2_10 (x0 : Vec F S5000x128 .f32) (x1 : Vec F S5000x128 .f32) (x2 : Vec F S128x128 .f32) (x3 : Vec F S128 .f32) (x4 : Vec F S128x128 .f32) (x5 : Vec F S128 .f32)
    (x6 : Vec F S1x128 .f32) (x7 : Vec F S1x128 .f32) (x8 : Vec F S128 .f32) (x9 : Vec F S128 .f32) : Vec F S5000x128 .f32 :=
  View.canon [⟨r2_0, k2_pay1 (k2_pay2 (View.ld x0 r2_0) (View.ld x1 r2_0) (View.ld x2 r2_1) (View.ld x3 r2_2) (View.ld x4 r2_1) (View.ld x5 r2_2)
      (View.ld x7 r2_3) (View.ld x6 r2_3) (View.ld x8 r2_2)) (k2_pay3 (View.ld x9 r2_2))⟩]

/-- The one store covers the block. -/
theorem cover2_10 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- The body on whole staging memrefs, the ten inputs' at read contents `x0 … x9` and the output's at anything,
    runs to the continuation holding the inputs' as they were and the output's at `out2_10` of them. -/
theorem sound_kernel2 (c : Dev nD) (E : Set ℕ) (i : grid2.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S5000x128 .f32) (harg11 : arg11.IsWhole)
    (x0 : Vec F S5000x128 .f32) (x1 : Vec F S5000x128 .f32) (x2 : Vec F S128x128 .f32) (x3 : Vec F S128 .f32) (x4 : Vec F S128x128 .f32) (x5 : Vec F S128 .f32) (x6 : Vec F S1x128 .f32) (x7 : Vec F S1x128 .f32) (x8 : Vec F S128 .f32) (x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__norm_kernel i arg1 harg1 arg2 harg2 arg3 harg3 arg4 harg4 arg5 harg5 arg6 harg6 arg7 harg7 arg8 harg8 arg9 harg9 arg10 harg10 arg11 harg11) K := by
  simp only [cc2__norm_kernel_eq_skeleton]; unfold cc2__norm_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

/-! ## The region's proof data -/

/-- The proof data of the region on core `c`: the arrays at the entry contents `V`; after the body at point `t`
    each input's buffer at its block and the output's at `out2_10` of the ten input blocks; the invariant that
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BStatsBase.lean ====
/-
  The statistics kernel (the second of the three kernels), first part: what its run is stated over.
  The kernel visits 20 blocks of 5000 rows.  At each block it forms the block's rows after the two affine maps
  and adds the block's column sums, and the column sums of the squares, into two 1×128 accumulators that live
  across the visits; the first visit clears the accumulators before adding, the last visit divides them by the
  number of rows and stores the column means and the column variances.  So a visit is in one of three cases
  (first / middle / last), told apart by two conditions on the block's position.
-/
import proofs.«142418_j19868518711757_1_alg».proof.Proof.Gen.Kernel.Launch
import proofs.«142418_j19868518711757_1_alg».proof.Proof.Gen.Kernel.Skeleton
import proofs.«142418_j19868518711757_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at visit `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every visit, whether or not it is fetched again there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every visit, whether or not it is fetched again there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every visit, whether or not it is fetched again there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every visit, whether or not it is fetched again there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every visit, whether or not it is fetched again there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every visit, whether or not it is fetched again there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions that tell the cases apart -/

/-- "This is the first block": the accumulators are cleared. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

/-- "This is the last block": the means and variances are stored. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Before the last block the kernel stores nothing into output 6, and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last block output 6 is live. -/
theorem liveAt1_6_C : ∀ t : Fin cfg1.N, cond1_1 (grid1.coords t) → cfg1.idle 6 (grid1.coords t) = false := by decide +kernel
/-- Before the last block the kernel stores nothing into output 7, and its block is not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last block output 7 is live. -/
theorem liveAt1_7_C : ∀ t : Fin cfg1.N, cond1_1 (grid1.coords t) → cfg1.idle 7 (grid1.coords t) = false := by decide +kernel

/-! ## The memrefs the kernel is called with -/

/-- One staging buffer of each output, through which its contents are stated. -/
abbrev VO1_6 : View sig .tc .vmem S1x128 .f32 := (Memref.whole cc1_stg6_0 : Memref sig .tc .vmem S1x128 .f32).view
abbrev VO1_7 : View sig .tc .vmem S1x128 .f32 := (Memref.whole cc1_stg7_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
/-- The two accumulators: whole buffers of the kernel's own, kept across the visits. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

end Cert.Kernel.Hand

end
-- ==== Proof.BStatsRunA.lean ====
/-
  The statistics kernel at its FIRST block: the body on whole staging buffers clears the two accumulators, adds the
  block's column sums and the column sums of the squares, and touches neither output.  What each accumulator ends
  with is recorded as the list of stores the run finds.
-/
import proofs.«142418_j19868518711757_1_alg».proof.Proof.BStatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block: inputs at their blocks, both outputs at contents handed back untouched, the two
    accumulators at anything; it ends with the inputs and outputs as they were and each accumulator with its stores
    written. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) :
    Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) K } := by
  refine ⟨?_, ?_, fun xi6 xi7 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexists _; iexact HS1

end Cert.Kernel.Hand

end
-- ==== Proof.BStatsRunB.lean ====
/-
  The statistics kernel at a MIDDLE block: the body adds the block's column sums and the column sums of the squares
  into the two accumulators, which it finds at what the block before left, and touches neither output.
-/
import proofs.«142418_j19868518711757_1_alg».proof.Proof.BStatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle block: inputs at their blocks, both outputs handed back untouched, the accumulators at the
    contents `xs0`, `xs1` the block before left; each accumulator ends with its stores written. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) K } := by
  refine ⟨?_, ?_, fun xi6 xi7 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexists _; iexact HS1

end Cert.Kernel.Hand

end
-- ==== Proof.BStatsRunC.lean ====
/-
  The statistics kernel at its LAST block: the body adds the block's column sums and the column sums of the squares
  into the two accumulators, then divides them by the number of rows and stores the column means into the first
  output and the mean of squares minus the squared mean into the second.
-/
import proofs.«142418_j19868518711757_1_alg».proof.Proof.BStatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last block: inputs at their blocks, the outputs at anything, the accumulators at the contents
    `xs0`, `xs1` the block before left; the outputs and the accumulators end with their stores written. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    Σ' (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [HS0]
    · iexists _; iexact HS0
    iexists _; iexact HS1

end Cert.Kernel.Hand

end
-- ==== Proof.BStats.lean ====
/-
  The statistics kernel, second part: what its two accumulators and its two outputs hold after each block, the
  invariant that carries the accumulators from one block to the next, and the obligation the pipeline asks of the
  kernel's body at every block.

  After block n the first accumulator holds the column sums of the rows of blocks 0..n after the two affine maps,
  the second the column sums of their squares; the means and variances are stored at the last block only, and until
  then the two output buffers are left as they were found.
-/
import proofs.«142418_j19868518711757_1_alg».proof.Proof.BStatsRunA
import proofs.«142418_j19868518711757_1_alg».proof.Proof.BStatsRunB
import proofs.«142418_j19868518711757_1_alg».proof.Proof.BStatsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An output buffer the kernel has not stored into yet: contents nobody reads. -/
def idleOut1 : Vec F S1x128 .f32 := VO1_6.read (Elt F) VO1_6.junk

/-- The stores of case A recorded for `sout1_A_0` tile the 1×128 buffer, so they cover it. -/
theorem cover_sout1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (y : S1x128.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).1 S1x128.size (by sl_kernel_rfl) y

/-- What case A leaves there: its stores read back. -/
def sout1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 hc0 hc1 x0 x1 x2 x3 x4 x5).1)

/-- The stores of case A recorded for `sout1_A_1` tile the 1×128 buffer, so they cover it. -/
theorem cover_sout1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (y : S1x128.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).2.1 S1x128.size (by sl_kernel_rfl) y

/-- What case A leaves there: its stores read back. -/
def sout1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 hc0 hc1 x0 x1 x2 x3 x4 x5).2.1)

/-- The stores of case B recorded for `sout1_B_0` tile the 1×128 buffer, so they cover it. -/
theorem cover_sout1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).1 S1x128.size (by sl_kernel_rfl) y

/-- What case B leaves there: its stores read back. -/
def sout1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).1)

/-- The stores of case B recorded for `sout1_B_1` tile the 1×128 buffer, so they cover it. -/
theorem cover_sout1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).2.1 S1x128.size (by sl_kernel_rfl) y

/-- What case B leaves there: its stores read back. -/
def sout1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- The stores of case C recorded for `out1_C_6` tile the 1×128 buffer, so they cover it. -/
theorem cover_out1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).1 S1x128.size (by sl_kernel_rfl) y

/-- What case C leaves there: its stores read back. -/
def out1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).1)

/-- The stores of case C recorded for `out1_C_7` tile the 1×128 buffer, so they cover it. -/
theorem cover_out1_C_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.1 S1x128.size (by sl_kernel_rfl) y

/-- What case C leaves there: its stores read back. -/
def out1_C_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- The stores of case C recorded for `sout1_C_0` tile the 1×128 buffer, so they cover it. -/
theorem cover_sout1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S1x128.size (by sl_kernel_rfl) y

/-- What case C leaves there: its stores read back. -/
def sout1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- The stores of case C recorded for `sout1_C_1` tile the 1×128 buffer, so they cover it. -/
theorem cover_sout1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S1x128.size (by sl_kernel_rfl) y

/-- What case C leaves there: its stores read back. -/
def sout1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-! ## What the buffers hold after each block -/

/-- After block `n`: the two outputs' buffers, then the two accumulators.  The first block is case A, the last case C,
    the others case B; from the second block on the accumulators are found at what the block before left. -/
def outsAt1 (c : Dev nD) : (n : ℕ) → n < cfg1.N → Vec F S1x128 .f32 × Vec F S1x128 .f32 × Vec F S1x128 .f32 × Vec F S1x128 .f32
  | 0, hn => (idleOut1, idleOut1,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 20 = 19 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)
    else
      (idleOut1, idleOut1,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)

/-- At the first block. -/
theorem outsAt1_A (c : Dev nD) (t : Fin cfg1.N) (hc0 : cond1_0 (grid1.coords t)) (hc1 : ¬cond1_1 (grid1.coords t)) (h0 : t.val = 0) :
    outsAt1 V c t.val t.isLt = (idleOut1, idleOut1,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

/-- At a middle block. -/
theorem outsAt1_B (c : Dev nD) (t : Fin cfg1.N) (hc0 : ¬cond1_0 (grid1.coords t)) (hc1 : ¬cond1_1 (grid1.coords t)) (h0 : t.val ≠ 0) (h1 : ¬t.val % 20 = 19) :
    outsAt1 V c t.val t.isLt = (idleOut1, idleOut1,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- At the last block. -/
theorem outsAt1_C (c : Dev nD) (t : Fin cfg1.N) (hc0 : ¬cond1_0 (grid1.coords t)) (hc1 : cond1_1 (grid1.coords t)) (h0 : t.val ≠ 0) (h1 : t.val % 20 = 19) :
    outsAt1 V c t.val t.isLt =
      (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant between blocks -/

/-- Before the first block: every buffer of the kernel's own at anything.  Afterwards: the two accumulators at what the
    block before left, the other buffers at anything. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The class's invariant with the two accumulators split out of the kernel's own buffers. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [Pipeline.scopedRest_split_of_list spec1 c [cc1_scratch0, cc1_scratch1] (by decide) (by decide)]
  simp only [scM1_0, scM1_1, owns_whole]; try rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end Cert.Kernel.Hand

end
-- ==== Proof.BStatsBody.lean ====
/-
  The statistics kernel, third part: the obligation the pipeline asks of the kernel's body at every block.  The block's
  position decides the case; the inputs' buffers hold their blocks; the invariant hands the body the two accumulators
  (at anything before the first block, at what the block before left afterwards) and takes them back at this block's
  contents; before the last block the two outputs' buffers go back as they came.
-/
import proofs.«142418_j19868518711757_1_alg».proof.Proof.BStats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at block `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val = 0
  · -- the first block
    have hc0 : cond1_0 (grid1.coords t) := (hcond1_0 t).mpr (by omega)
    have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t hc1) (noFlush1_6 t hc1)]
    rw [Dat.leavesExact_idle (dat1 V c) 7 t (idleAt1_7 t hc1) (noFlush1_7 t hc1)]
    rw [outsAt1_A V c t hc0 hc1 h0]
    unfold sout1_A_0 sout1_A_1; (try dsimp only)
    rw [PhiS1_castSucc V c t, PhiS1_zero V c _ _ h0, PhiA1_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hbut Hg]
    · isplitl [HS0 HS1 Hbut]
      · isplitl [HS0 HS1]
        · isplitl [HS0]
          · unfold owns; iexists _; isplitr
            swap; · iexact HS0
            ipureintro; exact View.read_writes_of_cover _ _ _ _ _ (cover_sout1_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (cover_sout1_A_1 c _ _ _ _ _ _ _ _ _ _ _ _ _ _ _ _ _ _ _ _ _ _ _ _ _ _ _ _ _)
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond1_0 (grid1.coords t) := fun h => by have := (hcond1_0 t).mp h; omega
    by_cases h1 : t.val % 20 = 19
    · -- the last block
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t hc1], after1_6]
      rw [show (dat1 V c).leavesExact 7 t = owns (c : Thread nD τ) (ms1_7 t) fullShare ((dat1 V c).after 7 t) from by
        unfold Dat.leavesExact; rw [liveAt1_7_C t hc1], after1_7]
      rw [outsAt1_C V c t hc0 hc1 h0 h1]
      unfold out1_C_6 out1_C_7 sout1_C_0 sout1_C_1; (try dsimp only)
      rw [PhiS1_castSucc V c t, PhiS1_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hbut Hg]
      · isplitl [HS0 HS1 Hbut]
        · isplitl [HS0 HS1]
          · isplitl [HS0]
            · unfold owns; iexists _; isplitr
              swap; · iexact HS0
              ipureintro; exact View.read_writes_of_cover _ _ _ _ _ (cover_sout1_C_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_sout1_C_1 c _ _ _ _ _ _ _ _ _ _ _ _ _ _ _ _ _ _ _ _ _ _ _ _ _ _ _ _ _ _ _)
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover_out1_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover_out1_C_7 c _ _ _ _ _ _ _ _ _ _ _ _ _ _ _ _ _ _ _ _ _ _ _ _ _ _ _ _ _ _ _)
    · -- a middle block
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t hc1) (noFlush1_6 t hc1)]
      rw [Dat.leavesExact_idle (dat1 V c) 7 t (idleAt1_7 t hc1) (noFlush1_7 t hc1)]
      rw [outsAt1_B V c t hc0 hc1 h0 h1]
      unfold sout1_B_0 sout1_B_1; (try dsimp only)
      rw [PhiS1_castSucc V c t, PhiS1_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hbut Hg]
      · isplitl [HS0 HS1 Hbut]
        · isplitl [HS0 HS1]
          · isplitl [HS0]
            · unfold owns; iexists _; isplitr
              swap; · iexact HS0
              ipureintro; exact View.read_writes_of_cover _ _ _ _ _ (cover_sout1_B_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_sout1_B_1 c _ _ _ _ _ _ _ _ _ _ _ _ _ _ _ _ _ _ _ _ _ _ _ _ _ _ _ _ _ _ _)
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The pipeline's body obligation, at every block. -/
theorem body_obligation1 (c : Dev nD) : BodyObligation (dat1 (F := F) V c) (defs₀ (F := F)) Variants.none () Set.univ := fun t => by
  rw [bigSep_W1, bigSep_W1]
  exact sound_body1 V c t

/-- What the pipeline hands the kernel before the first block is the invariant there. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last block the invariant gives the class's back: what the accumulators hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨⟨HS0, HS1⟩, Hbut⟩, Hg⟩
  isplitl [HS0 HS1 Hbut]
  · isplitl [HS0 HS1]
    · isplitl [HS0]
      · iexists _; iexact HS0
      iexists _; iexact HS1
    iexact Hbut
  iexact Hg

end Cert.Kernel.Hand

end
-- ==== Proof.BRun.lean ====
/-
  The whole program as five segments — host operations, the message kernel, host operations (the scatter-add), the
  statistics kernel, the normalising kernel — from the launch to the return: what every buffer holds at each
  segment boundary, each kernel's segment record, and the run: every weakly fair execution ends, nothing faulting,
  with every buffer that is not a kernel's own at the last boundary's contents.  From that the arguments are read
  back unchanged, and the result is what the last kernel's write-backs leave.
-/
import proofs.«142418_j19868518711757_1_alg».proof.Proof.BRegion0
import proofs.«142418_j19868518711757_1_alg».proof.Proof.BRegion2
import proofs.«142418_j19868518711757_1_alg».proof.Proof.BStatsBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At kernel 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At kernel 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At kernel 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 2).trans (((dat2 (V4 m ρ) c).arrAt_in 2 rfl _).trans (A_eq2 (V4 m ρ) c 2))
    _ = W3 m ρ c (Proc.devRef .tc main_arg3) := (W4_arr m ρ c 2).trans (((dat1 (V3 m ρ) c).arrAt_in 2 rfl _).trans (A_eq1 (V3 m ρ) c 2))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 3).trans (((dat2 (V4 m ρ) c).arrAt_in 3 rfl _).trans (A_eq2 (V4 m ρ) c 3))
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := (W5_arr m ρ c 4).trans (((dat2 (V4 m ρ) c).arrAt_in 4 rfl _).trans (A_eq2 (V4 m ρ) c 4))
    _ = W3 m ρ c (Proc.devRef .tc main_arg5) := (W4_arr m ρ c 4).trans (((dat1 (V3 m ρ) c).arrAt_in 4 rfl _).trans (A_eq1 (V3 m ρ) c 4))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (W5_arr m ρ c 5).trans (((dat2 (V4 m ρ) c).arrAt_in 5 rfl _).trans (A_eq2 (V4 m ρ) c 5))
    _ = W3 m ρ c (Proc.devRef .tc main_arg6) := (W4_arr m ρ c 5).trans (((dat1 (V3 m ρ) c).arrAt_in 5 rfl _).trans (A_eq1 (V3 m ρ) c 5))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (W5_arr m ρ c 8).trans (((dat2 (V4 m ρ) c).arrAt_in 8 rfl _).trans (A_eq2 (V4 m ρ) c 8))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := (W5_arr m ρ c 9).trans (((dat2 (V4 m ρ) c).arrAt_in 9 rfl _).trans (A_eq2 (V4 m ρ) c 9))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- Kernel 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program ends, nothing faulting, and
    every final state has every buffer that is no kernel's own at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.Frames.lean ====
/-
  The two kernel programs' frames: each program runs to the end, nothing faulting, and leaves its nine argument
  arrays as launched.  Both are the run of the five segments read at the arguments' buffers: no host operation
  writes an argument, and every kernel only reads the ones it stages.
-/
import proofs.«142418_j19868518711757_1_alg».proof.Defs
import proofs.«142418_j19868518711757_1_alg».proof.Proof.Gen.Kernel
import proofs.«142418_j19868518711757_1_alg».proof.Proof.Gen.KernelIdeal
import proofs.«142418_j19868518711757_1_alg».proof.Proof.Gen.Pre_finite_inputs
import proofs.«142418_j19868518711757_1_alg».proof.Proof.KRun
import proofs.«142418_j19868518711757_1_alg».proof.Proof.BRun

noncomputable section

namespace Cert.Proof.Frames

open Idealize.ShloMosaic Idealize.ShloMosaic.TcCoe Idealize.SL.Sem

/-- The word-level program's frame. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m ρ c),
      (h c _ (Cert.Kernel.Hand.mem_uc Cert.Kernel.main_arg1 (by decide))).trans (Cert.Kernel.Hand.W5_main_arg1 m ρ c),
      (h c _ (Cert.Kernel.Hand.mem_uc Cert.Kernel.main_arg2 (by decide))).trans (Cert.Kernel.Hand.W5_main_arg2 m ρ c),
      (h c _ (Cert.Kernel.Hand.mem_uc Cert.Kernel.main_arg3 (by decide))).trans (Cert.Kernel.Hand.W5_main_arg3 m ρ c),
      (h c _ (Cert.Kernel.Hand.mem_uc Cert.Kernel.main_arg4 (by decide))).trans (Cert.Kernel.Hand.W5_main_arg4 m ρ c),
      (h c _ (Cert.Kernel.Hand.mem_uc Cert.Kernel.main_arg5 (by decide))).trans (Cert.Kernel.Hand.W5_main_arg5 m ρ c),
      (h c _ (Cert.Kernel.Hand.mem_uc Cert.Kernel.main_arg6 (by decide))).trans (Cert.Kernel.Hand.W5_main_arg6 m ρ c),
      (h c _ (Cert.Kernel.Hand.mem_uc Cert.Kernel.main_arg7 (by decide))).trans (Cert.Kernel.Hand.W5_main_arg7 m ρ c),
      (h c _ (Cert.Kernel.Hand.mem_uc Cert.Kernel.main_arg8 (by decide))).trans (Cert.Kernel.Hand.W5_main_arg8 m ρ c)⟩)
    (Cert.Kernel.Hand.run (F := Bits) m ρ)

/-- The idealized program's frame. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c)⟩)
    (Cert.KernelIdeal.Hand.run (F := Ideal) m ρ)

end Cert.Proof.Frames

end
-- ==== Proof.KHost.lean ====
/-
  What the host operations of the three-kernel program leave in the buffers the kernels read, and
  where each kernel's arrays come from.

  Before the first kernel the host cuts the two rows out of the edge list, wraps negative source
  indices by the node count, and gathers the source nodes' feature rows; between the first and the
  second kernel it adds every message into its destination node's row of a zero array.  Both are
  named here as functions of the launch arrays (the message array a parameter of the second), in
  the program's own operations and in program order.  Every other array a kernel stages is either a
  launch array that no operation and no earlier kernel writes, or what an earlier kernel's
  write-backs left.
-/
import proofs.«142418_j19868518711757_1_alg».proof.Proof.KRun
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The host operations' composition -/

/-- The 2 × 1600000 edge list, and a vector over the edges. -/
abbrev EdgeList : Type := (⟨S2x1600000, .i32⟩ : BufTy).Contents (Elt Ideal)
abbrev EdgeVec : Type := (⟨S1600000, .i32⟩ : BufTy).Contents (Elt Ideal)

/-- Row 0 of the edge list: each edge's source node. -/
def srcRow (ei : EdgeList) : EdgeVec :=
  shapeCast S1600000 (extractStridedSlice S1x1600000 ![0, 0] ei slices_S2x1600000_S1x1600000_0_0) shapeCasts_S1x1600000_S1600000

/-- Row 1 of the edge list: each edge's destination node. -/
def dstRow (ei : EdgeList) : EdgeVec :=
  shapeCast S1600000 (extractStridedSlice S1x1600000 ![1, 0] ei slices_S2x1600000_S1x1600000_1_0) shapeCasts_S1x1600000_S1600000

/-- The source nodes with a negative index wrapped once by the node count. -/
def srcWrapped (ei : EdgeList) : EdgeVec :=
  select (cmpi .slt (srcRow ei) (broadcastInDim S1600000 ![] bcast_S_S1600000 (constantI S_ 32 0#32)))
    (addi (srcRow ei) (broadcastInDim S1600000 ![] bcast_S_S1600000 (constantI S_ 32 100000#32)))
    (srcRow ei)

/-- The gathered rows: each edge's source node's feature row. -/
def gatherTerm (x : FVec Ideal S100000x128 .f32) (ei : EdgeList) : FVec Ideal S1600000x128 .f32 :=
  Host.gather gather_S100000x128_S1600000x1_S1600000x128_1_0_n_n_0_1_1128 x
    (broadcastInDim S1600000x1 ![0] bcast_S1600000_S1600000x1_0 (srcWrapped ei))

/-- The aggregated messages: every edge's message added into its destination node's row of a zero array. -/
def scatterTerm (ei : EdgeList) (msg : FVec Ideal S1600000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstRow ei))
    msg

variable (m : (ℓ : Loc nD τ sig) → Buf (Elt Ideal) ℓ) (ρ : Dev nD → PrngReg)

/-- A buffer that no operation of a stretch writes keeps its contents through the stretch. -/
local macro "keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Before the first kernel -/

/-- The first kernel's gathered-rows window holds the gather of the launch's node features at the wrapped sources. -/
theorem V1_v10 (c : Dev nD) :
    V1 (F := Ideal) m ρ c main_v10
      = gatherTerm (m ((c : Thread nD τ).loc main_arg0)) (m ((c : Thread nD τ).loc main_arg1)) := by
  show StableHlo.after hostOps0 (W0 m ρ c) (Proc.devRef .tc main_v10) = _
  after_results
  rfl

/-- The destination row is cut out before the first kernel. -/
theorem V1_v3 (c : Dev nD) :
    V1 (F := Ideal) m ρ c main_v3 = dstRow (m ((c : Thread nD τ).loc main_arg1)) := by
  show StableHlo.after hostOps0 (W0 m ρ c) (Proc.devRef .tc main_v3) = _
  after_results
  rfl

/-- The edge features reach the first kernel as launched. -/
theorem V1_arg2 (c : Dev nD) : V1 (F := Ideal) m ρ c main_arg2 = m ((c : Thread nD τ).loc main_arg2) := by
  show StableHlo.after hostOps0 (W0 m ρ c) (Proc.devRef .tc main_arg2) = W0 m ρ c (Proc.devRef .tc main_arg2)
  keeps hostOps0

/-! ## The launch arrays the later kernels stage

No host operation writes an argument array, and a kernel leaves its input windows' arrays as it
found them, so each argument array a later kernel stages is the launch's. -/

section Args

/-- Through the first stretch of host operations. -/
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  keeps hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  keeps hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  keeps hostOps0
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  keeps hostOps0

/-- Through the first kernel, which stages none of them. -/
theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-- Through the second stretch of host operations: what the second kernel finds. -/
theorem V3_arg0 (c : Dev nD) : V3 (F := Ideal) m ρ c main_arg0 = m ((c : Thread nD τ).loc main_arg0) :=
  (show StableHlo.after hostOps1 (W2 m ρ c) (Proc.devRef .tc main_arg0) = W2 m ρ c (Proc.devRef .tc main_arg0) by
    keeps hostOps1).trans (W2_arg0 m ρ c)
theorem V3_arg3 (c : Dev nD) : V3 (F := Ideal) m ρ c main_arg3 = m ((c : Thread nD τ).loc main_arg3) :=
  (show StableHlo.after hostOps1 (W2 m ρ c) (Proc.devRef .tc main_arg3) = W2 m ρ c (Proc.devRef .tc main_arg3) by
    keeps hostOps1).trans (W2_arg3 m ρ c)
theorem V3_arg4 (c : Dev nD) : V3 (F := Ideal) m ρ c main_arg4 = m ((c : Thread nD τ).loc main_arg4) :=
  (show StableHlo.after hostOps1 (W2 m ρ c) (Proc.devRef .tc main_arg4) = W2 m ρ c (Proc.devRef .tc main_arg4) by
    keeps hostOps1).trans (W2_arg4 m ρ c)
theorem V3_arg5 (c : Dev nD) : V3 (F := Ideal) m ρ c main_arg5 = m ((c : Thread nD τ).loc main_arg5) :=
  (show StableHlo.after hostOps1 (W2 m ρ c) (Proc.devRef .tc main_arg5) = W2 m ρ c (Proc.devRef .tc main_arg5) by
    keeps hostOps1).trans (W2_arg5 m ρ c)
theorem V3_arg6 (c : Dev nD) : V3 (F := Ideal) m ρ c main_arg6 = m ((c : Thread nD τ).loc main_arg6) :=
  (show StableHlo.after hostOps1 (W2 m ρ c) (Proc.devRef .tc main_arg6) = W2 m ρ c (Proc.devRef .tc main_arg6) by
    keeps hostOps1).trans (W2_arg6 m ρ c)
theorem V3_arg7 (c : Dev nD) : V3 (F := Ideal) m ρ c main_arg7 = m ((c : Thread nD τ).loc main_arg7) :=
  (show StableHlo.after hostOps1 (W2 m ρ c) (Proc.devRef .tc main_arg7) = W2 m ρ c (Proc.devRef .tc main_arg7) by
    keeps hostOps1).trans (W2_arg7 m ρ c)
theorem V3_arg8 (c : Dev nD) : V3 (F := Ideal) m ρ c main_arg8 = m ((c : Thread nD τ).loc main_arg8) :=
  (show StableHlo.after hostOps1 (W2 m ρ c) (Proc.devRef .tc main_arg8) = W2 m ρ c (Proc.devRef .tc main_arg8) by
    keeps hostOps1).trans (W2_arg8 m ρ c)

/-- Through the second kernel, whose input windows' arrays end as entered: what the third kernel finds. -/
theorem V4_arg0 (c : Dev nD) : V4 (F := Ideal) m ρ c main_arg0 = m ((c : Thread nD τ).loc main_arg0) :=
  ((W4_arr m ρ c 0).trans (((dat1 (V3 m ρ) c).arrAt_in 0 rfl _).trans (A_eq1 (V3 m ρ) c 0))).trans (V3_arg0 m ρ c)
theorem V4_arg3 (c : Dev nD) : V4 (F := Ideal) m ρ c main_arg3 = m ((c : Thread nD τ).loc main_arg3) :=
  ((W4_arr m ρ c 2).trans (((dat1 (V3 m ρ) c).arrAt_in 2 rfl _).trans (A_eq1 (V3 m ρ) c 2))).trans (V3_arg3 m ρ c)
theorem V4_arg4 (c : Dev nD) : V4 (F := Ideal) m ρ c main_arg4 = m ((c : Thread nD τ).loc main_arg4) :=
  ((W4_arr m ρ c 3).trans (((dat1 (V3 m ρ) c).arrAt_in 3 rfl _).trans (A_eq1 (V3 m ρ) c 3))).trans (V3_arg4 m ρ c)
theorem V4_arg5 (c : Dev nD) : V4 (F := Ideal) m ρ c main_arg5 = m ((c : Thread nD τ).loc main_arg5) :=
  ((W4_arr m ρ c 4).trans (((dat1 (V3 m ρ) c).arrAt_in 4 rfl _).trans (A_eq1 (V3 m ρ) c 4))).trans (V3_arg5 m ρ c)
theorem V4_arg6 (c : Dev nD) : V4 (F := Ideal) m ρ c main_arg6 = m ((c : Thread nD τ).loc main_arg6) :=
  ((W4_arr m ρ c 5).trans (((dat1 (V3 m ρ) c).arrAt_in 5 rfl _).trans (A_eq1 (V3 m ρ) c 5))).trans (V3_arg6 m ρ c)
theorem V4_arg7 (c : Dev nD) : V4 (F := Ideal) m ρ c main_arg7 = m ((c : Thread nD τ).loc main_arg7) :=
  (W4_of_ne m ρ c main_arg7 (by decide)).trans (V3_arg7 m ρ c)
theorem V4_arg8 (c : Dev nD) : V4 (F := Ideal) m ρ c main_arg8 = m ((c : Thread nD τ).loc main_arg8) :=
  (W4_of_ne m ρ c main_arg8 (by decide)).trans (V3_arg8 m ρ c)

end Args

/-! ## The arrays one kernel leaves for the next -/

/-- The messages are what the first kernel's write-backs leave. -/
theorem V2_v11 (c : Dev nD) : V2 (F := Ideal) m ρ c main_v11 = (dat0 (V1 m ρ) c).arrAt 2 cfg0.N :=
  W2_arr m ρ c 2

/-- The destination row survives the first kernel, which does not stage it. -/
theorem V2_v3 (c : Dev nD) : V2 (F := Ideal) m ρ c main_v3 = dstRow (m ((c : Thread nD τ).loc main_arg1)) :=
  (W2_of_ne m ρ c main_v3 (by decide)).trans (V1_v3 m ρ c)

/-- The second kernel's aggregated-messages window holds the scatter-add of the first kernel's messages. -/
theorem V3_v14 (c : Dev nD) :
    V3 (F := Ideal) m ρ c main_v14 = scatterTerm (m ((c : Thread nD τ).loc main_arg1)) (V2 m ρ c main_v11) := by
  show StableHlo.after hostOps1 (W2 m ρ c) (Proc.devRef .tc main_v14) = _
  after_results
  rw [show W2 m ρ c (Proc.devRef .tc main_v3) = dstRow (m ((c : Thread nD τ).loc main_arg1)) from V2_v3 m ρ c]
  rfl

/-- The second kernel reads the aggregated messages and leaves them as entered. -/
theorem V4_v14 (c : Dev nD) : V4 (F := Ideal) m ρ c main_v14 = V3 m ρ c main_v14 :=
  (W4_arr m ρ c 1).trans (((dat1 (V3 m ρ) c).arrAt_in 1 rfl _).trans (A_eq1 (V3 m ρ) c 1))

/-- The column means and variances are what the second kernel's write-backs leave. -/
theorem V4_v15_0 (c : Dev nD) : V4 (F := Ideal) m ρ c main_v15_0 = (dat1 (V3 m ρ) c).arrAt 6 cfg1.N :=
  W4_arr m ρ c 6
theorem V4_v15_1 (c : Dev nD) : V4 (F := Ideal) m ρ c main_v15_1 = (dat1 (V3 m ρ) c).arrAt 7 cfg1.N :=
  W4_arr m ρ c 7

/-- The result is what the third kernel's write-backs leave. -/
theorem V5_v16 (c : Dev nD) : V5 (F := Ideal) m ρ c main_v16 = (dat2 (V4 m ρ) c).arrAt 10 cfg2.N :=
  W5_arr m ρ c 10

end Cert.KernelIdeal.Hand

end
-- ==== Proof.KValue0.lean ====
/-
  The first staged region, from blocks to the array, over the extended reals.  Every grid point writes back
  one block of 6400 rows of the output, and that block is the same rows of ONE whole-array function of the
  two staged arrays: the rectified sum  max (xs + ea) 0, entry by entry.  The 250 blocks tile the array, so
  after the region the output array is that function.
-/
import proofs.«142418_j19868518711757_1_alg».proof.Proof.KRegion0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a rank-2 rectangle, as the constant function. -/
theorem zeroOff2 : (![0, 0] : Fin 2 → Nat) = fun _ => 0 := funext fun a => by fin_cases a <;> rfl

/-- The per-edge message as one function of the gathered source rows and the edge attributes. -/
abbrev msgOf (xs ea : S1600000x128.Idx → EReal) : S1600000x128.Idx → EReal := fun i => max (xs i + ea i) 0

/-- The body's one stored value at an index: the rectified sum of the two loaded entries. -/
theorem msg_pay (x e : Vec Ideal S6400x128 .f32) (y : S6400x128.Idx) :
    k0_pay1 (F := Ideal) x e y = max (x y + e y) 0 := by
  unfold k0_pay1
  simp only [shapeCast_self, maximumf_apply, addf_apply, broadcast_apply]
  show max (x y + e y) (Ideal.ofBits .f32 0x00000000#32) = max (x y + e y) 0
  rw [Ideal.ofBits_zero_f32]

/-- The three windows move together, one block of rows per grid point, over the full width. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What point `t` writes back is block `t` of the message function of the two staged arrays. -/
theorem flushed0_eq (c : Dev nD) (t : Fin cfg0.N) :
    (dat0 (F := Ideal) V c).flushed 2 t
      = ((cfg0.win 2).blk t).view.read (Elt Ideal) (msgOf (V c main_v10) (V c main_arg2)) := by
  show (cfg0.win 2).cut (grid0.coords t) ((dat0 V c).after 2 t) = _
  rw [after0_2]
  unfold out0_2
  rw [View.canon_unit_zero zeroOff2]
  simp only [View.ld_unit_zero (S := S6400x128) zeroOff2]
  obtain ⟨e0, e1, e2, e3, e4, e5⟩ := idx_facts0 t
  funext j
  show k0_pay1 (F := Ideal) (iblk0 V c 0 t) (iblk0 V c 1 t) j = msgOf (V c main_v10) (V c main_arg2) (((cfg0.win 2).blk t).view.emb j)
  rw [msg_pay]
  have hemb0 : ((cfg0.win 0).blk t).view.emb j = ((cfg0.win 2).blk t).view.emb j := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 128 + 1 * (j 1).val = win0_2.index t (1 : Fin 2) * 128 + 1 * (j 1).val; omega
  have hemb1 : ((cfg0.win 1).blk t).view.emb j = ((cfg0.win 2).blk t).view.emb j := by
    funext a; apply Fin.ext
    match a with
    | ⟨0, _⟩ => show win0_1.index t (0 : Fin 2) * 6400 + 1 * (j 0).val = win0_2.index t (0 : Fin 2) * 6400 + 1 * (j 0).val; omega
    | ⟨1, _⟩ => show win0_1.index t (1 : Fin 2) * 128 + 1 * (j 1).val = win0_2.index t (1 : Fin 2) * 128 + 1 * (j 1).val; omega
  have h0 : iblk0 V c 0 t j = V c main_v10 (((cfg0.win 2).blk t).view.emb j) := by
    show V c main_v10 (((cfg0.win 0).blk t).view.emb j) = _
    rw [hemb0]
  have h1 : iblk0 V c 1 t j = V c main_arg2 (((cfg0.win 2).blk t).view.emb j) := by
    show V c main_arg2 (((cfg0.win 1).blk t).view.emb j) = _
    rw [hemb1]
  rw [h0, h1]

/-- An index of the output array is in point `t`'s block iff each coordinate is in the block's range. -/
theorem mem_blk0 (t : Fin cfg0.N) (i : S1600000x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v11).slice (win0_2.rect t)).set ↔ _
  rw [View.set_slice_whole, Rect.mem_set_unit]
  exact Iff.rfl

/-- Every index of the output array is in the block of the point its row falls in: row `r` in block `r / 6400`. -/
theorem cover0 (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : cfg0.N = 250 := N_0
  obtain ⟨t, ht⟩ : ∃ t : Fin cfg0.N, t.val = (i 0).val / 6400 := ⟨⟨(i 0).val / 6400, by rw [hN]; omega⟩, rfl⟩
  obtain ⟨-, -, -, -, q0, q1⟩ := idx_facts0 t
  refine ⟨t, flush0_2 t, ?_⟩
  rw [mem_blk0]
  intro a
  match a with
  | ⟨0, _⟩ => show win0_2.index t (0 : Fin 2) * 6400 ≤ (i 0).val ∧ (i 0).val < win0_2.index t (0 : Fin 2) * 6400 + 6400; omega
  | ⟨1, _⟩ => show win0_2.index t (1 : Fin 2) * 128 ≤ (i 1).val ∧ (i 1).val < win0_2.index t (1 : Fin 2) * 128 + 128; omega

/-- The output array after the region: the rectified sum of the two staged arrays, entry by entry. -/
theorem final0 (c : Dev nD) : (dat0 (F := Ideal) V c).arrAt 2 cfg0.N = msgOf (V c main_v10) (V c main_arg2) :=
  (dat0 V c).arrAt_eq_of_cover 2 (msgOf (V c main_v10) (V c main_arg2)) (fun t _ => flushed0_eq V c t) (fun i => cover0 i)

end Cert.KernelIdeal.Hand

end
-- ==== Proof.RefRun.lean ====
/-
  The reference program's run.

  The reference is a straight line of tensor operations: the two rows of the edge list are cut out and
  flattened, negative source indices are wrapped by the node count, the source rows of the node features
  are gathered, the edge features are added and the sum rectified, the messages are summed into their
  destination rows; then the node update (features plus aggregated messages), two affine maps with a
  rectifier between them, and a normalisation of every column by its mean and its variance over all rows,
  scaled, shifted and rectified.  The rectifier, the variance and the variance's guarded quotient are
  functions of the module that the program calls; a call runs the callee's operations on buffers of its own,
  so the whole program is one list of operations, listed here in program order with each callee's
  operations at its call site.

  `run_fold` says that every execution of the program terminates with every buffer at the fold of these
  operations over what the launch found.  The second half of the file spells the operations' composition in
  stages, ending in `outTerm`, the result as a function of the nine argument arrays.
-/
import proofs.«142418_j19868518711757_1_alg».proof.Proof.Gen.ReferenceIdeal
import Idealize.ShloMosaic.Lib.StableHlo.Run
import Idealize.ShloMosaic.PureOps.Ideal

noncomputable section

namespace Cert.ReferenceIdeal.RefSide

open Cert.ReferenceIdeal Cert.ReferenceIdeal.Gen Idealize.ShloMosaic Idealize.ShloMosaic.TcCoe Idealize.SL.Sem Idealize.ShloMosaic.StableHlo

section Ops

variable {F : FTy → Type} [FloatOps F]

/-- The program's 83 operations in order: 52 of its own and, at the four calls, the rectifier's three
    (the zero, its broadcast, the maximum), the variance's nineteen followed by the three of the guarded
    quotient it ends with, each over the buffers of that call. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_v10 main_arg2 main_v11 (addf : (⟨S1600000x128, .f32⟩ : BufTy).Contents (Elt F) → (⟨S1600000x128, .f32⟩ : BufTy).Contents (Elt F) → (⟨S1600000x128, .f32⟩ : BufTy).Contents (Elt F)),
    StableHlo.TRef.nullary main_call0.cst (constant S_ .f32 0x00000000#32),
    StableHlo.TRef.unary main_call0.cst main_call0.v0 (broadcastInDim S1600000x128 ![] bcast_S_S1600000x128),
    StableHlo.TRef.binary (.of main_v11 : TRef sig ⟨S1600000x128, .f32⟩) main_call0.v0 main_call0.v1 maximumf,
    StableHlo.nullary main_cst (constant S_ .f32 0x00000000#32),
    StableHlo.unary main_cst main_v13 (broadcastInDim S100000x128 ![] bcast_S_S100000x128 : (⟨S_, .f32⟩ : BufTy).Contents (Elt F) → (⟨S100000x128, .f32⟩ : BufTy).Contents (Elt F)),
    StableHlo.unary main_v3 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v16 (broadcastInDim S100000x128 ![] bcast_S_S100000x128 : (⟨S_, .f32⟩ : BufTy).Contents (Elt F) → (⟨S100000x128, .f32⟩ : BufTy).Contents (Elt F)),
    StableHlo.binary main_v16 main_arg0 main_v17 (mulf : (⟨S100000x128, .f32⟩ : BufTy).Contents (Elt F) → (⟨S100000x128, .f32⟩ : BufTy).Contents (Elt F) → (⟨S100000x128, .f32⟩ : BufTy).Contents (Elt F)),
    StableHlo.binary main_v17 main_v15 main_v18 (addf : (⟨S100000x128, .f32⟩ : BufTy).Contents (Elt F) → (⟨S100000x128, .f32⟩ : BufTy).Contents (Elt F) → (⟨S100000x128, .f32⟩ : BufTy).Contents (Elt F)),
    StableHlo.binary main_v18 main_arg3 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v22 : TRef sig ⟨S100000x128, .f32⟩) main_call1.v0 main_call1.v1 maximumf,
    StableHlo.binary main_v23 main_arg5 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v27 main_cst_2 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (.of main_v27 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v27 : TRef sig ⟨S100000x128, .f32⟩) main_call2.v4 main_call2.v5 subf,
    StableHlo.TRef.binary main_call2.v5 main_call2.v5 main_call2.v6 mulf,
    StableHlo.TRef.unary (.of main_c_4 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v33 main_v34 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v35 (broadcastInDim S128 ![] bcast_S_S128 : (⟨S_, .f32⟩ : BufTy).Contents (Elt F) → (⟨S128, .f32⟩ : BufTy).Contents (Elt F)),
    StableHlo.binary main_v31 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg7 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_arg8 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v46 : TRef sig ⟨S100000x128, .f32⟩) main_call3.v0 main_call3.v1 maximumf ]

/-- The program is that straight line: a call is its callee's body run on the call's own buffers, and running
    one sequence of steps after another is running their concatenation, so with the called functions'
    definitions unfolded at their calls both sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- From any memory with zero counters every weakly fair execution of the program terminates, and every
    buffer ends at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Ops

/-! ## The operations' composition, in stages

Each stage is spelt with the program's own operations in program order, at the exact extended-real
values; a later stage takes an earlier one as an argument, so that a reader of the result never has to
open the per-edge part. -/

section Terms

/-- Edge-list rows: the two rows of the 2 × 1600000 edge list, each flattened to a vector over the edges. -/
abbrev EdgeList : Type := (⟨S2x1600000, .i32⟩ : BufTy).Contents (Elt Ideal)
abbrev EdgeVec : Type := (⟨S1600000, .i32⟩ : BufTy).Contents (Elt Ideal)

/-- Row 0 of the edge list: each edge's source node. -/
def srcRow (ei : EdgeList) : EdgeVec :=
  shapeCast S1600000 (extractStridedSlice S1x1600000 ![0, 0] ei slices_S2x1600000_S1x1600000_0_0) shapeCasts_S1x1600000_S1600000

/-- Row 1 of the edge list: each edge's destination node. -/
def dstRow (ei : EdgeList) : EdgeVec :=
  shapeCast S1600000 (extractStridedSlice S1x1600000 ![1, 0] ei slices_S2x1600000_S1x1600000_1_0) shapeCasts_S1x1600000_S1600000

/-- The source nodes with a negative index wrapped once by the node count (an index below zero counts from the end). -/
def srcWrapped (ei : EdgeList) : EdgeVec :=
  select (cmpi .slt (srcRow ei) (broadcastInDim S1600000 ![] bcast_S_S1600000 (constantI S_ 32 0#32)))
    (addi (srcRow ei) (broadcastInDim S1600000 ![] bcast_S_S1600000 (constantI S_ 32 100000#32)))
    (srcRow ei)

/-- The per-edge messages: the source node's feature row plus the edge's feature row, rectified. -/
def msgTerm (x : FVec Ideal S100000x128 .f32) (ei : EdgeList) (ea : FVec Ideal S1600000x128 .f32) : FVec Ideal S1600000x128 .f32 :=
  maximumf
    (addf (Host.gather gather_S100000x128_S1600000x1_S1600000x128_1_0_n_n_0_1_1128 x (broadcastInDim S1600000x1 ![0] bcast_S1600000_S1600000x1_0 (srcWrapped ei))) ea)
    (broadcastInDim S1600000x128 ![] bcast_S_S1600000x128 (constant (F := Ideal) S_ .f32 0x00000000#32))

/-- The aggregated messages: every edge's message added into its destination node's row of a zero array. -/
def aggTerm (x : FVec Ideal S100000x128 .f32) (ei : EdgeList) (ea : FVec Ideal S1600000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstRow ei))
    (msgTerm x ei ea)

/-- A feature vector repeated down the rows: [128] → [1, 128] → [100000, 128]. -/
def rowsOf (v : FVec Ideal S128 .f32) : FVec Ideal S100000x128 .f32 :=
  broadcastInDim S100000x128 ![0, 1] bcast_S1x128_S100000x128_0_1 (broadcastInDim S1x128 ![1] bcast_S128_S1x128_1 v)

/-- The rectifier: the maximum with the zero array. -/
def reluTerm (h : FVec Ideal S100000x128 .f32) : FVec Ideal S100000x128 .f32 :=
  maximumf h (broadcastInDim S100000x128 ![] bcast_S_S100000x128 (constant (F := Ideal) S_ .f32 0x00000000#32))

/-- The node update: one times the features, plus the aggregated messages. -/
def preTerm (x agg : FVec Ideal S100000x128 .f32) : FVec Ideal S100000x128 .f32 :=
  addf (mulf (broadcastInDim S100000x128 ![] bcast_S_S100000x128 (constant (F := Ideal) S_ .f32 0x3F800000#32)) x) agg

/-- An affine map of the rows: the product with a 128 × 128 matrix plus a bias row. -/
def affineTerm (h : FVec Ideal S100000x128 .f32) (W : FVec Ideal S128x128 .f32) (b : FVec Ideal S128 .f32) :
    FVec Ideal S100000x128 .f32 :=
  addf (Host.dotGeneral dot_S100000x128_S128x128_S100000x128_1_0_0_1_n_n none h W) (rowsOf b)

/-- The array whose columns are normalised: affine, rectifier, affine. -/
def linTerm (x agg : FVec Ideal S100000x128 .f32) (W1 : FVec Ideal S128x128 .f32) (b1 : FVec Ideal S128 .f32)
    (W2 : FVec Ideal S128x128 .f32) (b2 : FVec Ideal S128 .f32) : FVec Ideal S100000x128 .f32 :=
  affineTerm (reluTerm (affineTerm (preTerm x agg) W1 b1)) W2 b2

/-- The column sums from zero. -/
def colSums (l : FVec Ideal S100000x128 .f32) : FVec Ideal S128 .f32 :=
  Host.reduceAdd l (constant (F := Ideal) S_ .f32 0x00000000#32) reducesTo_S100000x128_S128_d0 h_S_

/-- The column means: the column sums over the row count. -/
def meanTerm (l : FVec Ideal S100000x128 .f32) : FVec Ideal S128 .f32 :=
  Host.divf (colSums l) (broadcastInDim S128 ![] bcast_S_S128 (constant (F := Ideal) S_ .f32 0x47C35000#32))

/-- The variance's divisor: the row count minus the correction, the correction being the integer zero
    converted. -/
def varDivisor : FVec Ideal S_ .f32 :=
  subf (constant (F := Ideal) S_ .f32 0x47C35000#32) (sitofp (F := Ideal) .f32 (constantI S_ 32 0#32))

/-- The deviations from the column means, the means taken with the row kept as a unit axis. -/
def devTerm (l : FVec Ideal S100000x128 .f32) : FVec Ideal S100000x128 .f32 :=
  subf l (broadcastInDim S100000x128 ![0, 1] bcast_S1x128_S100000x128_0_1
    (Host.divf (broadcastInDim S1x128 ![1] bcast_S128_S1x128_1 (colSums l))
      (broadcastInDim S1x128 ![] bcast_S_S1x128 (constant (F := Ideal) S_ .f32 0x47C35000#32))))

/-- The column variances as the library function computes them: the column sums of the squared deviations
    over the divisor, where the divisor is positive, and the not-a-number pattern elsewhere. -/
def varTerm (l : FVec Ideal S100000x128 .f32) : FVec Ideal S128 .f32 :=
  select (broadcastInDim S128 ![] bcast_S_S128 (cmpf .ogt varDivisor (constant (F := Ideal) S_ .f32 0x00000000#32)))
    (Host.divf (colSums (mulf (devTerm l) (devTerm l))) (broadcastInDim S128 ![] bcast_S_S128 varDivisor))
    (broadcastInDim S128 ![] bcast_S_S128 (id (constant (F := Ideal) S_ .f32 0x7FC00000#32)))

/-- The normalised, scaled, shifted and rectified array. -/
def normTerm (l : FVec Ideal S100000x128 .f32) (g be : FVec Ideal S128 .f32) : FVec Ideal S100000x128 .f32 :=
  reluTerm
    (addf
      (mulf
        (mulf (subf l (rowsOf (meanTerm l)))
          (rowsOf (Host.rsqrt (addf (varTerm l) (broadcastInDim S128 ![] bcast_S_S128 (constant (F := Ideal) S_ .f32 0x3727C5AC#32))))))
        (rowsOf g))
      (rowsOf be))

/-- The program's result as a function of its nine arguments. -/
def outTerm (x : FVec Ideal S100000x128 .f32) (ei : EdgeList) (ea : FVec Ideal S1600000x128 .f32)
    (W1 : FVec Ideal S128x128 .f32) (b1 : FVec Ideal S128 .f32) (W2 : FVec Ideal S128x128 .f32) (b2 : FVec Ideal S128 .f32)
    (g be : FVec Ideal S128 .f32) : FVec Ideal S100000x128 .f32 :=
  normTerm (linTerm x (aggTerm x ei ea) W1 b1 W2 b2) g be

end Terms

end Cert.ReferenceIdeal.RefSide

end
-- ==== Proof.KHostAgree.lean ====
/-
  The two programs aggregate the same messages.

  Both programs print the same host operations around the per-edge messages: the same cuts of the
  edge list, the same wrap of negative sources, the same gather of source rows and the same
  scatter-add into destination rows, each program over its own copy of the dimension records.  The
  copies hold the same numbers, so they are the same records.  The reference rectifies the messages
  with a maximum against a broadcast zero, which entry by entry is the maximum with 0.
-/
import proofs.«142418_j19868518711757_1_alg».proof.Proof.KHost
import proofs.«142418_j19868518711757_1_alg».proof.Proof.KValue0
import proofs.«142418_j19868518711757_1_alg».proof.Proof.RefRun
import Idealize.ShloMosaic.PureOps.Ideal.Laws

noncomputable section

namespace Cert.Proof.Bridge

open Idealize.ShloMosaic Idealize.ShloMosaic.TcCoe Idealize.SL.Sem

/-- The two programs' gather records are one record. -/
theorem gather_eq :
    Cert.KernelIdeal.gather_S100000x128_S1600000x1_S1600000x128_1_0_n_n_0_1_1128
      = Cert.ReferenceIdeal.gather_S100000x128_S1600000x1_S1600000x128_1_0_n_n_0_1_1128 := rfl

/-- The two programs' scatter records are one record. -/
theorem scatter_eq :
    Cert.KernelIdeal.scatter_S100000x128_S1600000x1_S1600000x128_1_0_0_1
      = Cert.ReferenceIdeal.scatter_S100000x128_S1600000x1_S1600000x128_1_0_0_1 := rfl

/-- The cuts of the edge list and the wrapped sources are the same functions in both programs. -/
theorem srcRow_eq (ei : Cert.KernelIdeal.Hand.EdgeList) :
    Cert.KernelIdeal.Hand.srcRow ei = Cert.ReferenceIdeal.RefSide.srcRow ei := rfl
theorem dstRow_eq (ei : Cert.KernelIdeal.Hand.EdgeList) :
    Cert.KernelIdeal.Hand.dstRow ei = Cert.ReferenceIdeal.RefSide.dstRow ei := rfl
theorem srcWrapped_eq (ei : Cert.KernelIdeal.Hand.EdgeList) :
    Cert.KernelIdeal.Hand.srcWrapped ei = Cert.ReferenceIdeal.RefSide.srcWrapped ei := rfl

/-- The gathered rows are the same array in both programs. -/
theorem gatherTerm_eq (x : FVec Ideal Cert.KernelIdeal.S100000x128 .f32) (ei : Cert.KernelIdeal.Hand.EdgeList) :
    Cert.KernelIdeal.Hand.gatherTerm x ei
      = Host.gather Cert.ReferenceIdeal.gather_S100000x128_S1600000x1_S1600000x128_1_0_n_n_0_1_1128 x
          (broadcastInDim Cert.ReferenceIdeal.S1600000x1 ![0] Cert.ReferenceIdeal.Gen.bcast_S1600000_S1600000x1_0
            (Cert.ReferenceIdeal.RefSide.srcWrapped ei)) := by
  unfold Cert.KernelIdeal.Hand.gatherTerm
  rw [gather_eq, srcWrapped_eq]

/-- The rectified messages, entry by entry, are the reference's message array. -/
theorem msg_agree (x : FVec Ideal Cert.KernelIdeal.S100000x128 .f32) (ei : Cert.KernelIdeal.Hand.EdgeList)
    (ea : FVec Ideal Cert.KernelIdeal.S1600000x128 .f32) :
    (fun y => max (Cert.KernelIdeal.Hand.gatherTerm x ei y + ea y) 0) = Cert.ReferenceIdeal.RefSide.msgTerm x ei ea := by
  funext y
  rw [gatherTerm_eq]
  unfold Cert.ReferenceIdeal.RefSide.msgTerm
  show _ = max (_ + ea y) (Ideal.ofBits .f32 0x00000000#32)
  rw [Ideal.ofBits_zero_f32]

/-- The aggregated messages are the same array in both programs. -/
theorem agg_agree (x : FVec Ideal Cert.KernelIdeal.S100000x128 .f32) (ei : Cert.KernelIdeal.Hand.EdgeList)
    (ea : FVec Ideal Cert.KernelIdeal.S1600000x128 .f32) :
    Cert.KernelIdeal.Hand.scatterTerm ei (fun y => max (Cert.KernelIdeal.Hand.gatherTerm x ei y + ea y) 0)
      = Cert.ReferenceIdeal.RefSide.aggTerm x ei ea := by
  rw [msg_agree]
  unfold Cert.KernelIdeal.Hand.scatterTerm Cert.ReferenceIdeal.RefSide.aggTerm
  rw [scatter_eq, dstRow_eq]

/-- So the array of aggregated messages the second kernel stages is the reference's, as a function of the
    launch's node features, edge list and edge features: the host gathers, the first kernel rectifies the
    sums block by block over the whole array, the host scatters and adds. -/
theorem kernel_agg (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.V3 (F := Ideal) m ρ c Cert.KernelIdeal.main_v14
      = Cert.ReferenceIdeal.RefSide.aggTerm
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  rw [Cert.KernelIdeal.Hand.V3_v14, Cert.KernelIdeal.Hand.V2_v11, Cert.KernelIdeal.Hand.final0,
    Cert.KernelIdeal.Hand.V1_v10, Cert.KernelIdeal.Hand.V1_arg2]
  exact agg_agree _ _ _

end Cert.Proof.Bridge

end
-- ==== Proof.Spec.lean ====
/-
  The mathematics both programs compute, as functions on the extended reals, index by index.

  A graph layer over N = 100000 nodes of width D = 128.  From the node features `x` and the aggregated
  messages `agg` (the row sums of the per-edge messages landing on each node) a node's row is
    pre i k = x i k + agg i k,
  it goes through two affine maps with a rectifier between them,
    hid i j = max (∑ k, pre i k · W1 k j + b1 j) 0,      lin i j = ∑ k, hid i k · W2 k j + b2 j,
  and is normalised column by column with the column's mean and variance over all N rows:
    out i j = max ((lin i j − mean j) · rsqrt (var j + ε) · γ j + β j) 0.
  The two programs differ only in how they spell the variance: the mean of the squares minus the square of
  the mean (`varOfSquares`), against the mean of the squared deviations (`varOfDeviations`).  Over finite
  entries the two are one number; that identity is the only algebraic law the equivalence needs.
-/
import Idealize.ShloMosaic.PureOps.Ideal
import Idealize.ShloMosaic.Lib.ValueIdx

noncomputable section

namespace Cert.Gine

open Idealize.ShloMosaic Idealize.ShloMosaic.ValueIdx

/-- Node-by-feature arrays, the two weight matrices, and the feature vectors. -/
abbrev SNxD : Shape := ⟨2, ![100000, 128]⟩
abbrev SDxD : Shape := ⟨2, ![128, 128]⟩
abbrev SD : Shape := ⟨1, ![128]⟩

/-- The number of rows, as the float literal both programs divide by (exactly 100000). -/
def cnt : EReal := Ideal.ofBits .f32 0x47C35000#32
/-- The variance's stabiliser, as the one float literal both programs add. -/
def eps : EReal := Ideal.ofBits .f32 0x3727C5AC#32

section
variable (x agg : SNxD.Idx → EReal) (W1 W2 : SDxD.Idx → EReal) (b1 b2 : SD.Idx → EReal)

/-- A node's row before the two affine maps: its own features plus its aggregated messages. -/
def pre (i : Fin 100000) (k : Fin 128) : EReal := x (ix2 i k) + agg (ix2 i k)

/-- After the first affine map and the rectifier. -/
def hid (i : Fin 100000) (j : Fin 128) : EReal :=
  max ((∑ k : Fin 128, pre x agg i k * W1 (ix2 k j)) + b1 (ix1 j)) 0

/-- After the second affine map: the array whose columns are normalised. -/
def lin (i : Fin 100000) (j : Fin 128) : EReal :=
  (∑ k : Fin 128, hid x agg W1 b1 i k * W2 (ix2 k j)) + b2 (ix1 j)
end

section
variable (h : Fin 100000 → Fin 128 → EReal)

/-- A column's mean over all rows. -/
def colMean (j : Fin 128) : EReal := Ideal.div (∑ i : Fin 100000, h i j) cnt

/-- A column's variance as the mean of the squares minus the square of the mean. -/
def varOfSquares (j : Fin 128) : EReal :=
  Ideal.div (∑ i : Fin 100000, h i j * h i j) cnt - colMean h j * colMean h j

/-- A column's variance as the mean of the squared deviations from the mean. -/
def varOfDeviations (j : Fin 128) : EReal :=
  Ideal.div (∑ i : Fin 100000, (h i j - colMean h j) * (h i j - colMean h j)) cnt

/-- The normalised, scaled, shifted and rectified entry, for a given per-column variance `v`. -/
def normed (v : Fin 128 → EReal) (g be : SD.Idx → EReal) (i : Fin 100000) (j : Fin 128) : EReal :=
  max ((h i j - colMean h j) * Ideal.rsqrt (v j + eps) * g (ix1 j) + be (ix1 j)) 0
end

/-- The layer's result with the variance spelt as the mean of squares minus the squared mean. -/
def resultOfSquares (x agg : SNxD.Idx → EReal) (W1 W2 : SDxD.Idx → EReal) (b1 b2 g be : SD.Idx → EReal) :
    SNxD.Idx → EReal := fun y =>
  normed (lin x agg W1 W2 b1 b2) (varOfSquares (lin x agg W1 W2 b1 b2)) g be (y 0) (y 1)

/-- The layer's result with the variance spelt as the mean of the squared deviations. -/
def resultOfDeviations (x agg : SNxD.Idx → EReal) (W1 W2 : SDxD.Idx → EReal) (b1 b2 g be : SD.Idx → EReal) :
    SNxD.Idx → EReal := fun y =>
  normed (lin x agg W1 W2 b1 b2) (varOfDeviations (lin x agg W1 W2 b1 b2)) g be (y 0) (y 1)

end Cert.Gine

end
-- ==== Proof.KPay1.lean ====
/-
  A block of 5000 rows through the two affine maps, read at an index over the extended reals.

  The matrix unit's product into a zero accumulator is, entry by entry, the sum over the contracted
  index of the products of the operands' entries; a change of float format is the identity; a
  feature vector broadcast down the rows reads its own entry in every row.  So the statistics
  kernel's block value is, at row r and column j, the block-level twin of the specification's
  affine-rectifier-affine chain.
-/
import proofs.«142418_j19868518711757_1_alg».proof.Proof.Gen.KernelIdeal.Skeleton
import proofs.«142418_j19868518711757_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The product's dimension numbers: rows by the first operand's columns against the second's rows. -/
abbrev DD : DotDims S5000x128 S128x128 S5000x128 := dot_S5000x128_S128x128_S5000x128_1_0_0_1_n_n

theorem lhs_row (i : S5000x128.Idx) (q : DD.contr.Idx) : (DD.lhsIdx i q 0).val = (i 0).val := by
  unfold DotDims.lhsIdx
  rw [dif_neg (show ¬(0 : Fin S5000x128.rank) ∈ DD.lhsBatch by decide),
    dif_pos (show (0 : Fin S5000x128.rank) ∈ DD.lhsNonContracting by decide)]
  rfl

theorem lhs_col (i : S5000x128.Idx) (q : DD.contr.Idx) : (DD.lhsIdx i q 1).val = (q ⟨0, by decide⟩).val :=
  DD.lhsIdx_val_of_single rfl i q

theorem rhs_row (i : S5000x128.Idx) (q : DD.contr.Idx) : (DD.rhsIdx i q 0).val = (q ⟨0, by decide⟩).val :=
  DD.rhsIdx_val_of_single rfl i q

theorem rhs_col (i : S5000x128.Idx) (q : DD.contr.Idx) : (DD.rhsIdx i q 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- The matrix product into a zero accumulator at row `r`, column `j`. -/
theorem matmul_apply {φ₁ φ₂ : FTy} (L : FVec Ideal S5000x128 φ₁) (R : FVec Ideal S128x128 φ₂) (r : Fin 5000)
    (j : Fin 128) :
    matmul DD none L R (constant (F := Ideal) S5000x128 .f32 0x00000000#32) (ix2 r j)
      = ∑ k : Fin 128, L (ix2 r k) * R (ix2 k j) := by
  show FloatOps.matmul DD none L R (constant (F := Ideal) S5000x128 .f32 0x00000000#32) (ix2 r j) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 r j) ((contrEquiv1 DD 128 rfl rfl).symm k) = ix2 r k := funext fun a => Fin.ext (by
    match a with
    | ⟨0, _⟩ => exact lhs_row _ _
    | ⟨1, _⟩ => exact (lhs_col _ _).trans hk)
  have er : DD.rhsIdx (ix2 r j) ((contrEquiv1 DD 128 rfl rfl).symm k) = ix2 k j := funext fun a => Fin.ext (by
    match a with
    | ⟨0, _⟩ => exact (rhs_row _ _).trans hk
    | ⟨1, _⟩ => exact rhs_col _ _)
  rw [el, er]

/-- A feature vector laid out as one row and broadcast down the 5000 rows reads its own entry. -/
theorem rowBroadcast_apply (b : Vec Ideal S128 .f32) (r : Fin 5000) (j : Fin 128) :
    broadcastTo S5000x128 (shapeCast S1x128 b shapeCasts_S128_S1x128) broadcasts_S1x128_S5000x128 (ix2 r j)
      = b (ix1 j) := by
  rw [broadcastTo_1b_ab_apply, shapeCast_a_1a_apply]

/-- One affine map of the block: the product plus the broadcast bias. -/
theorem dense_apply {φ₁ φ₂ : FTy} (L : FVec Ideal S5000x128 φ₁) (R : FVec Ideal S128x128 φ₂) (b : Vec Ideal S128 .f32)
    (r : Fin 5000) (j : Fin 128) :
    addf (matmul DD none L R (constant (F := Ideal) S5000x128 .f32 0x00000000#32))
        (broadcastTo S5000x128 (shapeCast S1x128 b shapeCasts_S128_S1x128) broadcasts_S1x128_S5000x128) (ix2 r j)
      = (∑ k : Fin 128, L (ix2 r k) * R (ix2 k j)) + b (ix1 j) := by
  rw [addf_apply, matmul_apply, rowBroadcast_apply]

/-- The block-level twin of the specification's `lin`: row `r` of a block of 5000 rows through the
    affine map, the rectifier and the second affine map, at column `j`. -/
def linBlk (x a : Vec Ideal S5000x128 .f32) (W1 : Vec Ideal S128x128 .f32) (b1 : Vec Ideal S128 .f32)
    (W2 : Vec Ideal S128x128 .f32) (b2 : Vec Ideal S128 .f32) (r : Fin 5000) (j : Fin 128) : EReal :=
  (∑ k : Fin 128, max ((∑ k' : Fin 128, (x (ix2 r k') + a (ix2 r k')) * W1 (ix2 k' k)) + b1 (ix1 k)) 0
      * W2 (ix2 k j)) + b2 (ix1 j)

/-- The statistics kernel's block value is `linBlk`. -/
theorem k1_pay6_apply (x a : Vec Ideal S5000x128 .f32) (W1 : Vec Ideal S128x128 .f32) (b1 : Vec Ideal S128 .f32)
    (W2 : Vec Ideal S128x128 .f32) (b2 : Vec Ideal S128 .f32) (r : Fin 5000) (j : Fin 128) :
    k1_pay6 (F := Ideal) x a W1 b1 W2 b2 (ix2 r j) = linBlk x a W1 b1 W2 b2 r j := by
  unfold k1_pay6 linBlk
  simp only [shapeCast_self]
  rw [dense_apply]
  refine congrArg (· + b2 (ix1 j)) (Finset.sum_congr rfl fun k _ => ?_)
  rw [truncf_apply, truncf_apply, maximumf_apply, dense_apply, broadcast_apply]
  show max _ (Ideal.ofBits .f32 0x00000000#32) * _ = _
  rw [Ideal.ofBits_zero_f32]
  rfl

end Cert.KernelIdeal.Pay

end
-- ==== Proof.KPay2.lean ====
/-
  The statistics kernel's running totals and the normalising kernel's stored entry, read at an
  index over the extended reals.

  A sum down the 5000 rows of a block, laid out as one row, reads at column j the sum over the rows
  of the block's entries in that column.  So each step of the statistics kernel adds to the running
  total of a column the column's sum over the block's rows, of the block value and of its square.
  The normalising kernel stores, at row r and column j, the block value centred by the column's
  mean, scaled by the reciprocal square root of the column's variance plus the stabiliser and by
  the column's weight, shifted by the column's bias, and rectified.
-/
import proofs.«142418_j19868518711757_1_alg».proof.Proof.KPay1

noncomputable section

namespace Cert.KernelIdeal.Pay

open Idealize.ShloMosaic Idealize.ShloMosaic.ValueIdx Cert.KernelIdeal Cert.KernelIdeal.Gen

/-- The sum down the rows of a block, at column `j`. -/
theorem laneSum_apply (v : FVec Ideal S5000x128 .f32) (j : Fin 128) :
    multiReduction .add [0] S128 v 0x00000000#32 reduces_S5000x128_S128 (.inl rfl) rfl (ix1 j)
      = ∑ r : Fin 5000, v (ix2 r j) := by
  refine (Ideal.multiReduction_add_single v _ reduces_S5000x128_S128 (.inl rfl) rfl (ix1 j)).trans ?_
  refine Finset.sum_congr rfl fun r _ => congrArg v ?_
  funext a
  match a with
  | ⟨0, _⟩ => rfl
  | ⟨1, _⟩ => rfl

/-- The same sum laid out as one row. -/
theorem rowOfLaneSum_apply (v : FVec Ideal S5000x128 .f32) (u : Fin 1) (j : Fin 128) :
    shapeCast S1x128 (multiReduction .add [0] S128 v 0x00000000#32 reduces_S5000x128_S128 (.inl rfl) rfl)
        shapeCasts_S128_S1x128 (ix2 u j)
      = ∑ r : Fin 5000, v (ix2 r j) := by
  rw [shapeCast_a_1a_apply, laneSum_apply]

/-- One step of the running total of a column's entries. -/
theorem k1_pay7_apply (x a : Vec Ideal S5000x128 .f32) (W1 : Vec Ideal S128x128 .f32) (b1 : Vec Ideal S128 .f32)
    (W2 : Vec Ideal S128x128 .f32) (b2 : Vec Ideal S128 .f32) (s : Vec Ideal S1x128 .f32) (u : Fin 1)
    (j : Fin 128) :
    k1_pay7 (F := Ideal) x a W1 b1 W2 b2 s (ix2 u j)
      = s (ix2 u j) + ∑ r : Fin 5000, linBlk x a W1 b1 W2 b2 r j := by
  unfold k1_pay7
  simp only [shapeCast_self]
  rw [addf_apply, rowOfLaneSum_apply]
  exact congrArg (s (ix2 u j) + ·) (Finset.sum_congr rfl fun r _ => k1_pay6_apply x a W1 b1 W2 b2 r j)

/-- One step of the running total of the squares of a column's entries. -/
theorem k1_pay1_apply (x a : Vec Ideal S5000x128 .f32) (W1 : Vec Ideal S128x128 .f32) (b1 : Vec Ideal S128 .f32)
    (W2 : Vec Ideal S128x128 .f32) (b2 : Vec Ideal S128 .f32) (s : Vec Ideal S1x128 .f32) (u : Fin 1)
    (j : Fin 128) :
    k1_pay1 (F := Ideal) s (k1_pay8 (F := Ideal) x a W1 b1 W2 b2) (ix2 u j)
      = s (ix2 u j) + ∑ r : Fin 5000, linBlk x a W1 b1 W2 b2 r j * linBlk x a W1 b1 W2 b2 r j := by
  unfold k1_pay1
  simp only [shapeCast_self]
  rw [addf_apply, rowOfLaneSum_apply]
  refine congrArg (s (ix2 u j) + ·) (Finset.sum_congr rfl fun r _ => ?_)
  unfold k1_pay8
  rw [mulf_apply, k1_pay6_apply]

/-- One row broadcast down the 5000 rows reads its own entry in every row. -/
theorem oneRow_apply (v : FVec Ideal S1x128 .f32) (r : Fin 5000) (j : Fin 128) :
    broadcastTo S5000x128 v broadcasts_S1x128_S5000x128 (ix2 r j) = v (ix2 (0 : Fin 1) j) :=
  broadcastTo_1b_ab_apply v broadcasts_S1x128_S5000x128 r j

/-- The normalising kernel's stored entry. -/
theorem k2_apply (x a : Vec Ideal S5000x128 .f32) (W1 : Vec Ideal S128x128 .f32) (b1 : Vec Ideal S128 .f32)
    (W2 : Vec Ideal S128x128 .f32) (b2 : Vec Ideal S128 .f32) (var mean : Vec Ideal S1x128 .f32)
    (g be : Vec Ideal S128 .f32) (r : Fin 5000) (j : Fin 128) :
    k2_pay1 (F := Ideal) (k2_pay2 (F := Ideal) x a W1 b1 W2 b2 var mean g) (k2_pay3 (F := Ideal) be) (ix2 r j)
      = max ((linBlk x a W1 b1 W2 b2 r j - mean (ix2 (0 : Fin 1) j))
            * Ideal.rsqrt (var (ix2 (0 : Fin 1) j) + Cert.Gine.eps) * g (ix1 j) + be (ix1 j)) 0 := by
  have e : k2_pay2 (F := Ideal) x a W1 b1 W2 b2 var mean g
      = mulf (mulf (subf (k1_pay6 (F := Ideal) x a W1 b1 W2 b2)
              (broadcastTo S5000x128 (shapeCast S1x128 mean shapeCasts_S1x128_S1x128) broadcasts_S1x128_S5000x128))
            (broadcastTo S5000x128
              (rsqrt (addf (shapeCast S1x128 var shapeCasts_S1x128_S1x128)
                (broadcast S1x128 (Scalar.ofBits (F := Ideal) .f32 0x3727C5AC#32))))
              broadcasts_S1x128_S5000x128))
          (broadcastTo S5000x128 (shapeCast S1x128 g shapeCasts_S128_S1x128) broadcasts_S1x128_S5000x128) := rfl
  rw [e]
  unfold k2_pay1 k2_pay3
  rw [maximumf_apply, addf_apply, mulf_apply, mulf_apply, subf_apply, k1_pay6_apply, rowBroadcast_apply,
    rowBroadcast_apply, broadcast_apply, oneRow_apply, oneRow_apply]
  simp only [shapeCast_self]
  show max ((linBlk x a W1 b1 W2 b2 r j - mean (ix2 (0 : Fin 1) j))
      * Ideal.rsqrt (var (ix2 (0 : Fin 1) j) + Ideal.ofBits .f32 0x3727C5AC#32) * g (ix1 j) + be (ix1 j))
      (Ideal.ofBits .f32 0x00000000#32) = _
  rw [Ideal.ofBits_zero_f32]
  rfl

end Cert.KernelIdeal.Pay

end
-- ==== Proof.KValue2.lean ====
/-
  The third staged region, from blocks to the array, over the extended reals.  Every grid point writes back
  one block of 5000 rows of the output, and that block is the same rows of ONE whole-array function of the
  staged arrays: the rows of the second affine map, normalised by the column means and variances, scaled,
  shifted and rectified.  A block of the node features or of the aggregated messages is rows
  5000·t … 5000·t + 4999 of its array; the weight matrices, biases, means, variances, scale and shift are
  staged whole.  The 20 blocks tile the array, so after the region the output array is that function.
-/
import proofs.«142418_j19868518711757_1_alg».proof.Proof.KRegion2
import proofs.«142418_j19868518711757_1_alg».proof.Proof.KPay2
import proofs.«142418_j19868518711757_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a rank-2 and of a rank-1 rectangle, as the constant function. -/
theorem zeroOffs2 : (![0, 0] : Fin 2 → Nat) = fun _ => 0 := funext fun a => by fin_cases a <;> rfl
theorem zeroOffs1 : (![0] : Fin 1 → Nat) = fun _ => 0 := funext fun a => by fin_cases a <;> rfl

/-- The layer's result as one function of the staged arrays, for given column means and variances. -/
abbrev normOf (x agg : S100000x128.Idx → EReal) (W1 : S128x128.Idx → EReal) (b1 : S128.Idx → EReal)
    (W2 : S128x128.Idx → EReal) (b2 : S128.Idx → EReal) (mean var : S1x128.Idx → EReal) (g be : S128.Idx → EReal) :
    S100000x128.Idx → EReal := fun y =>
  max ((Cert.Gine.lin x agg W1 W2 b1 b2 (y 0) (y 1) - mean (ix2 (0 : Fin 1) (y 1)))
    * Ideal.rsqrt (var (ix2 (0 : Fin 1) (y 1)) + Cert.Gine.eps) * g (ix1 (y 1)) + be (ix1 (y 1))) 0

/-- It at an index given by its coordinates. -/
theorem normOf_apply (x agg : S100000x128.Idx → EReal) (W1 : S128x128.Idx → EReal) (b1 : S128.Idx → EReal)
    (W2 : S128x128.Idx → EReal) (b2 : S128.Idx → EReal) (mean var : S1x128.Idx → EReal) (g be : S128.Idx → EReal)
    (i : Fin 100000) (j : Fin 128) :
    normOf x agg W1 b1 W2 b2 mean var g be (ix2 i j)
      = max ((Cert.Gine.lin x agg W1 W2 b1 b2 i j - mean (ix2 (0 : Fin 1) j))
        * Ideal.rsqrt (var (ix2 (0 : Fin 1) j) + Cert.Gine.eps) * g (ix1 j) + be (ix1 j)) 0 := rfl

/-! ## The windows' block indices -/

/-- The two blocked inputs and the output move together, one block of rows per grid point, over the full width. -/
theorem idx_rows2 : ∀ t : Fin cfg2.N, win2_0.index t (0 : Fin 2) = t.val ∧ win2_0.index t (1 : Fin 2) = 0
    ∧ win2_1.index t (0 : Fin 2) = t.val ∧ win2_1.index t (1 : Fin 2) = 0
    ∧ win2_10.index t (0 : Fin 2) = t.val ∧ win2_10.index t (1 : Fin 2) = 0 :=
  (by decide +kernel : ∀ t : Fin grid2.N, _)

/-- The other eight inputs are staged whole: their block index is zero at every point. -/
theorem idx_whole2 : ∀ t : Fin cfg2.N, (win2_2.index t (0 : Fin 2) = 0 ∧ win2_2.index t (1 : Fin 2) = 0)
    ∧ win2_3.index t (0 : Fin 1) = 0
    ∧ (win2_4.index t (0 : Fin 2) = 0 ∧ win2_4.index t (1 : Fin 2) = 0)
    ∧ win2_5.index t (0 : Fin 1) = 0
    ∧ (win2_6.index t (0 : Fin 2) = 0 ∧ win2_6.index t (1 : Fin 2) = 0)
    ∧ (win2_7.index t (0 : Fin 2) = 0 ∧ win2_7.index t (1 : Fin 2) = 0)
    ∧ win2_8.index t (0 : Fin 1) = 0
    ∧ win2_9.index t (0 : Fin 1) = 0 :=
  (by decide +kernel : ∀ t : Fin grid2.N, _)

/-! ## Each input block, read off its array -/

/-- Row `r` of the node features' block at point `t` is row `5000·t + r` of the array. -/
theorem blk2_0 (c : Dev nD) (t : Fin cfg2.N) (r : Fin 5000) (k : Fin 128) (i : Fin 100000) (hi : i.val = 5000 * t.val + r.val) :
    iblk2 V c 0 t (ix2 r k) = V c main_arg0 (ix2 i k) := by
  obtain ⟨e00, e01, e10, e11, -, -⟩ := idx_rows2 t
  show V c main_arg0 (((cfg2.win 0).blk t).view.emb (ix2 r k)) = V c main_arg0 (ix2 i k)
  have he : ((cfg2.win 0).blk t).view.emb (ix2 r k) = ix2 i k := by
    funext a; apply Fin.ext
    match a with
    | ⟨0, _⟩ => show win2_0.index t (0 : Fin 2) * 5000 + 1 * r.val = i.val; omega
    | ⟨1, _⟩ => show win2_0.index t (1 : Fin 2) * 128 + 1 * k.val = k.val; omega
  rw [he]

/-- Row `r` of the aggregated messages' block at point `t` is row `5000·t + r` of the array. -/
theorem blk2_1 (c : Dev nD) (t : Fin cfg2.N) (r : Fin 5000) (k : Fin 128) (i : Fin 100000) (hi : i.val = 5000 * t.val + r.val) :
    iblk2 V c 1 t (ix2 r k) = V c main_v14 (ix2 i k) := by
  obtain ⟨e00, e01, e10, e11, -, -⟩ := idx_rows2 t
  show V c main_v14 (((cfg2.win 1).blk t).view.emb (ix2 r k)) = V c main_v14 (ix2 i k)
  have he : ((cfg2.win 1).blk t).view.emb (ix2 r k) = ix2 i k := by
    funext a; apply Fin.ext
    match a with
    | ⟨0, _⟩ => show win2_1.index t (0 : Fin 2) * 5000 + 1 * r.val = i.val; omega
    | ⟨1, _⟩ => show win2_1.index t (1 : Fin 2) * 128 + 1 * k.val = k.val; omega
  rw [he]

/-- The first weight matrix is staged whole: its block is the array. -/
theorem blk2_2 (c : Dev nD) (t : Fin cfg2.N) (y : S128x128.Idx) : iblk2 V c 2 t y = V c main_arg3 y := by
  obtain ⟨⟨e0, e1⟩, -⟩ := idx_whole2 t
  show V c main_arg3 (((cfg2.win 2).blk t).view.emb y) = V c main_arg3 y
  have he : ((cfg2.win 2).blk t).view.emb y = y := by
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  rw [he]

/-- The first bias is staged whole: its block is the array. -/
theorem blk2_3 (c : Dev nD) (t : Fin cfg2.N) (y : S128.Idx) : iblk2 V c 3 t y = V c main_arg4 y := by
  obtain ⟨-, e0, -⟩ := idx_whole2 t
  show V c main_arg4 (((cfg2.win 3).blk t).view.emb y) = V c main_arg4 y
  have he : ((cfg2.win 3).blk t).view.emb y = y := by
    funext a; apply Fin.ext
    match a with
    | ⟨0, _⟩ => show win2_3.index t (0 : Fin 1) * 128 + 1 * (y 0).val = (y 0).val; omega
  rw [he]

/-- The second weight matrix is staged whole: its block is the array. -/
theorem blk2_4 (c : Dev nD) (t : Fin cfg2.N) (y : S128x128.Idx) : iblk2 V c 4 t y = V c main_arg5 y := by
  obtain ⟨-, -, ⟨e0, e1⟩, -⟩ := idx_whole2 t
  show V c main_arg5 (((cfg2.win 4).blk t).view.emb y) = V c main_arg5 y
  have he : ((cfg2.win 4).blk t).view.emb y = y := by
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  rw [he]

/-- The second bias is staged whole: its block is the array. -/
theorem blk2_5 (c : Dev nD) (t : Fin cfg2.N) (y : S128.Idx) : iblk2 V c 5 t y = V c main_arg6 y := by
  obtain ⟨-, -, -, e0, -⟩ := idx_whole2 t
  show V c main_arg6 (((cfg2.win 5).blk t).view.emb y) = V c main_arg6 y
  have he : ((cfg2.win 5).blk t).view.emb y = y := by
    funext a; apply Fin.ext
    match a with
    | ⟨0, _⟩ => show win2_5.index t (0 : Fin 1) * 128 + 1 * (y 0).val = (y 0).val; omega
  rw [he]

/-- The column means is staged whole: its block is the array. -/
theorem blk2_6 (c : Dev nD) (t : Fin cfg2.N) (y : S1x128.Idx) : iblk2 V c 6 t y = V c main_v15_0 y := by
  obtain ⟨-, -, -, -, ⟨e0, e1⟩, -⟩ := idx_whole2 t
  show V c main_v15_0 (((cfg2.win 6).blk t).view.emb y) = V c main_v15_0 y
  have he : ((cfg2.win 6).blk t).view.emb y = y := by
    funext a; apply Fin.ext
    match a with
    | ⟨0, _⟩ => show win2_6.index t (0 : Fin 2) * 1 + 1 * (y 0).val = (y 0).val; omega
    | ⟨1, _⟩ => show win2_6.index t (1 : Fin 2) * 128 + 1 * (y 1).val = (y 1).val; omega
  rw [he]

/-- The column variances is staged whole: its block is the array. -/
theorem blk2_7 (c : Dev nD) (t : Fin cfg2.N) (y : S1x128.Idx) : iblk2 V c 7 t y = V c main_v15_1 y := by
  obtain ⟨-, -, -, -, -, ⟨e0, e1⟩, -⟩ := idx_whole2 t
  show V c main_v15_1 (((cfg2.win 7).blk t).view.emb y) = V c main_v15_1 y
  have he : ((cfg2.win 7).blk t).view.emb y = y := by
    funext a; apply Fin.ext
    match a with
    | ⟨0, _⟩ => show win2_7.index t (0 : Fin 2) * 1 + 1 * (y 0).val = (y 0).val; omega
    | ⟨1, _⟩ => show win2_7.index t (1 : Fin 2) * 128 + 1 * (y 1).val = (y 1).val; omega
  rw [he]

/-- The scale vector is staged whole: its block is the array. -/
theorem blk2_8 (c : Dev nD) (t : Fin cfg2.N) (y : S128.Idx) : iblk2 V c 8 t y = V c main_arg7 y := by
  obtain ⟨-, -, -, -, -, -, e0, -⟩ := idx_whole2 t
  show V c main_arg7 (((cfg2.win 8).blk t).view.emb y) = V c main_arg7 y
  have he : ((cfg2.win 8).blk t).view.emb y = y := by
    funext a; apply Fin.ext
    match a with
    | ⟨0, _⟩ => show win2_8.index t (0 : Fin 1) * 128 + 1 * (y 0).val = (y 0).val; omega
  rw [he]

/-- The shift vector is staged whole: its block is the array. -/
theorem blk2_9 (c : Dev nD) (t : Fin cfg2.N) (y : S128.Idx) : iblk2 V c 9 t y = V c main_arg8 y := by
  obtain ⟨-, -, -, -, -, -, -, e0⟩ := idx_whole2 t
  show V c main_arg8 (((cfg2.win 9).blk t).view.emb y) = V c main_arg8 y
  have he : ((cfg2.win 9).blk t).view.emb y = y := by
    funext a; apply Fin.ext
    match a with
    | ⟨0, _⟩ => show win2_9.index t (0 : Fin 1) * 128 + 1 * (y 0).val = (y 0).val; omega
  rw [he]

/-! ## The block's rows of the second affine map are the array's -/

/-- The second affine map over the blocks at point `t`, at row `r`, is the same map over the whole arrays at
    row `5000·t + r`: every entry it reads is read off the arrays at that row, or off a matrix or vector
    staged whole. -/
theorem lin_blk (c : Dev nD) (t : Fin cfg2.N) (r : Fin 5000) (j : Fin 128) (i : Fin 100000) (hi : i.val = 5000 * t.val + r.val) :
    Pay.linBlk (iblk2 V c 0 t) (iblk2 V c 1 t) (iblk2 V c 2 t) (iblk2 V c 3 t) (iblk2 V c 4 t) (iblk2 V c 5 t) r j
      = Cert.Gine.lin (V c main_arg0) (V c main_v14) (V c main_arg3) (V c main_arg5) (V c main_arg4) (V c main_arg6) i j := by
  unfold Pay.linBlk Cert.Gine.lin Cert.Gine.hid Cert.Gine.pre
  simp only [blk2_0 V c t r _ i hi, blk2_1 V c t r _ i hi, blk2_2 V c t, blk2_3 V c t, blk2_4 V c t, blk2_5 V c t]

/-! ## What a point writes back -/

/-- What point `t` writes back is block `t` of the result function of the staged arrays. -/
theorem flushed2_eq (c : Dev nD) (t : Fin cfg2.N) :
    (dat2 (F := Ideal) V c).flushed 10 t
      = ((cfg2.win 10).blk t).view.read (Elt Ideal) (normOf (V c main_arg0) (V c main_v14) (V c main_arg3) (V c main_arg4)
          (V c main_arg5) (V c main_arg6) (V c main_v15_0) (V c main_v15_1) (V c main_arg7) (V c main_arg8)) := by
  show (cfg2.win 10).cut (grid2.coords t) ((dat2 V c).after 10 t) = _
  rw [after2_10]
  unfold out2_10
  rw [View.canon_unit_zero zeroOffs2]
  simp only [View.ld_unit_zero (S := S5000x128) zeroOffs2, View.ld_unit_zero (S := S128x128) zeroOffs2,
    View.ld_unit_zero (S := S128) zeroOffs1, View.ld_unit_zero (S := S1x128) zeroOffs2]
  obtain ⟨-, -, -, -, q0, q1⟩ := idx_rows2 t
  have hN : cfg2.N = 20 := N_2
  funext y
  obtain ⟨r, j, rfl⟩ : ∃ (r : Fin 5000) (j : Fin 128), y = ix2 r j := ⟨y 0, y 1, eq_ix2 y⟩
  obtain ⟨i, hi⟩ : ∃ i : Fin 100000, i.val = 5000 * t.val + r.val :=
    ⟨⟨5000 * t.val + r.val, by have := t.isLt; have := r.isLt; omega⟩, rfl⟩
  have hemb : ((cfg2.win 10).blk t).view.emb (ix2 r j) = ix2 i j := by
    funext a; apply Fin.ext
    match a with
    | ⟨0, _⟩ => show win2_10.index t (0 : Fin 2) * 5000 + 1 * r.val = i.val; omega
    | ⟨1, _⟩ => show win2_10.index t (1 : Fin 2) * 128 + 1 * j.val = j.val; omega
  show k2_pay1 (F := Ideal) (k2_pay2 (F := Ideal) (iblk2 V c 0 t) (iblk2 V c 1 t) (iblk2 V c 2 t) (iblk2 V c 3 t) (iblk2 V c 4 t) (iblk2 V c 5 t)
      (iblk2 V c 7 t) (iblk2 V c 6 t) (iblk2 V c 8 t)) (k2_pay3 (F := Ideal) (iblk2 V c 9 t)) (ix2 r j)
    = normOf (V c main_arg0) (V c main_v14) (V c main_arg3) (V c main_arg4) (V c main_arg5) (V c main_arg6)
        (V c main_v15_0) (V c main_v15_1) (V c main_arg7) (V c main_arg8) (((cfg2.win 10).blk t).view.emb (ix2 r j))
  rw [hemb, normOf_apply, Pay.k2_apply, lin_blk V c t r j i hi, blk2_6 V c t, blk2_7 V c t, blk2_8 V c t, blk2_9 V c t]

/-! ## The blocks tile the array -/

/-- An index of the output array is in point `t`'s block iff each coordinate is in the block's range. -/
theorem mem_blk2 (t : Fin cfg2.N) (i : S100000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v16).slice (win2_10.rect t)).set ↔ _
  rw [View.set_slice_whole, Rect.mem_set_unit]
  exact Iff.rfl

/-- Every index of the output array is in the block of the point its row falls in: row `r` in block `r / 5000`. -/
theorem cover2 (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, q0, q1⟩ := idx_rows2 t
  refine ⟨t, flush2_10 t, ?_⟩
  rw [mem_blk2]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 128 ≤ (i 1).val ∧ (i 1).val < win2_10.index t (1 : Fin 2) * 128 + 128; omega

/-- The output array after the region: the result function of the staged arrays. -/
theorem final2 (c : Dev nD) : (dat2 (F := Ideal) V c).arrAt 10 cfg2.N
    = normOf (V c main_arg0) (V c main_v14) (V c main_arg3) (V c main_arg4) (V c main_arg5) (V c main_arg6)
        (V c main_v15_0) (V c main_v15_1) (V c main_arg7) (V c main_arg8) :=
  (dat2 V c).arrAt_eq_of_cover 10 _ (fun t _ => flushed2_eq V c t) (fun i => cover2 i)

end Cert.KernelIdeal.Hand

end
-- ==== Proof.KStatsVal.lean ====
/-
  The statistics kernel, fourth part: what each case's recorded stores ARE, as the body's own arithmetic applied to
  the block and to what the accumulators held.  With `step` the block's rows after the two affine maps:
    the first accumulator ends at  (what it held) + the column sums of `step`,
    the second at                  (what it held) + the column sums of `step²`,
  where "what it held" is zero at the first block; at the last block the first output receives the first
  accumulator divided by the number of rows and the second output the second accumulator divided by the number
  of rows minus the square of the first output.
-/
import proofs.«142418_j19868518711757_1_alg».proof.Proof.KStats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a; rfl
theorem hz11 : (![0, 0] : Fin 2 → Nat) = fun _ => 0 := funext fun a => by fin_cases a <;> rfl

theorem sout1_A_0_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) :
    sout1_A_0 c i arg1 harg1 arg2 harg2 arg3 harg3 arg4 harg4 arg5 harg5 arg6 harg6 arg7 harg7 arg8 harg8 arg9 harg9 arg10 harg10 hc0 hc1 x0 x1 x2 x3 x4 x5 = k1_pay7 x0 x1 x2 x3 x4 x5 (k1_pay4 (F := F)) := by
  unfold sout1_A_0
  rw [View.read_writes_eq_canon _ _ _ (cover_sout1_A_0 c i arg1 harg1 arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem sout1_A_1_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) :
    sout1_A_1 c i arg1 harg1 arg2 harg2 arg3 harg3 arg4 harg4 arg5 harg5 arg6 harg6 arg7 harg7 arg8 harg8 arg9 harg9 arg10 harg10 hc0 hc1 x0 x1 x2 x3 x4 x5 = k1_pay1 (k1_pay5 (F := F)) (k1_pay8 x0 x1 x2 x3 x4 x5) := by
  unfold sout1_A_1
  rw [View.read_writes_eq_canon _ _ _ (cover_sout1_A_1 c i arg1 harg1 arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem sout1_B_0_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    sout1_B_0 c i arg1 harg1 arg2 harg2 arg3 harg3 arg4 harg4 arg5 harg5 arg6 harg6 arg7 harg7 arg8 harg8 arg9 harg9 arg10 harg10 hc0 hc1 x0 x1 x2 x3 x4 x5 xs0 xs1 = k1_pay7 x0 x1 x2 x3 x4 x5 xs0 := by
  unfold sout1_B_0
  rw [View.read_writes_eq_canon _ _ _ (cover_sout1_B_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun1_B
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem sout1_B_1_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    sout1_B_1 c i arg1 harg1 arg2 harg2 arg3 harg3 arg4 harg4 arg5 harg5 arg6 harg6 arg7 harg7 arg8 harg8 arg9 harg9 arg10 harg10 hc0 hc1 x0 x1 x2 x3 x4 x5 xs0 xs1 = k1_pay1 xs1 (k1_pay8 x0 x1 x2 x3 x4 x5) := by
  unfold sout1_B_1
  rw [View.read_writes_eq_canon _ _ _ (cover_sout1_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun1_B
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem sout1_C_0_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    sout1_C_0 c i arg1 harg1 arg2 harg2 arg3 harg3 arg4 harg4 arg5 harg5 arg6 harg6 arg7 harg7 arg8 harg8 arg9 harg9 arg10 harg10 hc0 hc1 x0 x1 x2 x3 x4 x5 xs0 xs1 = k1_pay7 x0 x1 x2 x3 x4 x5 xs0 := by
  unfold sout1_C_0
  rw [View.read_writes_eq_canon _ _ _ (cover_sout1_C_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem sout1_C_1_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    sout1_C_1 c i arg1 harg1 arg2 harg2 arg3 harg3 arg4 harg4 arg5 harg5 arg6 harg6 arg7 harg7 arg8 harg8 arg9 harg9 arg10 harg10 hc0 hc1 x0 x1 x2 x3 x4 x5 xs0 xs1 = k1_pay1 xs1 (k1_pay8 x0 x1 x2 x3 x4 x5) := by
  unfold sout1_C_1
  rw [View.read_writes_eq_canon _ _ _ (cover_sout1_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem out1_C_6_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    out1_C_6 c i arg1 harg1 arg2 harg2 arg3 harg3 arg4 harg4 arg5 harg5 arg6 harg6 arg7 harg7 arg8 harg8 arg9 harg9 arg10 harg10 hc0 hc1 x0 x1 x2 x3 x4 x5 xs0 xs1 = k1_pay2 (k1_pay7 x0 x1 x2 x3 x4 x5 xs0) := by
  unfold out1_C_6
  rw [View.read_writes_eq_canon _ _ _ (cover_out1_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

theorem out1_C_7_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S5000x128 .f32) (x1 : Vec F S5000x128 .f32) (x2 : Vec F S128x128 .f32) (x3 : Vec F S128 .f32) (x4 : Vec F S128x128 .f32) (x5 : Vec F S128 .f32) (xs0 xs1 : Vec F S1x128 .f32) :
    out1_C_7 c i arg1 harg1 arg2 harg2 arg3 harg3 arg4 harg4 arg5 harg5 arg6 harg6 arg7 harg7 arg8 harg8 arg9 harg9 arg10 harg10 hc0 hc1 x0 x1 x2 x3 x4 x5 xs0 xs1 = k1_pay3 (k1_pay7 x0 x1 x2 x3 x4 x5 xs0) (k1_pay1 xs1 (k1_pay8 x0 x1 x2 x3 x4 x5)) := by
  unfold out1_C_7
  rw [View.read_writes_eq_canon _ _ _ (cover_out1_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  first
    | rw [View.canon_unit_zero hz11]
    | rw [View.canon_cons_unit_zero (S := S1x128) hz11]
  repeat rw [View.readCov_unit_zero (S := S1x128) _ hz11]
  simp only [View.readAt_eq_ld, harg1.read_unread, harg2.read_unread, harg3.read_unread, harg4.read_unread, harg5.read_unread, harg6.read_unread, harg9.read_unread, harg10.read_unread, View.ld_unit_zero (S := S1x128) hz11, View.ld_unit_zero (S := S5000x128) hz11, View.ld_unit_zero (S := S128x128) hz11, View.ld_unit_zero (S := S128) hz1, shapeCast_self]

end Cert.KernelIdeal.Hand

end
-- ==== Proof.KPay0.lean ====
/-
  The three kernels' small payloads, read at an index over the extended reals.

  The message kernel stores max (x + e) 0 entry by entry.  The statistics kernel starts its two
  running totals at 0, and at its last step turns the total of a column's entries into the column's
  mean (the total divided by the number of rows) and the totals of the entries and of their squares
  into the column's variance (the mean of the squares minus the square of the mean).
-/
import proofs.«142418_j19868518711757_1_alg».proof.Proof.Gen.KernelIdeal.Skeleton
import proofs.«142418_j19868518711757_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The message kernel's stored entry: the rectified sum of the gathered row and the edge's row. -/
theorem k0_pay1_apply (x e : Vec Ideal S6400x128 .f32) (y : S6400x128.Idx) :
    k0_pay1 (F := Ideal) x e y = max (x y + e y) 0 := by
  unfold k0_pay1
  simp only [shapeCast_self]
  show max (x y + e y) (Ideal.ofBits .f32 0x00000000#32) = _
  rw [Ideal.ofBits_zero_f32]

/-- The running total of the entries starts at 0. -/
theorem k1_pay4_apply (y : S1x128.Idx) : k1_pay4 (F := Ideal) y = 0 := by
  unfold k1_pay4
  simp only [shapeCast_self]
  show Ideal.ofBits .f32 0x00000000#32 = 0
  exact Ideal.ofBits_zero_f32

/-- The running total of the squares starts at 0. -/
theorem k1_pay5_apply (y : S1x128.Idx) : k1_pay5 (F := Ideal) y = 0 := by
  unfold k1_pay5
  simp only [shapeCast_self]
  show Ideal.ofBits .f32 0x00000000#32 = 0
  exact Ideal.ofBits_zero_f32

/-- The column's mean: the total of its entries divided by the number of rows. -/
theorem k1_pay2_apply (s : Vec Ideal S1x128 .f32) (y : S1x128.Idx) :
    k1_pay2 (F := Ideal) s y = Ideal.div (s y) Cert.Gine.cnt := rfl

/-- The column's variance: the mean of the squares minus the square of the mean. -/
theorem k1_pay3_apply (s q : Vec Ideal S1x128 .f32) (y : S1x128.Idx) :
    k1_pay3 (F := Ideal) s q y
      = Ideal.div (q y) Cert.Gine.cnt - Ideal.div (s y) Cert.Gine.cnt * Ideal.div (s y) Cert.Gine.cnt := rfl

end Cert.KernelIdeal.Pay

end
-- ==== Proof.KStatsSum.lean ====
/-
  The statistics kernel, fifth part, on the extended reals: what the two accumulators hold after each block, as sums.
  Write step t r j for row r, column j of block t after the two affine maps.  After block n the first accumulator
  holds, in column j, the sum over blocks t ≤ n and rows r of step t r j, and the second the same sum of the squares:
  the first block starts both from zero, and every block adds its own column sums.  At the last block the first output
  receives the first sum divided by the number of rows, the second output the second sum divided by the number of rows
  minus the square of the first output.
-/
import proofs.«142418_j19868518711757_1_alg».proof.Proof.KStatsVal
import proofs.«142418_j19868518711757_1_alg».proof.Proof.KPay0
import proofs.«142418_j19868518711757_1_alg».proof.Proof.KPay2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Idealize.ShloMosaic.ValueIdx

variable (V : (c : Dev nD) → (b : Ref sig .tc) → Buf (Elt Ideal) ((c : Thread nD τ).loc b))

/-- Row `r`, column `j` of block `t` after the two affine maps. -/
def stepAt (c : Dev nD) (t : Fin cfg1.N) (r : Fin 5000) (j : Fin 128) : EReal :=
  linBlk (iblk1 V c 0 t) (iblk1 V c 1 t) (iblk1 V c 2 t) (iblk1 V c 3 t) (iblk1 V c 4 t) (iblk1 V c 5 t) r j

/-- Block `t`'s column sum (zero past the last block). -/
def colOf (c : Dev nD) (j : Fin 128) (t : ℕ) : EReal :=
  if h : t < cfg1.N then ∑ r : Fin 5000, stepAt V c ⟨t, h⟩ r j else 0
/-- Block `t`'s column sum of squares (zero past the last block). -/
def colSqOf (c : Dev nD) (j : Fin 128) (t : ℕ) : EReal :=
  if h : t < cfg1.N then ∑ r : Fin 5000, stepAt V c ⟨t, h⟩ r j * stepAt V c ⟨t, h⟩ r j else 0

/-- After the first block: the accumulators are the block's own arithmetic started from the cleared contents. -/
theorem acc_first (c : Dev nD) (hn : 0 < cfg1.N) :
    (outsAt1 V c 0 hn).2.2.1 = k1_pay7 (F := Ideal) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (k1_pay4 (F := Ideal))
    ∧ (outsAt1 V c 0 hn).2.2.2 = k1_pay1 (F := Ideal) (k1_pay5 (F := Ideal)) (k1_pay8 (F := Ideal) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)) := by
  have hc0 : cond1_0 (grid1.coords ⟨0, hn⟩) := (hcond1_0 ⟨0, hn⟩).mpr (Nat.zero_mod _)
  have hc1 : ¬cond1_1 (grid1.coords ⟨0, hn⟩) := fun h => by have := (hcond1_1 ⟨0, hn⟩).mp h; (try dsimp only at this); omega
  rw [show outsAt1 V c 0 hn = outsAt1 V c (⟨0, hn⟩ : Fin cfg1.N).val (⟨0, hn⟩ : Fin cfg1.N).isLt from rfl, outsAt1_A V c ⟨0, hn⟩ hc0 hc1 rfl]
  dsimp only
  exact ⟨sout1_A_0_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) hc0 hc1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) hc0 hc1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)⟩

/-- After a later block: the block's own arithmetic started from what the block before left. -/
theorem acc_next (c : Dev nD) (n : ℕ) (hn : n + 1 < cfg1.N) :
    (outsAt1 V c (n + 1) hn).2.2.1 = k1_pay7 (F := Ideal) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 V c n (Nat.lt_of_succ_lt hn)).2.2.1)
    ∧ (outsAt1 V c (n + 1) hn).2.2.2 = k1_pay1 (F := Ideal) ((outsAt1 V c n (Nat.lt_of_succ_lt hn)).2.2.2) (k1_pay8 (F := Ideal) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)) := by
  have hN : n + 1 < 20 := lt_of_lt_of_eq hn (show cfg1.N = 20 from N_1)
  have hc0 : ¬cond1_0 (grid1.coords ⟨n + 1, hn⟩) := fun h => by have := (hcond1_0 ⟨n + 1, hn⟩).mp h; (try dsimp only at this); omega
  have h0 : (⟨n + 1, hn⟩ : Fin cfg1.N).val ≠ 0 := Nat.succ_ne_zero n
  rw [show outsAt1 V c (n + 1) hn = outsAt1 V c (⟨n + 1, hn⟩ : Fin cfg1.N).val (⟨n + 1, hn⟩ : Fin cfg1.N).isLt from rfl]
  by_cases h1 : (n + 1) % 20 = 19
  · have hc1 : cond1_1 (grid1.coords ⟨n + 1, hn⟩) := (hcond1_1 ⟨n + 1, hn⟩).mpr h1
    rw [outsAt1_C V c ⟨n + 1, hn⟩ hc0 hc1 h0 h1]
    dsimp only
    exact ⟨sout1_C_0_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) hc0 hc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ _, sout1_C_1_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) hc0 hc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ _⟩
  · have hc1 : ¬cond1_1 (grid1.coords ⟨n + 1, hn⟩) := fun h => h1 ((hcond1_1 ⟨n + 1, hn⟩).mp h)
    rw [outsAt1_B V c ⟨n + 1, hn⟩ hc0 hc1 h0 h1]
    dsimp only
    exact ⟨sout1_B_0_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) hc0 hc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ _, sout1_B_1_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) hc0 hc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ _⟩

/-- The accumulators after block `n`, column by column: the sums of the blocks' column sums so far. -/
theorem acc_sum (c : Dev nD) (u : Fin 1) (j : Fin 128) : ∀ (n : ℕ) (hn : n < cfg1.N),
    (outsAt1 V c n hn).2.2.1 (ix2 u j) = ∑ t ∈ Finset.range (n + 1), colOf V c j t
    ∧ (outsAt1 V c n hn).2.2.2 (ix2 u j) = ∑ t ∈ Finset.range (n + 1), colSqOf V c j t
  | 0, hn => by
    obtain ⟨e0, e1⟩ := acc_first V c hn
    rw [e0, e1, k1_pay7_apply, k1_pay1_apply, k1_pay4_apply, k1_pay5_apply, Finset.sum_range_one, Finset.sum_range_one, zero_add, zero_add]
    unfold colOf colSqOf stepAt
    rw [dif_pos hn, dif_pos hn]
    exact ⟨rfl, rfl⟩
  | n + 1, hn => by
    obtain ⟨e0, e1⟩ := acc_next V c n hn
    obtain ⟨ih0, ih1⟩ := acc_sum c u j n (Nat.lt_of_succ_lt hn)
    rw [e0, e1, k1_pay7_apply, k1_pay1_apply, ih0, ih1, Finset.sum_range_succ _ (n + 1), Finset.sum_range_succ _ (n + 1)]
    unfold colOf colSqOf stepAt
    rw [dif_pos hn, dif_pos hn]
    exact ⟨rfl, rfl⟩

end Cert.KernelIdeal.Hand

end
-- ==== Proof.KStatsBlocks.lean ====
/-
  The statistics kernel's blocks, read off the whole arrays.

  The kernel visits 20 blocks of 5000 rows.  The two row-blocked operands (the node features and the
  aggregated messages) are read one block of 5000 rows per visit, over the full width: row r of block t is
  row 5000·t + r of the array.  The two weight matrices and the two bias vectors are read whole at every
  visit.  So the block-level chain affine, rectifier, affine at row r of block t is the specification's
  `lin` at row 5000·t + r.
-/
import proofs.«142418_j19868518711757_1_alg».proof.Proof.KStatsBase
import proofs.«142418_j19868518711757_1_alg».proof.Proof.KPay1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.KernelIdeal.Pay

variable (V : (c : Dev nD) → (b : Ref sig .tc) → Buf (Elt Ideal) ((c : Thread nD τ).loc b))

/-- The specification's `lin` with the arguments in the kernel's operand order. -/
abbrev linOf (x agg : S100000x128.Idx → EReal) (W1 : S128x128.Idx → EReal) (b1 : S128.Idx → EReal)
    (W2 : S128x128.Idx → EReal) (b2 : S128.Idx → EReal) (i : Fin 100000) (j : Fin 128) : EReal :=
  Cert.Gine.lin x agg W1 W2 b1 b2 i j

/-- Row `r` of block `t` as a row of the whole array. -/
abbrev rowAt (t : Fin cfg1.N) (r : Fin 5000) : Fin 100000 :=
  ⟨5000 * t.val + r.val, by have h : t.val < 20 := lt_of_lt_of_eq t.isLt (show cfg1.N = 20 from N_1); have := r.isLt; omega⟩

/-- Where the six operand windows sit at visit `t`: the two row-blocked ones at block `t` of the rows over the
    full width, the four others at the whole operand. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

/-- The node features' block at visit `t`, row `r`: the array's row 5000·t + r. -/
theorem blk1_0 (c : Dev nD) (t : Fin cfg1.N) (r : Fin 5000) (k : Fin 128) :
    iblk1 V c 0 t (ix2 r k) = V c main_arg0 (ix2 (rowAt t r) k) := by
  obtain ⟨e0, e1, -⟩ := idx_facts1 t
  show V c main_arg0 (((cfg1.win 0).blk t).view.emb (ix2 r k)) = _
  refine congrArg (V c main_arg0) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * k.val = k.val; omega

/-- The aggregated messages' block at visit `t`, row `r`: the array's row 5000·t + r. -/
theorem blk1_1 (c : Dev nD) (t : Fin cfg1.N) (r : Fin 5000) (k : Fin 128) :
    iblk1 V c 1 t (ix2 r k) = V c main_v14 (ix2 (rowAt t r) k) := by
  obtain ⟨-, -, e0, e1, -⟩ := idx_facts1 t
  show V c main_v14 (((cfg1.win 1).blk t).view.emb (ix2 r k)) = _
  refine congrArg (V c main_v14) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * k.val = k.val; omega

/-- The first weight matrix is read whole at every visit. -/
theorem blk1_2 (c : Dev nD) (t : Fin cfg1.N) (k' k : Fin 128) :
    iblk1 V c 2 t (ix2 k' k) = V c main_arg3 (ix2 k' k) := by
  obtain ⟨-, -, -, -, e0, e1, -⟩ := idx_facts1 t
  show V c main_arg3 (((cfg1.win 2).blk t).view.emb (ix2 k' k)) = _
  refine congrArg (V c main_arg3) (funext fun a => Fin.ext ?_)
  match a with
  | ⟨0, _⟩ => show win1_2.index t (0 : Fin 2) * 128 + 1 * k'.val = k'.val; omega
  | ⟨1, _⟩ => show win1_2.index t (1 : Fin 2) * 128 + 1 * k.val = k.val; omega

/-- The first bias vector is read whole at every visit. -/
theorem blk1_3 (c : Dev nD) (t : Fin cfg1.N) (k : Fin 128) :
    iblk1 V c 3 t (ix1 k) = V c main_arg4 (ix1 k) := by
  obtain ⟨-, -, -, -, -, -, e0, -⟩ := idx_facts1 t
  show V c main_arg4 (((cfg1.win 3).blk t).view.emb (ix1 k)) = _
  refine congrArg (V c main_arg4) (funext fun a => Fin.ext ?_)
  match a with
  | ⟨0, _⟩ => show win1_3.index t (0 : Fin 1) * 128 + 1 * k.val = k.val; omega

/-- The second weight matrix is read whole at every visit. -/
theorem blk1_4 (c : Dev nD) (t : Fin cfg1.N) (k' k : Fin 128) :
    iblk1 V c 4 t (ix2 k' k) = V c main_arg5 (ix2 k' k) := by
  obtain ⟨-, -, -, -, -, -, -, e0, e1, -⟩ := idx_facts1 t
  show V c main_arg5 (((cfg1.win 4).blk t).view.emb (ix2 k' k)) = _
  refine congrArg (V c main_arg5) (funext fun a => Fin.ext ?_)
  match a with
  | ⟨0, _⟩ => show win1_4.index t (0 : Fin 2) * 128 + 1 * k'.val = k'.val; omega
  | ⟨1, _⟩ => show win1_4.index t (1 : Fin 2) * 128 + 1 * k.val = k.val; omega

/-- The second bias vector is read whole at every visit. -/
theorem blk1_5 (c : Dev nD) (t : Fin cfg1.N) (k : Fin 128) :
    iblk1 V c 5 t (ix1 k) = V c main_arg6 (ix1 k) := by
  obtain ⟨-, -, -, -, -, -, -, -, -, e0⟩ := idx_facts1 t
  show V c main_arg6 (((cfg1.win 5).blk t).view.emb (ix1 k)) = _
  refine congrArg (V c main_arg6) (funext fun a => Fin.ext ?_)
  match a with
  | ⟨0, _⟩ => show win1_5.index t (0 : Fin 1) * 128 + 1 * k.val = k.val; omega

/-- The block-level chain at row `r` of block `t` is the specification's `lin` at row 5000·t + r of the arrays. -/
theorem linBlk_blocks (c : Dev nD) (t : Fin cfg1.N) (r : Fin 5000) (j : Fin 128) :
    linBlk (iblk1 V c 0 t) (iblk1 V c 1 t) (iblk1 V c 2 t) (iblk1 V c 3 t) (iblk1 V c 4 t) (iblk1 V c 5 t) r j
      = linOf (V c main_arg0) (V c main_v14) (V c main_arg3) (V c main_arg4) (V c main_arg5) (V c main_arg6) (rowAt t r) j := by
  unfold linBlk linOf Cert.Gine.lin Cert.Gine.hid Cert.Gine.pre
  rw [blk1_5 V c t j]
  refine congrArg (· + _) (Finset.sum_congr rfl fun k _ => ?_)
  rw [blk1_4 V c t k j, blk1_3 V c t k]
  refine congrArg (fun s => max (s + _) 0 * _) (Finset.sum_congr rfl fun k' _ => ?_)
  rw [blk1_0 V c t r k', blk1_1 V c t r k', blk1_2 V c t k' k]

end Cert.KernelIdeal.Hand

end
-- ==== Proof.BlockSum.lean ====
/-
  A sum over all 100000 rows, regrouped as 20 blocks of 5000 consecutive rows.

  Row i = 5000·t + r with t < 20 and r < 5000 in exactly one way, so the sum over all rows is the
  sum over the blocks of each block's sum.  Addition on the extended reals is commutative and
  associative, so the regrouping needs nothing of the summands.  A running total that starts at 0
  and adds block t's sum at step t therefore ends, after the twentieth step, at the sum over all rows.
-/
import proofs.«142418_j19868518711757_1_alg».proof.Proof.Spec
import Mathlib.Algebra.BigOperators.Fin
import Mathlib.Logic.Equiv.Fin.Basic

noncomputable section

namespace Cert.Gine

/-- The sum over all rows is the sum, over the 20 blocks, of the sums over each block's 5000 rows. -/
theorem sum_blocks (f : Fin 100000 → EReal) :
    ∑ i : Fin 100000, f i
      = ∑ t : Fin 20, ∑ r : Fin 5000, f ⟨5000 * t.val + r.val, by omega⟩ := by
  rw [← Fintype.sum_prod_type' (fun (t : Fin 20) (r : Fin 5000) => f ⟨5000 * t.val + r.val, by omega⟩)]
  refine (Fintype.sum_equiv (finProdFinEquiv (m := 20) (n := 5000)) _ _ fun p => ?_).symm
  refine congrArg f (Fin.ext ?_)
  show 5000 * p.1.val + p.2.val = p.2.val + 5000 * p.1.val
  omega

/-- The first `n` blocks' sums, added up by a running total. -/
theorem acc_prefix (f : Fin 100000 → EReal) (acc : ℕ → EReal) (h0 : acc 0 = 0)
    (hs : ∀ t (ht : t < 20), acc (t + 1)
      = acc t + ∑ r : Fin 5000, f ⟨5000 * t + r.val, by omega⟩) :
    ∀ n (hn : n ≤ 20), acc n
      = ∑ t : Fin n, ∑ r : Fin 5000, f ⟨5000 * t.val + r.val, by omega⟩ := by
  intro n
  induction n with
  | zero => intro _; simpa using h0
  | succ n ih =>
    intro hn
    rw [hs n (by omega), ih (by omega)]
    exact (Fin.sum_univ_castSucc
      (fun t : Fin (n + 1) => ∑ r : Fin 5000, f ⟨5000 * t.val + r.val, by omega⟩)).symm

/-- A running total from 0 that adds block `t`'s sum at step `t` is, after 20 steps, the sum over
    all rows. -/
theorem acc_eq (f : Fin 100000 → EReal) (acc : ℕ → EReal) (h0 : acc 0 = 0)
    (hs : ∀ t (ht : t < 20), acc (t + 1)
      = acc t + ∑ r : Fin 5000, f ⟨5000 * t + r.val, by omega⟩) :
    acc 20 = ∑ i : Fin 100000, f i := by
  rw [acc_prefix f acc h0 hs 20 le_rfl, sum_blocks]

end Cert.Gine

end
-- ==== Proof.KStatsFinal.lean ====
/-
  The statistics kernel's two outputs as whole arrays.

  Only the last of the 20 visits writes the two 1×128 outputs back, and its block is the whole array.  At that
  visit the first output receives the first accumulator divided by the number of rows, the second the second
  accumulator divided by the number of rows minus the square of the first output.  After the last visit the
  accumulators hold, column by column, the sums over all 20 blocks of the blocks' column sums of the values
  after the two affine maps, and of their squares; row r of block t is row 5000·t + r of the arrays, and
  the 20 blocks of 5000 rows are all 100000 rows, so these are the column sums over all rows.  Hence the
  first output is the columns' means and the second the means of the squares minus the squared means.
-/
import proofs.«142418_j19868518711757_1_alg».proof.Proof.KStatsSum
import proofs.«142418_j19868518711757_1_alg».proof.Proof.KStatsBlocks
import proofs.«142418_j19868518711757_1_alg».proof.Proof.BlockSum

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Pay

variable (V : (c : Dev nD) → (b : Ref sig .tc) → Buf (Elt Ideal) ((c : Thread nD τ).loc b))

/-- Row `r`, column `j` of block `t` after the two affine maps is the specification's `lin` at row 5000·t + r. -/
theorem stepAt_eq (c : Dev nD) (t : Fin cfg1.N) (r : Fin 5000) (j : Fin 128) :
    stepAt V c t r j = linOf (V c main_arg0) (V c main_v14) (V c main_arg3) (V c main_arg4) (V c main_arg5) (V c main_arg6) (rowAt t r) j := by
  unfold stepAt
  exact linBlk_blocks V c t r j

/-- The columns' means of `lin` over all rows, as a 1×128 array. -/
abbrev meanOf (x agg : S100000x128.Idx → EReal) (W1 : S128x128.Idx → EReal) (b1 : S128.Idx → EReal)
    (W2 : S128x128.Idx → EReal) (b2 : S128.Idx → EReal) : S1x128.Idx → EReal :=
  fun y => Cert.Gine.colMean (fun i j => linOf x agg W1 b1 W2 b2 i j) (y 1)

/-- The columns' variances of `lin` over all rows (mean of squares minus squared mean), as a 1×128 array. -/
abbrev varOf (x agg : S100000x128.Idx → EReal) (W1 : S128x128.Idx → EReal) (b1 : S128.Idx → EReal)
    (W2 : S128x128.Idx → EReal) (b2 : S128.Idx → EReal) : S1x128.Idx → EReal :=
  fun y => Cert.Gine.varOfSquares (fun i j => linOf x agg W1 b1 W2 b2 i j) (y 1)

/-! ## The accumulators after the last block -/

/-- The 20 blocks' column sums add up to the column sum over all rows. -/
theorem sum_colOf (c : Dev nD) (j : Fin 128) :
    ∑ t ∈ Finset.range 20, colOf V c j t = ∑ i : Fin 100000, linOf (V c main_arg0) (V c main_v14) (V c main_arg3) (V c main_arg4) (V c main_arg5) (V c main_arg6) i j := by
  refine Eq.trans ?_ (Cert.Gine.sum_blocks (fun i => linOf (V c main_arg0) (V c main_v14) (V c main_arg3) (V c main_arg4) (V c main_arg5) (V c main_arg6) i j)).symm
  rw [Finset.sum_range]
  refine Finset.sum_congr rfl fun t _ => ?_
  have ht : t.val < cfg1.N := lt_of_lt_of_eq t.isLt (show cfg1.N = 20 from N_1).symm
  unfold colOf
  rw [dif_pos ht]
  exact Finset.sum_congr rfl fun r _ => stepAt_eq V c ⟨t.val, ht⟩ r j

/-- The same for the squares. -/
theorem sum_colSqOf (c : Dev nD) (j : Fin 128) :
    ∑ t ∈ Finset.range 20, colSqOf V c j t
      = ∑ i : Fin 100000, linOf (V c main_arg0) (V c main_v14) (V c main_arg3) (V c main_arg4) (V c main_arg5) (V c main_arg6) i j * linOf (V c main_arg0) (V c main_v14) (V c main_arg3) (V c main_arg4) (V c main_arg5) (V c main_arg6) i j := by
  refine Eq.trans ?_ (Cert.Gine.sum_blocks (fun i => linOf (V c main_arg0) (V c main_v14) (V c main_arg3) (V c main_arg4) (V c main_arg5) (V c main_arg6) i j * linOf (V c main_arg0) (V c main_v14) (V c main_arg3) (V c main_arg4) (V c main_arg5) (V c main_arg6) i j)).symm
  rw [Finset.sum_range]
  refine Finset.sum_congr rfl fun t _ => ?_
  have ht : t.val < cfg1.N := lt_of_lt_of_eq t.isLt (show cfg1.N = 20 from N_1).symm
  unfold colSqOf
  rw [dif_pos ht]
  refine Finset.sum_congr rfl fun r _ => ?_
  rw [stepAt_eq V c ⟨t.val, ht⟩ r j]

/-! ## What the last visit stores -/

/-- At the last visit the two outputs are the mean and the variance payloads of the accumulators as that visit leaves them. -/
theorem outs_last (c : Dev nD) (t : Fin cfg1.N) (h1 : t.val % 20 = 19) :
    (outsAt1 V c t.val t.isLt).1 = k1_pay2 (F := Ideal) (outsAt1 V c t.val t.isLt).2.2.1
    ∧ (outsAt1 V c t.val t.isLt).2.1
        = k1_pay3 (F := Ideal) (outsAt1 V c t.val t.isLt).2.2.1 (outsAt1 V c t.val t.isLt).2.2.2 := by
  have hc0 : ¬cond1_0 (grid1.coords t) := fun h => by have := (hcond1_0 t).mp h; omega
  have hc1 : cond1_1 (grid1.coords t) := (hcond1_1 t).mpr h1
  have h0 : t.val ≠ 0 := fun h => by omega
  rw [outsAt1_C V c t hc0 hc1 h0 h1]
  dsimp only
  refine ⟨?_, ?_⟩
  · rw [sout1_C_0_eq, out1_C_6_eq]
  · rw [sout1_C_0_eq, sout1_C_1_eq, out1_C_7_eq]

/-! ## The last visit's block is the whole array -/

theorem idx_facts1_out : ∀ t : Fin cfg1.N,
    win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The last visit. -/
abbrev lastVisit : Fin cfg1.N := ⟨19, by rw [show cfg1.N = 20 from N_1]; omega⟩

theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v15_0).slice (win1_6.rect t)).set ↔ _
  rw [View.set_slice_whole, Rect.mem_set_unit]
  exact Iff.rfl

theorem mem_blk1_7 (t : Fin cfg1.N) (i : S1x128.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v15_1).slice (win1_7.rect t)).set ↔ _
  rw [View.set_slice_whole, Rect.mem_set_unit]
  exact Iff.rfl

theorem cover1_6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  obtain ⟨q0, q1, -, -⟩ := idx_facts1_out lastVisit
  refine ⟨lastVisit, (flush1_6 lastVisit).mpr rfl, ?_⟩
  rw [mem_blk1_6]
  intro a
  match a with
  | ⟨0, _⟩ => show win1_6.index lastVisit (0 : Fin 2) * 1 ≤ (i 0).val ∧ (i 0).val < win1_6.index lastVisit (0 : Fin 2) * 1 + 1; omega
  | ⟨1, _⟩ => show win1_6.index lastVisit (1 : Fin 2) * 128 ≤ (i 1).val ∧ (i 1).val < win1_6.index lastVisit (1 : Fin 2) * 128 + 128; omega

theorem cover1_7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  obtain ⟨-, -, q0, q1⟩ := idx_facts1_out lastVisit
  refine ⟨lastVisit, (flush1_7 lastVisit).mpr rfl, ?_⟩
  rw [mem_blk1_7]
  intro a
  match a with
  | ⟨0, _⟩ => show win1_7.index lastVisit (0 : Fin 2) * 1 ≤ (i 0).val ∧ (i 0).val < win1_7.index lastVisit (0 : Fin 2) * 1 + 1; omega
  | ⟨1, _⟩ => show win1_7.index lastVisit (1 : Fin 2) * 128 ≤ (i 1).val ∧ (i 1).val < win1_7.index lastVisit (1 : Fin 2) * 128 + 128; omega

/-! ## What is written back -/

/-- A visit that writes the outputs back is the last one. -/
theorem val_of_flush (t : Fin cfg1.N) (h1 : t.val % 20 = 19) : t.val = 19 := by
  have h : t.val < 20 := lt_of_lt_of_eq t.isLt (show cfg1.N = 20 from N_1)
  omega

/-- What the last visit writes back into the first output: the columns' means. -/
theorem flushed1_6_eq (c : Dev nD) (t : Fin cfg1.N) (hf : (cfg1.win 6).flush t = true) :
    (dat1 (F := Ideal) V c).flushed 6 t
      = ((cfg1.win 6).blk t).view.read (Elt Ideal) (meanOf (V c main_arg0) (V c main_v14) (V c main_arg3) (V c main_arg4) (V c main_arg5) (V c main_arg6)) := by
  have h1 : t.val % 20 = 19 := (flush1_6 t).mp hf
  have h19 : t.val = 19 := val_of_flush t h1
  show (cfg1.win 6).cut (grid1.coords t) ((dat1 V c).after 6 t) = _
  rw [after1_6, (outs_last V c t h1).1]
  obtain ⟨q0, q1, -, -⟩ := idx_facts1_out t
  funext y
  obtain ⟨u, j, rfl⟩ : ∃ (u : Fin 1) (j : Fin 128), y = ix2 u j := ⟨y 0, y 1, eq_ix2 y⟩
  show k1_pay2 (F := Ideal) (outsAt1 V c t.val t.isLt).2.2.1 (ix2 u j)
    = meanOf (V c main_arg0) (V c main_v14) (V c main_arg3) (V c main_arg4) (V c main_arg5) (V c main_arg6) (((cfg1.win 6).blk t).view.emb (ix2 u j))
  have hj : (((cfg1.win 6).blk t).view.emb (ix2 u j)) 1 = j :=
    Fin.ext (show win1_6.index t (1 : Fin 2) * 128 + 1 * j.val = j.val by omega)
  rw [k1_pay2_apply]
  show _ = Cert.Gine.colMean _ ((((cfg1.win 6).blk t).view.emb (ix2 u j)) 1)
  rw [hj]
  unfold Cert.Gine.colMean
  refine congrArg (Ideal.div · Cert.Gine.cnt) ?_
  have hn : t.val < cfg1.N := t.isLt
  refine ((acc_sum V c u j t.val t.isLt).1).trans ?_
  rw [h19]
  exact sum_colOf V c j

/-- What the last visit writes back into the second output: the columns' variances. -/
theorem flushed1_7_eq (c : Dev nD) (t : Fin cfg1.N) (hf : (cfg1.win 7).flush t = true) :
    (dat1 (F := Ideal) V c).flushed 7 t
      = ((cfg1.win 7).blk t).view.read (Elt Ideal) (varOf (V c main_arg0) (V c main_v14) (V c main_arg3) (V c main_arg4) (V c main_arg5) (V c main_arg6)) := by
  have h1 : t.val % 20 = 19 := (flush1_7 t).mp hf
  have h19 : t.val = 19 := val_of_flush t h1
  show (cfg1.win 7).cut (grid1.coords t) ((dat1 V c).after 7 t) = _
  rw [after1_7, (outs_last V c t h1).2]
  obtain ⟨-, -, q0, q1⟩ := idx_facts1_out t
  funext y
  obtain ⟨u, j, rfl⟩ : ∃ (u : Fin 1) (j : Fin 128), y = ix2 u j := ⟨y 0, y 1, eq_ix2 y⟩
  show k1_pay3 (F := Ideal) (outsAt1 V c t.val t.isLt).2.2.1 (outsAt1 V c t.val t.isLt).2.2.2 (ix2 u j)
    = varOf (V c main_arg0) (V c main_v14) (V c main_arg3) (V c main_arg4) (V c main_arg5) (V c main_arg6) (((cfg1.win 7).blk t).view.emb (ix2 u j))
  have hj : (((cfg1.win 7).blk t).view.emb (ix2 u j)) 1 = j :=
    Fin.ext (show win1_7.index t (1 : Fin 2) * 128 + 1 * j.val = j.val by omega)
  rw [k1_pay3_apply]
  show _ = Cert.Gine.varOfSquares _ ((((cfg1.win 7).blk t).view.emb (ix2 u j)) 1)
  rw [hj]
  unfold Cert.Gine.varOfSquares Cert.Gine.colMean
  have e0 : (outsAt1 V c t.val t.isLt).2.2.1 (ix2 u j) = ∑ i : Fin 100000, linOf (V c main_arg0) (V c main_v14) (V c main_arg3) (V c main_arg4) (V c main_arg5) (V c main_arg6) i j := by
    refine ((acc_sum V c u j t.val t.isLt).1).trans ?_
    rw [h19]
    exact sum_colOf V c j
  have e1 : (outsAt1 V c t.val t.isLt).2.2.2 (ix2 u j)
      = ∑ i : Fin 100000, linOf (V c main_arg0) (V c main_v14) (V c main_arg3) (V c main_arg4) (V c main_arg5) (V c main_arg6) i j * linOf (V c main_arg0) (V c main_v14) (V c main_arg3) (V c main_arg4) (V c main_arg5) (V c main_arg6) i j := by
    refine ((acc_sum V c u j t.val t.isLt).2).trans ?_
    rw [h19]
    exact sum_colSqOf V c j
  rw [e0, e1]

/-! ## The two arrays after the kernel -/

/-- The first output after the kernel: the columns' means of `lin`. -/
theorem final1_6 (c : Dev nD) :
    (dat1 (F := Ideal) V c).arrAt 6 cfg1.N = meanOf (V c main_arg0) (V c main_v14) (V c main_arg3) (V c main_arg4) (V c main_arg5) (V c main_arg6) :=
  (dat1 V c).arrAt_eq_of_cover 6 (meanOf (V c main_arg0) (V c main_v14) (V c main_arg3) (V c main_arg4) (V c main_arg5) (V c main_arg6)) (fun t hf => flushed1_6_eq V c t hf) (fun i => cover1_6 i)

/-- The second output after the kernel: the columns' variances of `lin`, the mean of the squares minus the squared mean. -/
theorem final1_7 (c : Dev nD) :
    (dat1 (F := Ideal) V c).arrAt 7 cfg1.N = varOf (V c main_arg0) (V c main_v14) (V c main_arg3) (V c main_arg4) (V c main_arg5) (V c main_arg6) :=
  (dat1 V c).arrAt_eq_of_cover 7 (varOf (V c main_arg0) (V c main_v14) (V c main_arg3) (V c main_arg4) (V c main_arg5) (V c main_arg6)) (fun t hf => flushed1_7_eq V c t hf) (fun i => cover1_7 i)

end Cert.KernelIdeal.Hand

end
-- ==== Proof.Algebra.lean ====
/-
  The algebra of the layer's specification over the extended reals.

  Three things are proved here.  The two float literals the specification names denote the reals
  100000 and 1.  A column's variance spelt as the mean of the squares minus the square of the mean
  equals the variance spelt as the mean of the squared deviations, as soon as every entry of the
  column is a real number: with m = (∑ r) / N,
      ∑ (r i − m)² = ∑ r i² − 2 m ∑ r + N m² = ∑ r i² − N m²,
  and dividing by N gives (∑ r i²) / N − m².  Over the extended reals the step from the left to the
  right distributes a product over a sum, which is where finiteness is used.  Last, finiteness is
  carried from the inputs through the two affine maps: sums, products and the rectifier of reals
  are reals.
-/
import proofs.«142418_j19868518711757_1_alg».proof.Proof.Spec
import Idealize.ShloMosaic.PureOps.Ideal.Laws
import Mathlib.Data.EReal.Operations
import Mathlib.Algebra.BigOperators.Ring.Finset
import Mathlib.Tactic.Ring
import Mathlib.Tactic.NormNum

noncomputable section

namespace Cert.Gine

open Idealize.ShloMosaic Idealize.ShloMosaic.ValueIdx

/-! ## The two literals -/

/-- The divisor of the mean and of the variance is the real number 100000. -/
theorem cnt_eq : cnt = ((100000 : ℝ) : EReal) := by
  simp [cnt, Ideal.ofBits, Ideal.ieee, -EReal.coe_mul]; norm_num

/-- The pattern of `1.0` denotes 1. -/
theorem one_eq : Ideal.ofBits .f32 0x3F800000#32 = 1 := by
  simp [Ideal.ofBits, Ideal.ieee, -EReal.coe_mul]; norm_num

/-! ## Finite extended reals -/

/-- An extended real that is neither infinity. -/
def Finite (a : EReal) : Prop := a ≠ ⊤ ∧ a ≠ ⊥

/-- The finite extended reals are exactly the real numbers. -/
theorem finite_iff_exists (a : EReal) : Finite a ↔ ∃ r : ℝ, a = (r : EReal) := by
  constructor
  · rintro ⟨ht, hb⟩
    exact ⟨a.toReal, (EReal.coe_toReal ht hb).symm⟩
  · rintro ⟨r, rfl⟩
    exact ⟨EReal.coe_ne_top r, EReal.coe_ne_bot r⟩

theorem Finite.exists {a : EReal} (h : Finite a) : ∃ r : ℝ, a = (r : EReal) := (finite_iff_exists a).1 h

theorem finite_coe (r : ℝ) : Finite (r : EReal) := ⟨EReal.coe_ne_top r, EReal.coe_ne_bot r⟩

theorem finite_zero : Finite (0 : EReal) := by simpa using finite_coe 0

theorem finite_one : Finite (1 : EReal) := by simpa using finite_coe 1

theorem Finite.add {a b : EReal} (ha : Finite a) (hb : Finite b) : Finite (a + b) := by
  obtain ⟨r, rfl⟩ := ha.exists; obtain ⟨s, rfl⟩ := hb.exists
  rw [← EReal.coe_add]; exact finite_coe _

theorem Finite.sub {a b : EReal} (ha : Finite a) (hb : Finite b) : Finite (a - b) := by
  obtain ⟨r, rfl⟩ := ha.exists; obtain ⟨s, rfl⟩ := hb.exists
  rw [← EReal.coe_sub]; exact finite_coe _

theorem Finite.mul {a b : EReal} (ha : Finite a) (hb : Finite b) : Finite (a * b) := by
  obtain ⟨r, rfl⟩ := ha.exists; obtain ⟨s, rfl⟩ := hb.exists
  rw [← EReal.coe_mul]; exact finite_coe _

theorem finite_max {a b : EReal} (ha : Finite a) (hb : Finite b) : Finite (max a b) := by
  rcases max_choice a b with h | h <;> rw [h] <;> assumption

theorem Finite.max_zero {a : EReal} (ha : Finite a) : Finite (max a 0) := finite_max ha finite_zero

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Finite.sum {ι : Type*} (s : Finset ι) (f : ι → EReal) (hf : ∀ i ∈ s, Finite (f i)) :
    Finite (∑ i ∈ s, f i) := by
  classical
  induction s using Finset.induction_on with
  | empty => simpa using finite_zero
  | insert a s ha ih =>
    rw [Finset.sum_insert ha]
    exact (hf a (Finset.mem_insert_self a s)).add (ih fun i hi => hf i (Finset.mem_insert_of_mem hi))

/-! ## The two spellings of the variance -/

/-- Expanding the squared deviations from any centre `m`. -/
theorem sum_sq_dev (r : Fin 100000 → ℝ) (m : ℝ) :
    ∑ i, (r i - m) * (r i - m) = (∑ i, r i * r i) - 2 * m * (∑ i, r i) + 100000 * (m * m) := by
  have h : ∀ i, (r i - m) * (r i - m) = r i * r i - 2 * m * r i + m * m := fun i => by ring
  simp only [h]
  rw [Finset.sum_add_distrib, Finset.sum_sub_distrib, ← Finset.mul_sum, Finset.sum_const,
    Finset.card_univ, Fintype.card_fin, nsmul_eq_mul]
  norm_num

/-- The identity over the reals: the mean of the squares minus the squared mean is the mean of the
    squared deviations from the mean. -/
theorem real_variance (r : Fin 100000 → ℝ) :
    (∑ i, r i * r i) * (1 / 100000) - (∑ i, r i) * (1 / 100000) * ((∑ i, r i) * (1 / 100000))
      = (∑ i, (r i - (∑ i, r i) * (1 / 100000)) * (r i - (∑ i, r i) * (1 / 100000))) * (1 / 100000) := by
  rw [sum_sq_dev]; ring

/-- Over a column of real numbers the two spellings of the variance agree. -/
theorem varOfSquares_eq_varOfDeviations (h : Fin 100000 → Fin 128 → EReal) (j : Fin 128)
    (hfin : ∀ i, Finite (h i j)) : varOfSquares h j = varOfDeviations h j := by
  choose r hr using fun i => (hfin i).exists
  have hmean : colMean h j = (((∑ i, r i) * (1 / 100000) : ℝ) : EReal) := by
    unfold colMean
    rw [cnt_eq, Ideal.div_coe (by norm_num)]
    simp only [hr]
    rw [← coe_sum, ← EReal.coe_mul]
  unfold varOfSquares varOfDeviations
  rw [hmean, cnt_eq, Ideal.div_coe (by norm_num), Ideal.div_coe (by norm_num)]
  simp only [hr]
  simp only [← EReal.coe_mul, ← EReal.coe_sub, ← coe_sum]
  exact congrArg _ (real_variance r)

/-- So the layer's result does not depend on the spelling, when every entry entering the
    normalisation is a real number. -/
theorem resultOfSquares_eq_resultOfDeviations (x agg : SNxD.Idx → EReal) (W1 W2 : SDxD.Idx → EReal)
    (b1 b2 g be : SD.Idx → EReal) (hfin : ∀ i j, Finite (lin x agg W1 W2 b1 b2 i j)) :
    resultOfSquares x agg W1 W2 b1 b2 g be = resultOfDeviations x agg W1 W2 b1 b2 g be := by
  funext y
  unfold resultOfSquares resultOfDeviations normed
  rw [varOfSquares_eq_varOfDeviations _ _ fun i => hfin i (y 1)]

/-! ## Finiteness through the two affine maps -/

section
variable {x agg : SNxD.Idx → EReal} {W1 W2 : SDxD.Idx → EReal} {b1 b2 : SD.Idx → EReal}

theorem pre_finite (hx : ∀ y, Finite (x y)) (hagg : ∀ y, Finite (agg y)) (i : Fin 100000) (k : Fin 128) :
    Finite (pre x agg i k) := (hx _).add (hagg _)

theorem hid_finite (hx : ∀ y, Finite (x y)) (hagg : ∀ y, Finite (agg y)) (hW1 : ∀ y, Finite (W1 y))
    (hb1 : ∀ y, Finite (b1 y)) (i : Fin 100000) (j : Fin 128) : Finite (hid x agg W1 b1 i j) :=
  ((Finite.sum _ _ fun k _ => (pre_finite hx hagg i k).mul (hW1 _)).add (hb1 _)).max_zero

/-- With every input entry a real number, every entry entering the normalisation is a real number. -/
theorem lin_finite (hx : ∀ y, Finite (x y)) (hagg : ∀ y, Finite (agg y)) (hW1 : ∀ y, Finite (W1 y))
    (hW2 : ∀ y, Finite (W2 y)) (hb1 : ∀ y, Finite (b1 y)) (hb2 : ∀ y, Finite (b2 y)) :
    ∀ i j, Finite (lin x agg W1 W2 b1 b2 i j) := fun i j =>
  (Finite.sum _ _ fun k _ => (hid_finite hx hagg hW1 hb1 i k).mul (hW2 _)).add (hb2 _)
end

end Cert.Gine

end
-- ==== Proof.HostFinite.lean ====
/-
  Finiteness through the two host operations that move rows around.

  A gather copies: each result element is some element of the operand, so a result of a gather of
  real numbers holds real numbers, whatever the indices.  An accumulating scatter adds: at the
  extended reals each result element is the operand's element there plus the sum of the update
  elements that land on it, a finite sum of real numbers when the operand and the updates hold real
  numbers, whatever the indices.  Both are stated for arbitrary dimension numbers.
-/
import proofs.«142418_j19868518711757_1_alg».proof.Proof.Algebra
import Idealize.ShloMosaic.PureOps.Ideal

noncomputable section

namespace Cert.Gine.Fin

open Idealize.ShloMosaic

/-- Every entry of a gather of real numbers is a real number. -/
theorem gather_finite {s si t : Shape} {w : Nat} (d : GatherDims s si t) (x : s.Idx → EReal)
    (idx : IVec si w) (hx : ∀ y, Finite (x y)) : ∀ j, Finite (Host.gather d x idx j) :=
  fun j => hx (d.operandIdx j idx)

/-- The same for a float array at the extended reals, in any format. -/
theorem gather_finite' {s si t : Shape} {w : Nat} {φ : FTy} (d : GatherDims s si t) (x : FVec Ideal s φ)
    (idx : IVec si w) (hx : ∀ y, Finite (x y)) : ∀ j, Finite (Host.gather d x idx j) :=
  fun j => hx (d.operandIdx j idx)

/-- Every entry of an accumulating scatter of real numbers into real numbers is a real number. -/
theorem scatterAdd_finite {s si u : Shape} {w : Nat} {φ : FTy} (d : ScatterDims s si u)
    (o : FVec Ideal s φ) (idx : IVec si w) (upd : FVec Ideal u φ) (ho : ∀ y, Finite (o y))
    (hu : ∀ y, Finite (upd y)) : ∀ i, Finite (Host.scatterAdd (F := Ideal) d o idx upd i) := fun i => by
  show Finite (o i + ∑ j ∈ Finset.univ.filter (fun j => d.resultIdx? j idx = some i), upd j)
  exact (ho i).add (Finite.sum _ _ fun j _ => hu j)

end Cert.Gine.Fin

end
-- ==== Proof.BridgeMath.lean ====
/-
  The last mathematical steps between the two programs' results, on the extended reals.

  (1) The normalisation the third region computes from given column means and variances, taken at the
      column means and the mean-of-squares variances of the second affine map's output, is the layer's
      result with the variance spelt as the mean of the squares minus the square of the mean.
  (2) The aggregated messages hold real numbers when the node features and the edge features do: a gather
      copies entries, the rectified sum of two real numbers is a real number, and an accumulating scatter
      into zeros adds finitely many of them.
  (3) Hence, over finite inputs, the two spellings of the variance give one result: every entry entering
      the normalisation is a real number, and there the two variances are one number.
-/
import proofs.«142418_j19868518711757_1_alg».proof.Proof.Spec
import proofs.«142418_j19868518711757_1_alg».proof.Proof.Algebra
import proofs.«142418_j19868518711757_1_alg».proof.Proof.HostFinite
import proofs.«142418_j19868518711757_1_alg».proof.Proof.RefRun
import proofs.«142418_j19868518711757_1_alg».proof.Proof.KValue2
import Idealize.ShloMosaic.Lib.ValueIdx
import Idealize.ShloMosaic.PureOps.Ideal.Laws

noncomputable section

namespace Cert.Proof.Bridge

open Idealize.ShloMosaic Idealize.ShloMosaic.ValueIdx Cert.Gine

/-! ## (1) The third region's function at the statistics -/

/-- At the column means and the mean-of-squares variances of the second affine map's output, laid out as
    1 × 128 rows, the third region's function is the layer's result with the variance spelt by squares. -/
theorem normOf_at_stats (x agg : Cert.KernelIdeal.S100000x128.Idx → EReal) (W1 : Cert.KernelIdeal.S128x128.Idx → EReal)
    (b1 : Cert.KernelIdeal.S128.Idx → EReal) (W2 : Cert.KernelIdeal.S128x128.Idx → EReal) (b2 : Cert.KernelIdeal.S128.Idx → EReal)
    (g be : Cert.KernelIdeal.S128.Idx → EReal) :
    Cert.KernelIdeal.Hand.normOf x agg W1 b1 W2 b2
        (fun y : Cert.KernelIdeal.S1x128.Idx => colMean (fun i j => lin x agg W1 W2 b1 b2 i j) (y 1))
        (fun y : Cert.KernelIdeal.S1x128.Idx => varOfSquares (fun i j => lin x agg W1 W2 b1 b2 i j) (y 1)) g be
      = resultOfSquares x agg W1 W2 b1 b2 g be := by
  funext y
  obtain ⟨i, j, rfl⟩ : ∃ (i : Fin 100000) (j : Fin 128), y = ix2 i j := ⟨y 0, y 1, eq_ix2 y⟩
  rw [Cert.KernelIdeal.Hand.normOf_apply]
  unfold resultOfSquares normed
  rfl

/-! ## (2) The aggregated messages are real numbers -/

section
open Cert.ReferenceIdeal Cert.ReferenceIdeal.RefSide

/-- A broadcast of the zero constant holds zeros, which are real numbers. -/
theorem bcast_zero_finite {t : Shape} (h : S_.BroadcastsInDim t ![]) (j : t.Idx) :
    Finite (broadcastInDim t ![] h (constant (F := Ideal) S_ .f32 0x00000000#32) j) := by
  unfold broadcastInDim
  rw [constant_apply, Ideal.ofBits_zero_f32]
  exact finite_zero

/-- Every per-edge message is a real number: a gathered entry plus an edge feature, rectified. -/
theorem msgTerm_finite (x : FVec Ideal S100000x128 .f32) (ei : EdgeList) (ea : FVec Ideal S1600000x128 .f32)
    (hx : ∀ y, Finite (x y)) (hea : ∀ y, Finite (ea y)) : ∀ y, Finite (msgTerm x ei ea y) := fun y => by
  unfold msgTerm
  rw [maximumf_apply, addf_apply]
  exact finite_max ((Cert.Gine.Fin.gather_finite' _ x _ hx y).add (hea y)) (bcast_zero_finite _ y)

/-- Every aggregated entry is a real number: zero plus the finitely many messages landing on it. -/
theorem aggTerm_finite (x : FVec Ideal S100000x128 .f32) (ei : EdgeList) (ea : FVec Ideal S1600000x128 .f32)
    (hx : ∀ y, Finite (x y)) (hea : ∀ y, Finite (ea y)) : ∀ y, Finite (aggTerm x ei ea y) := by
  unfold aggTerm
  exact Cert.Gine.Fin.scatterAdd_finite _ _ _ _ (fun y => bcast_zero_finite _ y) (msgTerm_finite x ei ea hx hea)

/-! ## (3) Over finite inputs the two spellings of the variance give one result -/

theorem results_agree (x : FVec Ideal S100000x128 .f32) (ei : EdgeList) (ea : FVec Ideal S1600000x128 .f32)
    (W1 : FVec Ideal S128x128 .f32) (b1 : FVec Ideal S128 .f32) (W2 : FVec Ideal S128x128 .f32) (b2 : FVec Ideal S128 .f32)
    (g be : FVec Ideal S128 .f32)
    (hx : ∀ y, Finite (x y)) (hea : ∀ y, Finite (ea y)) (hW1 : ∀ y, Finite (W1 y)) (hb1 : ∀ y, Finite (b1 y))
    (hW2 : ∀ y, Finite (W2 y)) (hb2 : ∀ y, Finite (b2 y)) :
    resultOfSquares x (aggTerm x ei ea) W1 W2 b1 b2 g be = resultOfDeviations x (aggTerm x ei ea) W1 W2 b1 b2 g be :=
  resultOfSquares_eq_resultOfDeviations _ _ _ _ _ _ _ _
    (lin_finite hx (aggTerm_finite x ei ea hx hea) hW1 hW2 hb1 hb2)

end

end Cert.Proof.Bridge

end
-- ==== Proof.Finite.lean ====
/-
  From the precondition to the finiteness of the inputs.

  The precondition is the conjunction, over the eight float arguments, of "every entry's absolute
  value is below +∞".  An entry of an extended-real array whose absolute value max x (−x) is below
  ⊤ is neither ⊤ nor ⊥: it is a real number.  The conjunction is a chain of bitwise ands of one-bit
  words, each conjunct a reduction by and over all indices of the one-bit comparisons; a chain that
  is 1 has every link 1, and a reduction by and that is 1 has every element 1.
-/
import proofs.«142418_j19868518711757_1_alg».proof.Proof.Algebra
import proofs.«142418_j19868518711757_1_alg».proof.Pre_finite_inputs
import Idealize.ShloMosaic.Lib.ReduceAll

noncomputable section

namespace Cert.Gine.Fin

open Idealize.ShloMosaic Cert.Pre_finite_inputs

/-- The pattern of `+inf` denotes ⊤. -/
theorem inf_eq : Ideal.ofBits .f32 0x7F800000#32 = (⊤ : EReal) := by
  simp [Ideal.ofBits, Ideal.ieee]

/-- An extended real whose absolute value compares below ⊤ is a real number. -/
theorem finite_of_abs_lt (x : EReal)
    (h : Ideal.cmp .olt (max x (-x)) (Ideal.ofBits .f32 0x7F800000#32) = 1#1) : Finite x := by
  rw [inf_eq] at h
  have h' : max x (-x) < ⊤ := by
    by_contra hn
    simp [Ideal.cmp, hn] at h
  induction x using EReal.rec with
  | bot => simp at h'
  | coe r => exact finite_coe r
  | top => simp at h'

instance : Subsingleton S_.Idx := ⟨fun a b => funext fun d => d.elim0⟩

/-- A pointwise and of two one-bit arrays that is 1 at an index has both operands 1 there. -/
theorem andi_apply_eq_one {s : Shape} (p q : IVec s 1) (i : s.Idx) (h : andi p q i = 1#1) :
    p i = 1#1 ∧ q i = 1#1 := IntOp.andi_eq_one.1 h

/-- One conjunct of the precondition: all entries' absolute values below +∞, so all entries real. -/
theorem all_finite {s : Shape} (a : FVec Ideal s .f32)
    (hb : S_.BroadcastsInDim s (![] : Fin 0 → Fin s.rank)) {axes : List (Fin s.rank)}
    (hr : s.ReducesTo axes S_) (hu : 0 < S_.numel) (j : S_.Idx)
    (h : Host.reduce IntOp.andi
        (cmpf .olt (Host.absf a) (broadcastInDim s ![] hb (constant S_ .f32 0x7F800000#32)))
        (constantI S_ 1 1#1) hr hu j = 1#1) :
    ∀ y, Finite (a y) := fun y =>
  finite_of_abs_lt (a y) (Host.reduce_andi_all _ _ hr hu j h y)

variable [Cert.Pre_finite_inputs.Facts]

/-- Under the precondition every entry of every float argument is a real number. -/
theorem inputs_finite (a0 : FVec Ideal S100000x128 .f32) (a1 : IVec S2x1600000 32)
    (a2 : FVec Ideal S1600000x128 .f32) (a3 : FVec Ideal S128x128 .f32) (a4 : FVec Ideal S128 .f32)
    (a5 : FVec Ideal S128x128 .f32) (a6 a7 a8 : FVec Ideal S128 .f32)
    (hpre : Cert.Pre_finite_inputs.fn (F := Ideal) a0 a1 a2 a3 a4 a5 a6 a7 a8 = fun _ => 1#1) :
    (∀ y, Finite (a0 y)) ∧ (∀ y, Finite (a2 y)) ∧ (∀ y, Finite (a3 y)) ∧ (∀ y, Finite (a4 y)) ∧
      (∀ y, Finite (a5 y)) ∧ (∀ y, Finite (a6 y)) ∧ (∀ y, Finite (a7 y)) ∧ (∀ y, Finite (a8 y)) := by
  have h := congrFun hpre ValueIdx.ix0
  dsimp only [fn, fn_part1, fn_part2] at h
  obtain ⟨h, h8⟩ := andi_apply_eq_one _ _ _ h
  obtain ⟨h, h7⟩ := andi_apply_eq_one _ _ _ h
  obtain ⟨h, h6⟩ := andi_apply_eq_one _ _ _ h
  obtain ⟨h, h5⟩ := andi_apply_eq_one _ _ _ h
  obtain ⟨h, h4⟩ := andi_apply_eq_one _ _ _ h
  obtain ⟨h, h3⟩ := andi_apply_eq_one _ _ _ h
  obtain ⟨h0, h2⟩ := andi_apply_eq_one _ _ _ h
  exact ⟨all_finite a0 _ _ _ _ h0, all_finite a2 _ _ _ _ h2, all_finite a3 _ _ _ _ h3,
    all_finite a4 _ _ _ _ h4, all_finite a5 _ _ _ _ h5, all_finite a6 _ _ _ _ h6,
    all_finite a7 _ _ _ _ h7, all_finite a8 _ _ _ _ h8⟩

end Cert.Gine.Fin

end
-- ==== Proof.RefRun2.lean ====
/-
  The reference program's result and frame.

  The fold of the program's operations, read at the result buffer, is the staged composition `outTerm` of
  the nine argument arrays; read at an argument buffer it is what was there, because no operation writes an
  argument.  With the run of the straight line this gives the program's run in the form the equivalence
  claim uses (result first, then the nine arguments unchanged), and, with the result dropped, its frame.
-/
import proofs.«142418_j19868518711757_1_alg».proof.Proof.RefRun
import proofs.«142418_j19868518711757_1_alg».proof.Defs
import proofs.«142418_j19868518711757_1_alg».proof.Proof.Gen.Pre_finite_inputs

noncomputable section

namespace Cert.ReferenceIdeal.RefSide

open Cert.ReferenceIdeal Cert.ReferenceIdeal.Gen Idealize.ShloMosaic Idealize.ShloMosaic.TcCoe Idealize.SL.Sem Idealize.ShloMosaic.StableHlo

-- the large operations stay closed while the two sides are compared: the comparison never looks inside them
attribute [local irreducible] Host.gather Host.scatterAdd Host.reduceAdd Host.divf Host.rsqrt in
set_option maxRecDepth 16384 in
set_option maxHeartbeats 1000000 in
/-- The fold at the result buffer is `outTerm` of the fold's starting contents at the argument buffers. -/
theorem result_eq (V : Valuation τ sig (Elt Ideal)) :
    after (ops (F := Ideal)) V (main_v47 : DevRef τ sig)
      = outTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-- No operation writes an argument buffer: the fold leaves each of the nine where it was. -/
theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp
theorem arg7_eq (V : Valuation τ sig (Elt Ideal)) :
    after (ops (F := Ideal)) V (main_arg7 : DevRef τ sig) = V (main_arg7 : DevRef τ sig) := by
  after_results_simp
theorem arg8_eq (V : Valuation τ sig (Elt Ideal)) :
    after (ops (F := Ideal)) V (main_arg8 : DevRef τ sig) = V (main_arg8 : DevRef τ sig) := by
  after_results_simp

/-- From any memory with zero counters every weakly fair execution of the program terminates, with the result
    buffer at `outTerm` of the argument arrays as the launch found them and the nine arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v47) = outTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v47).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_fold (F := Ideal) m ρ)

/-- The reference's frame: its run with the result dropped. -/
theorem frame_ri : Cert.frame_ReferenceIdeal :=
  fun m ρ _ => (θ_run _ _ _).mono (fun _ h c => (h c).2) (run m ρ)

end Cert.ReferenceIdeal.RefSide

end
-- ==== Proof.RefRead.lean ====
/-
  The reference's result, read entry by entry.

  `outTerm` composes whole-array operations; the specification `Cert.Gine.resultOfDeviations` says what each
  entry is.  The bridge reads every stage at an index: a scalar broadcast is its scalar, a feature vector
  repeated down the rows is the vector's entry at the column, a matrix product is the sum over the contracted
  coordinate, a column sum from zero is the sum over the rows, the library variance's guard `100000 − 0 > 0`
  holds so its guarded quotient is the quotient, and one times an entry is the entry.  The per-edge part stays
  closed inside `aggTerm`: the bridge is stated for any array of aggregated messages.
-/
import proofs.«142418_j19868518711757_1_alg».proof.Proof.RefRun
import proofs.«142418_j19868518711757_1_alg».proof.Proof.Spec
import proofs.«142418_j19868518711757_1_alg».proof.Proof.Algebra
import Idealize.ShloMosaic.Lib.IdealHost
import Idealize.ShloMosaic.Lib.KernelVsHost
import Idealize.ShloMosaic.Lib.Pipeline.Value

noncomputable section

namespace Cert.ReferenceIdeal.RefSide

open Cert.ReferenceIdeal Cert.ReferenceIdeal.Gen Idealize.ShloMosaic Idealize.ShloMosaic.ValueIdx
open scoped BigOperators

/-! ## Broadcasts at an index -/

/-- A float literal broadcast from a scalar reads the literal's value at every index. -/
theorem splat_apply {T : Shape} (h : S_.BroadcastsInDim T ![]) (b : BitVec FTy.f32.bits) (j : T.Idx) :
    broadcastInDim T ![] h (constant (F := Ideal) S_ .f32 b) j = Ideal.ofBits .f32 b :=
  broadcastInDim_scalar_apply h _ j

/-- A feature vector as a one-row matrix reads, at column `j` of its row, the vector's entry `j`. -/
theorem oneRow_apply (v : FVec Ideal S128 .f32) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) (fun a => by
    match a with
    | ⟨0, _⟩ => rfl)

/-- A one-row matrix repeated down the rows reads, at `(i, j)`, the row's entry `j`. -/
theorem rows_apply (y : FVec Ideal S1x128 .f32) (i : Fin 100000) (j : Fin 128) :
    broadcastInDim S100000x128 ![0, 1] bcast_S1x128_S100000x128_0_1 y (ix2 i j) = y (ix2 (0 : Fin 1) j) :=
  broadcastInDim_oneRow_apply bcast_S1x128_S100000x128_0_1 y i j

/-- A feature vector repeated down the rows reads, at `(i, j)`, the vector's entry `j`. -/
theorem rowsOf_apply (v : FVec Ideal S128 .f32) (i : Fin 100000) (j : Fin 128) : rowsOf v (ix2 i j) = v (ix1 j) :=
  (rows_apply _ i j).trans (oneRow_apply v j)

/-! ## The node update, the rectifier, the affine maps -/

/-- The rectifier at an index is the maximum with zero. -/
theorem reluTerm_apply (h : FVec Ideal S100000x128 .f32) (y : S100000x128.Idx) : reluTerm h y = max (h y) 0 := by
  unfold reluTerm
  rw [maximumf_apply, splat_apply, Ideal.ofBits_zero_f32]

/-- The node update at `(i, k)`: the node's own entry (one times it) plus the aggregated one. -/
theorem preTerm_apply (x agg : FVec Ideal S100000x128 .f32) (i : Fin 100000) (k : Fin 128) :
    preTerm x agg (ix2 i k) = Cert.Gine.pre x agg i k := by
  unfold preTerm Cert.Gine.pre
  rw [addf_apply, mulf_apply, splat_apply, Cert.Gine.one_eq, one_mul]

local notation "DOT" => dot_S100000x128_S128x128_S100000x128_1_0_0_1_n_n

theorem lhs_0 (i : S100000x128.Idx) (q : (DotDims.contr DOT).Idx) : (DotDims.lhsIdx DOT i q 0).val = (i 0).val := by
  unfold DotDims.lhsIdx
  rw [dif_neg (show ¬(0 : Fin S100000x128.rank) ∈ DotDims.lhsBatch DOT by decide),
    dif_pos (show (0 : Fin S100000x128.rank) ∈ DotDims.lhsNonContracting DOT by decide)]
  rfl
theorem lhs_1 (i : S100000x128.Idx) (q : (DotDims.contr DOT).Idx) :
    (DotDims.lhsIdx DOT i q 1).val = (q ⟨0, by decide⟩).val :=
  DotDims.lhsIdx_val_of_single DOT rfl i q
theorem rhs_0 (i : S100000x128.Idx) (q : (DotDims.contr DOT).Idx) :
    (DotDims.rhsIdx DOT i q 0).val = (q ⟨0, by decide⟩).val :=
  DotDims.rhsIdx_val_of_single DOT rfl i q
theorem rhs_1 (i : S100000x128.Idx) (q : (DotDims.contr DOT).Idx) : (DotDims.rhsIdx DOT i q 1).val = (i 1).val := by
  unfold DotDims.rhsIdx
  rw [dif_neg (show ¬(1 : Fin S128x128.rank) ∈ DotDims.rhsBatch DOT by decide),
    dif_pos (show (1 : Fin S128x128.rank) ∈ DotDims.rhsNonContracting DOT by decide)]
  rfl

/-- The matrix product at `(i, j)`: the sum over the contracted coordinate of row `i` times column `j`. -/
theorem dot_apply (h : FVec Ideal S100000x128 .f32) (W : FVec Ideal S128x128 .f32) (i : Fin 100000) (j : Fin 128) :
    Host.dotGeneral DOT none h W (ix2 i j) = ∑ k : Fin 128, h (ix2 i k) * W (ix2 k j) := by
  show FloatOps.dotGeneral DOT none HostSchedule.single h W (ix2 i j) = _
  rw [Ideal.dotGeneral_apply, ← Equiv.sum_comp (contrEquiv1 DOT 128 rfl rfl).symm]
  refine Finset.sum_congr rfl fun k _ => ?_
  have hk := contrEquiv1_symm_val DOT 128 rfl rfl k
  have el : DotDims.lhsIdx DOT (ix2 i j) ((contrEquiv1 DOT 128 rfl rfl).symm k) = ix2 i k :=
    funext fun a => Fin.ext (by
      match a with
      | ⟨0, _⟩ => exact lhs_0 _ _
      | ⟨1, _⟩ => exact (lhs_1 _ _).trans hk)
  have er : DotDims.rhsIdx DOT (ix2 i j) ((contrEquiv1 DOT 128 rfl rfl).symm k) = ix2 k j :=
    funext fun a => Fin.ext (by
      match a with
      | ⟨0, _⟩ => exact (rhs_0 _ _).trans hk
      | ⟨1, _⟩ => exact rhs_1 _ _)
  rw [el, er]

/-- An affine map at `(i, j)`. -/
theorem affineTerm_apply (h : FVec Ideal S100000x128 .f32) (W : FVec Ideal S128x128 .f32) (b : FVec Ideal S128 .f32)
    (i : Fin 100000) (j : Fin 128) :
    affineTerm h W b (ix2 i j) = (∑ k : Fin 128, h (ix2 i k) * W (ix2 k j)) + b (ix1 j) := by
  unfold affineTerm
  rw [addf_apply, dot_apply, rowsOf_apply]

/-- The array whose columns are normalised, at `(i, j)`: the specification's `lin`. -/
theorem linTerm_apply (x agg : FVec Ideal S100000x128 .f32) (W1 : FVec Ideal S128x128 .f32) (b1 : FVec Ideal S128 .f32)
    (W2 : FVec Ideal S128x128 .f32) (b2 : FVec Ideal S128 .f32) (i : Fin 100000) (j : Fin 128) :
    linTerm x agg W1 b1 W2 b2 (ix2 i j) = Cert.Gine.lin x agg W1 W2 b1 b2 i j := by
  unfold linTerm Cert.Gine.lin
  rw [affineTerm_apply]
  refine congrArg (· + b2 (ix1 j)) (Finset.sum_congr rfl fun k _ => ?_)
  refine congrArg (· * W2 (ix2 k j)) ?_
  unfold Cert.Gine.hid
  rw [reluTerm_apply, affineTerm_apply]
  refine congrArg (fun s => max (s + b1 (ix1 k)) 0) (Finset.sum_congr rfl fun k' _ => ?_)
  rw [preTerm_apply]

/-! ## Column sums, means and the library variance -/

/-- A column's sum from zero is the sum of the column over the rows. -/
theorem colSums_apply (l : FVec Ideal S100000x128 .f32) (j : Fin 128) :
    colSums l (ix1 j) = ∑ i : Fin 100000, l (ix2 i j) := by
  unfold colSums
  rw [hostReduceAdd_apply, Ideal.hostReduceAdd_single reducesTo_S100000x128_S128_d0 (by decide)]
  rw [constant_apply, Ideal.ofBits_zero_f32, zero_add]
  refine Finset.sum_congr rfl fun k _ => ?_
  exact congrArg l (funext fun a => Fin.ext (by
    match a with
    | ⟨0, _⟩ => rfl
    | ⟨1, _⟩ => rfl))

/-- The row count broadcast as a divisor reads the row count. -/
theorem cnt_apply {T : Shape} (h : S_.BroadcastsInDim T ![]) (j : T.Idx) :
    broadcastInDim T ![] h (constant (F := Ideal) S_ .f32 0x47C35000#32) j = Cert.Gine.cnt :=
  splat_apply h _ j

/-- A column's mean, for the array read as a function of row and column: the specification's `colMean`. -/
theorem meanTerm_apply (l : FVec Ideal S100000x128 .f32) (j : Fin 128) :
    meanTerm l (ix1 j) = Cert.Gine.colMean (fun i j => l (ix2 i j)) j := by
  unfold meanTerm Cert.Gine.colMean
  rw [hostDivf_apply, colSums_apply, cnt_apply]

/-- The deviation from the column mean at `(i, j)`; the library variance computes the means with the row kept
    as a unit axis, which reads the same quotient. -/
theorem devTerm_apply (l : FVec Ideal S100000x128 .f32) (i : Fin 100000) (j : Fin 128) :
    devTerm l (ix2 i j) = l (ix2 i j) - Cert.Gine.colMean (fun i j => l (ix2 i j)) j := by
  unfold devTerm Cert.Gine.colMean
  rw [subf_apply, rows_apply, hostDivf_apply, oneRow_apply, colSums_apply, cnt_apply]

/-- The variance's divisor: the row count minus the converted integer zero is the row count. -/
theorem varDivisor_apply : varDivisor ix0 = Cert.Gine.cnt := by
  unfold varDivisor
  rw [subf_apply, constant_apply, sitofp_apply]
  have h0 : (FloatOps.sitofp (F := Ideal) .f32 (constantI S_ 32 (0#32) ix0) : EReal) = 0 := sitofp_zero (φ := .f32)
  rw [h0]
  exact sub_zero _

/-- The guard of the library variance: the divisor is above zero. -/
theorem guard_apply : cmpf .ogt varDivisor (constant (F := Ideal) S_ .f32 0x00000000#32) ix0 = 1#1 := by
  rw [cmpf_apply, varDivisor_apply, constant_apply, Ideal.ofBits_zero_f32, Cert.Gine.cnt_eq]
  show Ideal.cmp .ogt _ _ = 1#1
  unfold Ideal.cmp
  have h : (0 : EReal) < ((100000 : ℝ) : EReal) := by exact_mod_cast (by norm_num : (0 : ℝ) < 100000)
  simp [h]

/-- The library variance of a column: the guard holds, so it is the mean of the squared deviations — the
    specification's `varOfDeviations`. -/
theorem varTerm_apply (l : FVec Ideal S100000x128 .f32) (j : Fin 128) :
    varTerm l (ix1 j) = Cert.Gine.varOfDeviations (fun i j => l (ix2 i j)) j := by
  unfold varTerm Cert.Gine.varOfDeviations
  rw [select_apply, broadcastInDim_scalar_apply, guard_apply, select_one, hostDivf_apply, colSums_apply,
    broadcastInDim_scalar_apply, varDivisor_apply]
  refine congrArg (Ideal.div · Cert.Gine.cnt) (Finset.sum_congr rfl fun i _ => ?_)
  rw [mulf_apply, devTerm_apply]

/-! ## The result -/

/-- The normalised, scaled, shifted and rectified entry: the specification's `normed` at the library variance. -/
theorem normTerm_apply (l : FVec Ideal S100000x128 .f32) (g be : FVec Ideal S128 .f32) (i : Fin 100000) (j : Fin 128) :
    normTerm l g be (ix2 i j)
      = Cert.Gine.normed (fun i j => l (ix2 i j)) (Cert.Gine.varOfDeviations (fun i j => l (ix2 i j))) g be i j := by
  unfold normTerm Cert.Gine.normed
  rw [reluTerm_apply, addf_apply, mulf_apply, mulf_apply, subf_apply, rowsOf_apply, rowsOf_apply, rowsOf_apply, rowsOf_apply,
    meanTerm_apply]
  show max ((_ - _) * Ideal.rsqrt (addf (varTerm l) _ (ix1 j)) * _ + _) 0 = _
  rw [addf_apply, varTerm_apply, splat_apply]
  rfl

/-- The staged composition over any array of aggregated messages is the specification's result with the
    variance spelt as the mean of the squared deviations. -/
theorem normTerm_linTerm_eq (x agg : FVec Ideal S100000x128 .f32) (W1 : FVec Ideal S128x128 .f32) (b1 : FVec Ideal S128 .f32)
    (W2 : FVec Ideal S128x128 .f32) (b2 g be : FVec Ideal S128 .f32) :
    normTerm (linTerm x agg W1 b1 W2 b2) g be = Cert.Gine.resultOfDeviations x agg W1 W2 b1 b2 g be := by
  funext y
  obtain ⟨i, j, rfl⟩ : ∃ (i : Fin 100000) (j : Fin 128), y = ix2 i j := ⟨y 0, y 1, eq_ix2 y⟩
  rw [normTerm_apply]
  have hl : (fun i j => linTerm x agg W1 b1 W2 b2 (ix2 i j)) = Cert.Gine.lin x agg W1 W2 b1 b2 :=
    funext fun i => funext fun j => linTerm_apply x agg W1 b1 W2 b2 i j
  rw [hl]
  rfl

/-- The reference's result is the specification's, over the aggregated messages as the reference computes them. -/
theorem outTerm_eq (x : FVec Ideal S100000x128 .f32) (ei : EdgeList) (ea : FVec Ideal S1600000x128 .f32)
    (W1 : FVec Ideal S128x128 .f32) (b1 : FVec Ideal S128 .f32) (W2 : FVec Ideal S128x128 .f32) (b2 g be : FVec Ideal S128 .f32) :
    outTerm x ei ea W1 b1 W2 b2 g be = Cert.Gine.resultOfDeviations x (aggTerm x ei ea) W1 W2 b1 b2 g be :=
  normTerm_linTerm_eq x (aggTerm x ei ea) W1 b1 W2 b2 g be

end Cert.ReferenceIdeal.RefSide

end
-- ==== Proof.Bridge.lean ====
/-
  The equivalence of the two programs on the extended reals.

  The kernel program's result is what its last kernel writes back: the normalising form of the rows after the two
  affine maps, at the column means and variances the statistics kernel left, over the node features and the
  aggregated messages.  Read back through the segments, the aggregated messages are the reference's own
  aggregation of the same edge list, the statistics are the column means and the mean of squares minus the squared
  mean over all rows, and the remaining operands are the arguments as launched.  The reference's result is the same
  normalising form with the variance spelt as the mean of the squared deviations; over finite entries — which the
  precondition gives, through the gather, the scatter-add and the two affine maps — the two spellings are one number.
-/
import proofs.«142418_j19868518711757_1_alg».proof.Defs
import proofs.«142418_j19868518711757_1_alg».proof.Proof.Gen.Kernel
import proofs.«142418_j19868518711757_1_alg».proof.Proof.Gen.KernelIdeal
import proofs.«142418_j19868518711757_1_alg».proof.Proof.Gen.ReferenceIdeal
import proofs.«142418_j19868518711757_1_alg».proof.Proof.Gen.Pre_finite_inputs
import proofs.«142418_j19868518711757_1_alg».proof.Proof.KHostAgree
import proofs.«142418_j19868518711757_1_alg».proof.Proof.KValue2
import proofs.«142418_j19868518711757_1_alg».proof.Proof.KStatsFinal
import proofs.«142418_j19868518711757_1_alg».proof.Proof.BridgeMath
import proofs.«142418_j19868518711757_1_alg».proof.Proof.Finite
import proofs.«142418_j19868518711757_1_alg».proof.Proof.RefRun2
import proofs.«142418_j19868518711757_1_alg».proof.Proof.RefRead

noncomputable section

namespace Cert.Proof.Bridge

open Idealize.ShloMosaic Idealize.ShloMosaic.TcCoe Idealize.SL.Sem
open Cert.KernelIdeal Cert.KernelIdeal.Hand

variable (m : (ℓ : Loc nD τ sig) → Buf (Elt Ideal) ℓ) (ρ : Dev nD → PrngReg)

/-- The layer's result over the launch memory's arguments, with the reference's aggregation of the edge list. -/
abbrev resultAt (c : Dev nD) : S100000x128.Idx → EReal :=
  Cert.Gine.resultOfDeviations (m ((c : Thread nD τ).loc main_arg0))
    (Cert.ReferenceIdeal.RefSide.aggTerm (m ((c : Thread nD τ).loc main_arg0)) (m ((c : Thread nD τ).loc main_arg1)) (m ((c : Thread nD τ).loc main_arg2)))
    (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))

/-- What the kernel program leaves in its result buffer is the layer's result. -/
theorem kernel_value (hpre : Cert.Pre_KernelIdeal m) (c : Dev nD) :
    W5 (F := Ideal) m ρ c (Proc.devRef .tc main_v16) = resultAt m c := by
  have e := V5_v16 m ρ c
  rw [final2 (V4 m ρ) c] at e
  rw [V4_arg0, V4_v14, kernel_agg, V4_arg3, V4_arg4, V4_arg5, V4_arg6, V4_v15_0, V4_v15_1, V4_arg7, V4_arg8,
    final1_6 (V3 m ρ) c, final1_7 (V3 m ρ) c, V3_arg0, kernel_agg, V3_arg3, V3_arg4, V3_arg5, V3_arg6] at e
  refine e.trans ?_
  obtain ⟨h0, h2, h3, h4, h5, h6, _, _⟩ := Cert.Gine.Fin.inputs_finite _ _ _ _ _ _ _ _ _ (hpre c)
  exact (normOf_at_stats _ _ _ _ _ _ _ _).trans (results_agree _ _ _ _ _ _ _ _ _ h0 h2 h3 h4 h5 h6)

end Cert.Proof.Bridge

end
-- ==== Proof.lean ====
/-
  The certificate: a graph layer — messages max(x_src + e, 0) summed onto their target nodes, two affine maps with a
  rectifier between them, and a column-wise normalisation by the batch mean and variance — computed by three kernels
  around a host gather and scatter-add, against the same layer written with plain array operations.

  Each program runs to the end without a fault and leaves its arguments unchanged (the three frames); the idealized
  kernel program is the kernel program's own text read over the extended reals (nothing was rewritten); and over the
  extended reals the two programs return the same array whenever the float inputs are finite: the kernels' blockwise
  sums are the whole sums, and the mean of the squares minus the squared mean is the mean of the squared deviations.
-/
import proofs.«142418_j19868518711757_1_alg».proof.Defs
import proofs.«142418_j19868518711757_1_alg».proof.Proof.Gen.Kernel
import proofs.«142418_j19868518711757_1_alg».proof.Proof.Gen.Kernel.Skeleton
import proofs.«142418_j19868518711757_1_alg».proof.Proof.Gen.Kernel.Launch
import proofs.«142418_j19868518711757_1_alg».proof.Proof.Gen.Kernel.Regions
import proofs.«142418_j19868518711757_1_alg».proof.Proof.Gen.Kernel.Points
import proofs.«142418_j19868518711757_1_alg».proof.Proof.Gen.KernelIdeal
import proofs.«142418_j19868518711757_1_alg».proof.Proof.Gen.KernelIdeal.Skeleton
import proofs.«142418_j19868518711757_1_alg».proof.Proof.Gen.KernelIdeal.Launch
import proofs.«142418_j19868518711757_1_alg».proof.Proof.Gen.KernelIdeal.Regions
import proofs.«142418_j19868518711757_1_alg».proof.Proof.Gen.KernelIdeal.Points
import proofs.«142418_j19868518711757_1_alg».proof.Proof.Gen.ReferenceIdeal
import proofs.«142418_j19868518711757_1_alg».proof.Proof.Gen.Pre_finite_inputs
import proofs.«142418_j19868518711757_1_alg».proof.Proof.Frames
import proofs.«142418_j19868518711757_1_alg».proof.Proof.Bridge
import Idealize.ShloMosaic.Adequacy
import Idealize.ShloMosaic.Init

noncomputable section

namespace Cert.Proof

open Idealize.ShloMosaic Idealize.ShloMosaic.TcCoe Idealize.SL.Sem

/-- The reference runs to the end and leaves its arguments unchanged: its run with the result dropped. -/
theorem frame_ri : Cert.frame_ReferenceIdeal := Cert.ReferenceIdeal.RefSide.frame_ri

/-- Nothing of the kernel program was rewritten for the extended reals. -/
theorem preserves : Cert.preserves_Kernel_KernelIdeal := trivial

/-- From memories agreeing on the arguments both idealized programs end with the layer's result. -/
theorem algebraic : Cert.algebraic_KernelIdeal_ReferenceIdeal := by
  intro m ρ m' ρ' hpre hagree
  refine ⟨fun c => Cert.Proof.Bridge.resultAt m c, ?_, ?_⟩
  · exact (θ_run (Cert.KernelIdeal.defs (F := Ideal)) _ _).mono (fun r h c =>
      ⟨(h c _ (Cert.KernelIdeal.Hand.mem_uc Cert.KernelIdeal.main_v16 (by decide))).trans (Cert.Proof.Bridge.kernel_value m ρ hpre c),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c)⟩)
      (Cert.KernelIdeal.Hand.run (F := Ideal) m ρ)
  · refine (θ_run (Cert.ReferenceIdeal.defs (F := Ideal)) _ _).mono (fun r h c => ⟨(h c).1.trans ?_, (h c).2⟩)
      (Cert.ReferenceIdeal.RefSide.run m' ρ')
    rw [Cert.ReferenceIdeal.RefSide.outTerm_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, frame_ri, preserves, algebraic⟩

end Cert.Proof

end
